-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x256 .f32) (main_arg1 : IVec S2x1600000 32) (main_arg2 : FVec F S256x256 .f32) (main_arg3 : FVec F S256 .f32) (main_arg4 : FVec F S256x128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_v13 main_v16
-- ==== Kernel.lean ====
abbrev S100000x256 : Shape := ⟨2, ![100000, 256]⟩
abbrev S2x1600000 : Shape := ⟨2, ![2, 1600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x256 : Shape := ⟨2, ![1, 256]⟩
abbrev S2000x256 : Shape := ⟨2, ![2000, 256]⟩
abbrev S1x128 : Shape := ⟨2, ![1, 128]⟩
abbrev S100000x128 : Shape := ⟨2, ![100000, 128]⟩
abbrev S2000x128 : Shape := ⟨2, ![2000, 128]⟩
abbrev S1600000x128 : Shape := ⟨2, ![1600000, 128]⟩
abbrev S100000x1 : Shape := ⟨2, ![100000, 1]⟩

abbrev nBuf : Space → Nat
  | .hbm => 142
  | .vmem => 38
  | .smem => 0
  | _ => 0

abbrev hbmTy0_0 (i : Nat) : BufTy := match i % 128 with
  | 0 => ⟨S100000x256, .f32⟩
  | 1 => ⟨S2x1600000, .i32⟩
  | 2 => ⟨S256x256, .f32⟩
  | 3 => ⟨S256, .f32⟩
  | 4 => ⟨S256x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S100000, .f32⟩
  | 46 => ⟨S1x256, .f32⟩
  | 47 => ⟨S100000x256, .f32⟩
  | 48 => ⟨S_, .f32⟩
  | 49 => ⟨S128, .f32⟩
  | 50 => ⟨S1x128, .f32⟩
  | 51 => ⟨S100000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x1, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S100000x1, .f32⟩
  | 69 => ⟨S100000x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S100000x128, .f32⟩
  | 95 => ⟨S_, .f32⟩
  | 96 => ⟨S128, .f32⟩
  | 97 => ⟨S1x128, .f32⟩
  | 98 => ⟨S100000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x1, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000x1, .f32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S_, .f32⟩
  | _ => ⟨S100000x256, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S1x128, .f32⟩
  | 5 => ⟨S_, .f32⟩
  | 6 => ⟨S1x128, .f32⟩
  | 7 => ⟨S1x128, .f32⟩
  | 8 => ⟨S1x128, .f32⟩
  | 9 => ⟨S1x128, .f32⟩
  | 10 => ⟨S1x128, .f32⟩
  | 11 => ⟨S1x128, .f32⟩
  | 12 => ⟨S1x128, .f32⟩
  | 13 => ⟨S100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52_0 : Ref sig .tc := ⟨.hbm, 75, rfl⟩
abbrev main_v52_1 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_13 : Ref sig .tc := ⟨.hbm, 99, rfl⟩
abbrev main_v71 : Ref sig .tc := ⟨.hbm, 100, rfl⟩
abbrev main_v72 : Ref sig .tc := ⟨.hbm, 101, rfl⟩
abbrev main_c_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91_0 : Ref sig .tc := ⟨.hbm, 122, rfl⟩
abbrev main_v91_1 : Ref sig .tc := ⟨.hbm, 123, rfl⟩
abbrev main_cst_16 : Ref sig .tc := ⟨.hbm, 124, rfl⟩
abbrev main_v92 : Ref sig .tc := ⟨.hbm, 125, rfl⟩
abbrev main_v93 : Ref sig .tc := ⟨.hbm, 126, rfl⟩
abbrev main_cst_17 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_18 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc6_sem3_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S128 : S_.BroadcastsInDim S128 (![] : Fin 0 → Fin S128.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  shapeCasts_S2000x128_S2000x128 : S2000x128.ShapeCasts S2000x128
  reduces_S2000x128_S128 : S2000x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S100000x128.size a
  hwx6_3 : ∀ i : grid6.Coords, EltTy.bits .f32 = 32 ∨ (Rect.block (s := S100000x128) S2000x128.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v51) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v67) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v90) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91_0) S1x128.size cc5_transform_1 reads5_1 true true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91_1) S1x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v90) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v105) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v106) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S1x256 : Shape := ⟨2, ![1, 256]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 219
  | .vmem => 0
  | .smem => 0
  | _ => 0

abbrev hbmTy0_0 (i : Nat) : BufTy := match i % 128 with
  | 0 => ⟨S100000x256, .f32⟩
  | 1 => ⟨S2x1600000, .i32⟩
  | 2 => ⟨S256x256, .f32⟩
  | 3 => ⟨S256, .f32⟩
  | 4 => ⟨S256x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S1x1600000, .i32⟩
  | 13 => ⟨S1600000, .i32⟩
  | 14 => ⟨S1x1600000, .i32⟩
  | 15 => ⟨S1600000, .i32⟩
  | 16 => ⟨S100000x256, .f32⟩
  | 17 => ⟨S1x256, .f32⟩
  | 18 => ⟨S100000x256, .f32⟩
  | 19 => ⟨S100000x256, .f32⟩
  | 20 => ⟨S100000x128, .f32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x1, .f32⟩
  | 60 => ⟨S1600000x128, .f32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S128, .f32⟩
  | 110 => ⟨S128, .f32⟩
  | 111 => ⟨S128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S100000x128, .f32⟩
  | 122 => ⟨S_, .f32⟩
  | 123 => ⟨S1600000, .f32⟩
  | 124 => ⟨S_, .f32⟩
  | 125 => ⟨S100000, .f32⟩
  | 126 => ⟨S1600000x1, .i32⟩
  | 127 => ⟨S100000, .f32⟩
  | _ => ⟨S100000x256, .f32⟩

abbrev hbmTy0_1 (i : Nat) : BufTy := match i % 128 with
  | 0 => ⟨S_, .f32⟩
  | 1 => ⟨S100000, .f32⟩
  | 2 => ⟨S100000, .f32⟩
  | 3 => ⟨S100000, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000, .f32⟩
  | 22 => ⟨S1600000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S1600000x1, .f32⟩
  | 33 => ⟨S1600000x128, .f32⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S100000, .f32⟩
  | 40 => ⟨S100000x1, .f32⟩
  | 41 => ⟨S100000x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_cst_0 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_cst_1 : Ref sig .tc := ⟨.hbm, 90, rfl⟩
abbrev main_call0_v8 : Ref sig .tc := ⟨.hbm, 91, rfl⟩
abbrev main_call0_cst_2 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_cst_3 : Ref sig .tc := ⟨.hbm, 96, rfl⟩
abbrev main_call0_v12 : Ref sig .tc := ⟨.hbm, 97, rfl⟩
abbrev main_call0_cst_4 : Ref sig .tc := ⟨.hbm, 98, rfl⟩
abbrev main_call0_call0_v0 : Ref sig .tc := ⟨.hbm, 99, rfl⟩
abbrev main_call0_call0_v1 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_11 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_call1_cst : Ref sig .tc := ⟨.hbm, 118, rfl⟩
abbrev main_call1_v0 : Ref sig .tc := ⟨.hbm, 119, rfl⟩
abbrev main_v71 : Ref sig .tc := ⟨.hbm, 120, rfl⟩
abbrev main_v72 : Ref sig .tc := ⟨.hbm, 121, rfl⟩
abbrev main_cst_12 : Ref sig .tc := ⟨.hbm, 122, rfl⟩
abbrev main_v73 : Ref sig .tc := ⟨.hbm, 123, rfl⟩
abbrev main_cst_13 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_14 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_c_15 : Ref sig .tc := ⟨.hbm, 132, rfl⟩
abbrev main_v80 : Ref sig .tc := ⟨.hbm, 133, rfl⟩
abbrev main_v81 : Ref sig .tc := ⟨.hbm, 134, rfl⟩
abbrev main_c_16 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_c_17 : Ref sig .tc := ⟨.hbm, 141, rfl⟩
abbrev main_v87 : Ref sig .tc := ⟨.hbm, 142, rfl⟩
abbrev main_v88 : Ref sig .tc := ⟨.hbm, 143, rfl⟩
abbrev main_c_18 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_c_19 : Ref sig .tc := ⟨.hbm, 151, rfl⟩
abbrev main_v95 : Ref sig .tc := ⟨.hbm, 152, rfl⟩
abbrev main_v96 : Ref sig .tc := ⟨.hbm, 153, rfl⟩
abbrev main_c_20 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_21 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_cst_22 : Ref sig .tc := ⟨.hbm, 175, rfl⟩
abbrev main_v116 : Ref sig .tc := ⟨.hbm, 176, rfl⟩
abbrev main_cst_23 : Ref sig .tc := ⟨.hbm, 177, rfl⟩
abbrev main_v117 : Ref sig .tc := ⟨.hbm, 178, rfl⟩
abbrev main_v118 : Ref sig .tc := ⟨.hbm, 179, rfl⟩
abbrev main_c_24 : Ref sig .tc := ⟨.hbm, 180, rfl⟩
abbrev main_call2_cst : Ref sig .tc := ⟨.hbm, 181, rfl⟩
abbrev main_call2_v0 : Ref sig .tc := ⟨.hbm, 182, rfl⟩
abbrev main_call2_v1 : Ref sig .tc := ⟨.hbm, 183, rfl⟩
abbrev main_call2_cst_0 : Ref sig .tc := ⟨.hbm, 184, rfl⟩
abbrev main_call2_v2 : Ref sig .tc := ⟨.hbm, 185, rfl⟩
abbrev main_call2_v3 : Ref sig .tc := ⟨.hbm, 186, rfl⟩
abbrev main_call2_v4 : Ref sig .tc := ⟨.hbm, 187, rfl⟩
abbrev main_call2_v5 : Ref sig .tc := ⟨.hbm, 188, rfl⟩
abbrev main_call2_v6 : Ref sig .tc := ⟨.hbm, 189, rfl⟩
abbrev main_call2_v7 : Ref sig .tc := ⟨.hbm, 190, rfl⟩
abbrev main_call2_cst_1 : Ref sig .tc := ⟨.hbm, 191, rfl⟩
abbrev main_call2_v8 : Ref sig .tc := ⟨.hbm, 192, rfl⟩
abbrev main_call2_cst_2 : Ref sig .tc := ⟨.hbm, 193, rfl⟩
abbrev main_call2_v9 : Ref sig .tc := ⟨.hbm, 194, rfl⟩
abbrev main_call2_v10 : Ref sig .tc := ⟨.hbm, 195, rfl⟩
abbrev main_call2_v11 : Ref sig .tc := ⟨.hbm, 196, rfl⟩
abbrev main_call2_cst_3 : Ref sig .tc := ⟨.hbm, 197, rfl⟩
abbrev main_call2_v12 : Ref sig .tc := ⟨.hbm, 198, rfl⟩
abbrev main_call2_cst_4 : Ref sig .tc := ⟨.hbm, 199, rfl⟩
abbrev main_call2_call0_v0 : Ref sig .tc := ⟨.hbm, 200, rfl⟩
abbrev main_call2_call0_v1 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_cst_25 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The program's run with its result named.  From any memory with zero counters every weakly fair execution of the
  program ends, nothing faulting, with the result array holding the contents the last boundary of the run records
  for it — the fold of the seven stretches of array operations and the seven kernel regions over the launch memory —
  and every argument array as launched.  The launch theorem is applied to the same segments, boundary contents and
  thread states as for the frame alone; the final state is read at one more buffer, the result's.
-/
import proofs.«171444_j1073741824178_1_alg».proof.Proof.Gen.KernelIdeal.Frame

set_option maxRecDepth 16384

noncomputable section

namespace Cert.KerVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result array at the last boundary's contents and the arguments unchanged. -/
theorem run : θ_run defs (onTc (τ := τ) (main (F := F))) ⟨m, fun _ => 0, ρ⟩ (fun r => ∀ c : Dev nD,
      r.2.mem ((c.tc : Thread nD τ).loc main_v106) = W14 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v106 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KerVal

end
-- ==== Proof.LibMatOps.lean ====
/-
  Array functions over the extended reals, for any sizes, each stated at an index through its two coordinates: the
  matrix product entry by entry (mm), one row added to every row (addRow), the sums down each column of the entries
  (colSum) and of their squares (colSumSq) as one row, a scale and a shift applied column by column (affine), and the
  positive part (relu).  The lemmas named `_apply` read each at the index built from two literal coordinates, by
  definition.  A tiled kernel's closed form (a dense layer with a bias row, a column-sum accumulator, a column-wise
  normalisation) can be stated as one of these functions of its whole input arrays.
-/
import Idealize.ShloMosaic.Lib.ValueIdx
import Idealize.ShloMosaic.PureOps.Ideal

noncomputable section

open scoped BigOperators

namespace Cert.Spec

open Idealize.ShloMosaic Idealize.ShloMosaic.ValueIdx

variable {n k d : ℕ}

/-- An n × d array of extended reals. -/
abbrev Mat (n d : ℕ) : Type := (⟨2, ![n, d]⟩ : Shape).Idx → EReal

/-- The matrix product: entry (p, j) is the sum over q of X (p, q) · W (q, j). -/
def mm (X : Mat n k) (W : Mat k d) : Mat n d := fun i => ∑ q : Fin k, X (ix2 (i 0) q) * W (ix2 q (i 1))

theorem mm_apply (X : Mat n k) (W : Mat k d) (p : Fin n) (j : Fin d) :
    mm X W (ix2 p j) = ∑ q : Fin k, X (ix2 p q) * W (ix2 q j) := rfl

/-- The one row B added to every row of Y. -/
def addRow (Y : Mat n d) (B : Mat 1 d) : Mat n d := fun i => Y i + B (ix2 (0 : Fin 1) (i 1))

theorem addRow_apply (Y : Mat n d) (B : Mat 1 d) (p : Fin n) (j : Fin d) :
    addRow Y B (ix2 p j) = Y (ix2 p j) + B (ix2 (0 : Fin 1) j) := rfl

/-- The sum down each column, as one row. -/
def colSum (X : Mat n d) : Mat 1 d := fun i => ∑ p : Fin n, X (ix2 p (i 1))

theorem colSum_apply (X : Mat n d) (z : Fin 1) (j : Fin d) : colSum X (ix2 z j) = ∑ p : Fin n, X (ix2 p j) := rfl

/-- The sum of the squares down each column, as one row. -/
def colSumSq (X : Mat n d) : Mat 1 d := fun i => ∑ p : Fin n, X (ix2 p (i 1)) * X (ix2 p (i 1))

theorem colSumSq_apply (X : Mat n d) (z : Fin 1) (j : Fin d) :
    colSumSq X (ix2 z j) = ∑ p : Fin n, X (ix2 p j) * X (ix2 p j) := rfl

/-- Column j scaled by S j and shifted by T j. -/
def affine (X : Mat n d) (S T : Mat 1 d) : Mat n d :=
  fun i => X i * S (ix2 (0 : Fin 1) (i 1)) + T (ix2 (0 : Fin 1) (i 1))

theorem affine_apply (X : Mat n d) (S T : Mat 1 d) (p : Fin n) (j : Fin d) :
    affine X S T (ix2 p j) = X (ix2 p j) * S (ix2 (0 : Fin 1) j) + T (ix2 (0 : Fin 1) j) := rfl

/-- The positive part, entry by entry. -/
def relu (Y : Mat n d) : Mat n d := fun i => max (Y i) 0

theorem relu_apply (Y : Mat n d) (p : Fin n) (j : Fin d) : relu Y (ix2 p j) = max (Y (ix2 p j)) 0 := rfl

end Cert.Spec

end
-- ==== Proof.KDefs.lean ====
/-
  The value the kernel's program computes, as one function of its twelve argument arrays, over the extended reals.

  The edge list e is two rows of integer words: row 0 the sources, row 1 the destinations.  A node's degree is one
  plus the number of edges whose destination word names it; dinv is its inverse square root; an edge's weight
  (norm) is dinv at its source times dinv at its destination, each read where a word wrapped once into range
  points; a node's own weight (selfn) is dinv squared.  A graph convolution of the features h adds, into each node,
  its incoming edges' source rows scaled by their weights, then the node's own row scaled by its own weight, then
  the bias row.  The dense layers and the normalisation sums and applications are the kernels' (Cert.Spec); between
  them the mean, the variance as mean of squares less squared mean, the scale gamma / sqrt(variance + epsilon) and
  the shift beta - mean * scale are one-row array operations.
-/
import proofs.«171444_j1073741824178_1_alg».proof.KernelIdeal
import proofs.«171444_j1073741824178_1_alg».proof.Proof.Gen.KernelIdeal
import proofs.«171444_j1073741824178_1_alg».proof.Proof.LibMatOps

noncomputable section

namespace Cert.KerVal

open Cert.KernelIdeal Cert.KernelIdeal.Facts₀ Cert.KernelIdeal.Facts Idealize.ShloMosaic

/-- The contents of a buffer of shape s and element type t at the exact instance. -/
abbrev C (s : Shape) (t : EltTy) : Type := (⟨s, t⟩ : BufTy).Contents (Elt Ideal)

/-- Row 0 of the edge list, flat: the edges' source words. -/
def src (e : C S2x1600000 .i32) : C S1600000 .i32 :=
  fun i => shapeCast S1600000 (extractStridedSlice S1x1600000 ![0, 0] e slices_S2x1600000_S1x1600000_0_0) shapeCasts_S1x1600000_S1600000 i

/-- Row 1 of the edge list, flat: the edges' destination words. -/
def dst (e : C S2x1600000 .i32) : C S1600000 .i32 :=
  fun i => shapeCast S1600000 (extractStridedSlice S1x1600000 ![1, 0] e slices_S2x1600000_S1x1600000_1_0) shapeCasts_S1x1600000_S1600000 i

/-- Words wrapped once into range (a negative word has the node count added), as a column of start indices. -/
def wrapCol (x : C S1600000 .i32) : C S1600000x1 .i32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- Words as they are, as a column of start indices. -/
def col (x : C S1600000 .i32) : C S1600000x1 .i32 := broadcastInDim S1600000x1 ![0] bcast_S1600000_S1600000x1_0 x

/-- The inverse square root of each node's degree (one plus its count of incoming edges). -/
def dinv (e : C S2x1600000 .i32) : FVec Ideal S100000 .f32 :=
  Host.rsqrt (F := Ideal) (addf
    (Host.scatterAdd (F := Ideal) scatter_S100000_S1600000x1_S1600000_n_0_0_1
      (broadcastInDim S100000 ![] bcast_S_S100000 (constant (F := Ideal) S_ .f32 0x00000000#32))
      (col (dst e))
      (broadcastInDim S1600000 ![] bcast_S_S1600000 (constant (F := Ideal) S_ .f32 0x3F800000#32)))
    (broadcastInDim S100000 ![] bcast_S_S100000 (constant (F := Ideal) S_ .f32 0x3F800000#32)))

/-- An edge's weight: dinv at its source times dinv at its destination. -/
def norm (e : C S2x1600000 .i32) : FVec Ideal S1600000 .f32 :=
  mulf (Host.gather gather_S100000_S1600000x1_S1600000_n_0_n_n_0_1_1 (dinv e) (wrapCol (src e)))
    (Host.gather gather_S100000_S1600000x1_S1600000_n_0_n_n_0_1_1 (dinv e) (wrapCol (dst e)))

/-- A node's own weight: dinv squared. -/
def selfn (e : C S2x1600000 .i32) : FVec Ideal S100000 .f32 := mulf (dinv e) (dinv e)

/-- A length-128 array as one row. -/
def row (b : FVec Ideal S128 .f32) : FVec Ideal S1x128 .f32 := fun i => shapeCast S1x128 b shapeCasts_S128_S1x128 i

/-- A length-256 array as one row. -/
def row256 (b : FVec Ideal S256 .f32) : FVec Ideal S1x256 .f32 := fun i => shapeCast S1x256 b shapeCasts_S256_S1x256 i

/-- The zero row of length 128. -/
def zrow : FVec Ideal S1x128 .f32 := row (broadcastInDim S128 ![] bcast_S_S128 (constant (F := Ideal) S_ .f32 0x00000000#32))

/-- The convolution's edge sum, own term and bias from precomputed weights nrm and slf. -/
def convW (h : FVec Ideal S100000x128 .f32) (s d : C S1600000 .i32) (nrm : FVec Ideal S1600000 .f32) (slf : FVec Ideal S100000 .f32)
    (b : FVec Ideal S128 .f32) : FVec Ideal S100000x128 .f32 :=
  addf (addf
    (Host.scatterAdd (F := Ideal) scatter_S100000x128_S1600000x1_S1600000x128_1_0_0_1
      (broadcastInDim S100000x128 ![] bcast_S_S100000x128 (constant (F := Ideal) S_ .f32 0x00000000#32))
      (col d)
      (mulf (Host.gather gather_S100000x128_S1600000x1_S1600000x128_1_0_n_n_0_1_1128 h (wrapCol s))
        (broadcastInDim S1600000x128 ![0, 1] bcast_S1600000x1_S1600000x128_0_1
          (broadcastInDim S1600000x1 ![0] bcast_S1600000_S1600000x1_0 nrm))))
    (mulf h (broadcastInDim S100000x128 ![0, 1] bcast_S100000x1_S100000x128_0_1
      (broadcastInDim S100000x1 ![0] bcast_S100000_S100000x1_0 slf))))
    (broadcastInDim S100000x128 ![0, 1] bcast_S1x128_S100000x128_0_1 (row b))

/-- The graph convolution of h over the edge list e with bias b. -/
def conv (h : FVec Ideal S100000x128 .f32) (e : C S2x1600000 .i32) (b : FVec Ideal S128 .f32) : FVec Ideal S100000x128 .f32 :=
  convW h (src e) (dst e) (norm e) (selfn e) b

/-- A row of column sums divided by the number of rows. -/
def mean (s : FVec Ideal S1x128 .f32) : FVec Ideal S1x128 .f32 :=
  Host.divf (F := Ideal) s (broadcastInDim S1x128 ![] bcast_S_S1x128 (constant (F := Ideal) S_ .f32 0x47C35000#32))

/-- gamma / sqrt (mean of squares - squared mean + epsilon), from the sums s and the sums of squares sq. -/
def scale (s sq : FVec Ideal S1x128 .f32) (g : FVec Ideal S128 .f32) : FVec Ideal S1x128 .f32 :=
  mulf (row g) (Host.rsqrt (F := Ideal) (addf (subf (mean sq) (mulf (mean s) (mean s)))
    (broadcastInDim S1x128 ![] bcast_S_S1x128 (constant (F := Ideal) S_ .f32 0x3727C5AC#32))))

/-- beta - mean * scale. -/
def shift (s sq : FVec Ideal S1x128 .f32) (g b : FVec Ideal S128 .f32) : FVec Ideal S1x128 .f32 :=
  subf (row b) (mulf (mean s) (scale s sq g))

/-- Normalisation of the columns of x by its own column statistics. -/
def norml (x : FVec Ideal S100000x128 .f32) (g b : FVec Ideal S128 .f32) : FVec Ideal S100000x128 .f32 :=
  Cert.Spec.affine x (scale (Cert.Spec.colSum x) (Cert.Spec.colSumSq x) g) (shift (Cert.Spec.colSum x) (Cert.Spec.colSumSq x) g b)

/-- The input projection. -/
def proj (a0 : FVec Ideal S100000x256 .f32) (a2 : FVec Ideal S256x256 .f32) (a3 : FVec Ideal S256 .f32) : FVec Ideal S100000x256 .f32 :=
  Cert.Spec.addRow (Cert.Spec.mm a0 a2) (row256 a3)

/-- A dense layer with the zero bias row. -/
def lin1 (x : FVec Ideal S100000x256 .f32) (w : FVec Ideal S256x128 .f32) : FVec Ideal S100000x128 .f32 := Cert.Spec.addRow (Cert.Spec.mm x w) zrow
def lin2 (x : FVec Ideal S100000x128 .f32) (w : FVec Ideal S128x128 .f32) : FVec Ideal S100000x128 .f32 := Cert.Spec.addRow (Cert.Spec.mm x w) zrow

/-- The first layer's output: convolution, normalisation, positive part. -/
def layer1 (a0 : FVec Ideal S100000x256 .f32) (a1 : C S2x1600000 .i32) (a2 : FVec Ideal S256x256 .f32) (a3 : FVec Ideal S256 .f32) (a4 : FVec Ideal S256x128 .f32)
    (a5 a6 a7 : FVec Ideal S128 .f32) : FVec Ideal S100000x128 .f32 :=
  Cert.Spec.relu (norml (conv (lin1 (proj a0 a2 a3) a4) a1 a5) a6 a7)

/-- The program's result. -/
def out (a0 : FVec Ideal S100000x256 .f32) (a1 : C S2x1600000 .i32) (a2 : FVec Ideal S256x256 .f32) (a3 : FVec Ideal S256 .f32) (a4 : FVec Ideal S256x128 .f32)
    (a5 a6 a7 : FVec Ideal S128 .f32) (a8 : FVec Ideal S128x128 .f32) (a9 a10 a11 : FVec Ideal S128 .f32) : FVec Ideal S100000x128 .f32 :=
  norml (conv (lin2 (layer1 a0 a1 a2 a3 a4 a5 a6 a7) a8) a1 a9) a10 a11

end Cert.KerVal

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«171444_j1073741824178_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.RegMM0.lean ====
/-
  The region whose body multiplies a block of 2000 rows of a 100000 × 256 array by a whole 256 × 256 array and adds
  one row of 256 entries to every row of the product.  Over the extended reals the rounding of the two operands to a
  shorter format is the identity, and a product accumulated from zero is the plain sum over the inner index, so the
  block the body leaves is, entry by entry, ∑ q, X (r, q) · W (q, j) + B (0, j) with r the row of the array the block's
  row sits at.  Block t holds rows 2000·t … 2000·t + 1999, the fifty blocks tile the 100000 rows, and so the array
  the region leaves is the matrix product of the first two operands with the third operand's row added to each row.
-/
import proofs.«171444_j1073741824178_1_alg».proof.Proof.Gen.KernelIdeal.Frame
import proofs.«171444_j1073741824178_1_alg».proof.Proof.LibMatOps
import proofs.«171444_j1073741824178_1_alg».proof.Proof.LibPlainDot
import Idealize.ShloMosaic.Lib.Pipeline.Value
import Idealize.ShloMosaic.Lib.ValueLayout
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KReg0

open Cert.KernelIdeal Cert.KernelIdeal.Gen

variable (V : (c : Dev nD) → (b : Ref sig .tc) → Buf (Elt Ideal) ((c : Thread nD τ).loc b))

/-- The offsets of a rectangle that starts at the origin. -/
theorem hz : (![0, 0] : Fin 2 → Nat) = fun _ => 0 := funext fun a => by fin_cases a <;> rfl

/-- The product contracts the left operand's columns against the right operand's rows, with no batch axis. -/
theorem dims_plain : dot_S2000x256_S256x256_S2000x256_1_0_0_1_n_n = DotDims.plain 2000 256 256 := rfl

/-- The body's result at row p, column j of its block: the inner product of row p of the first block with column j
    of the second, plus entry j of the one row. -/
theorem pay_apply (x0 : Vec Ideal S2000x256 .f32) (x1 : Vec Ideal S256x256 .f32) (x2 : Vec Ideal S1x256 .f32)
    (p : Fin 2000) (j : Fin 256) :
    k0_pay1 (F := Ideal) x0 x1 x2 (ix2 p j)
      = (∑ q : Fin 256, x0 (ix2 p q) * x1 (ix2 q j)) + x2 (ix2 (0 : Fin 1) j) := by
  unfold k0_pay1
  refine (addf_apply _ _ _).trans ?_
  refine congrArg₂ (· + ·) ?_ ?_
  · exact Cert.LibPlainDot.matmul_zero_apply dot_S2000x256_S256x256_S2000x256_1_0_0_1_n_n dims_plain none
      (truncf .bf16 x0 bitsLt_bf16_f32) (truncf .bf16 x1 bitsLt_bf16_f32) p j
  · rw [shapeCast_self]
    exact broadcastTo_1b_ab_apply x2 broadcasts_S1x256_S2000x256 p j

/-- Where the blocks sit, at each of the fifty points: the first operand's block and the result's block are block t
    of the rows; the second and third operands are one block, the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the first operand's block at point t is row 2000·t + p of the array. -/
theorem blk_lhs (c : Dev nD) (t : Fin cfg0.N) (p : Fin 2000) (q : Fin 256) (r : Fin 100000)
    (hr : r.val = 2000 * t.val + p.val) :
    (iblk0 V c 0 t : Vec Ideal S2000x256 .f32) (ix2 p q) = (V c main_arg0 : S100000x256.Idx → EReal) (ix2 r q) := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 256 + 1 * q.val = q.val; rw [e1]; omega

/-- The second operand's block is the whole array at every point. -/
theorem blk_rhs (c : Dev nD) (t : Fin cfg0.N) (q : Fin 256) (j : Fin 256) :
    (iblk0 V c 1 t : Vec Ideal S256x256 .f32) (ix2 q j) = (V c main_arg2 : S256x256.Idx → EReal) (ix2 q j) := by
  obtain ⟨-, -, e2, e3, -⟩ := idx_facts t
  unfold iblk0
  rw [View.read_apply]
  show V c main_arg2 _ = V c main_arg2 _
  refine congrArg _ (funext fun a => Fin.ext ?_)
  match a with
  | ⟨0, _⟩ => show win0_1.index t (0 : Fin 2) * 256 + 1 * q.val = q.val; rw [e2]; omega
  | ⟨1, _⟩ => show win0_1.index t (1 : Fin 2) * 256 + 1 * j.val = j.val; rw [e3]; omega

/-- The one row's block is the whole row at every point. -/
theorem blk_bias (c : Dev nD) (t : Fin cfg0.N) (z : Fin 1) (j : Fin 256) :
    (iblk0 V c 2 t : Vec Ideal S1x256 .f32) (ix2 z j) = (V c main_v27 : S1x256.Idx → EReal) (ix2 z j) := by
  obtain ⟨-, -, -, -, e4, e5, -⟩ := idx_facts t
  unfold iblk0
  rw [View.read_apply]
  show V c main_v27 _ = V c main_v27 _
  refine congrArg _ (funext fun a => Fin.ext ?_)
  match a with
  | ⟨0, _⟩ => show win0_2.index t (0 : Fin 2) * 1 + 1 * z.val = z.val; rw [e4]; omega
  | ⟨1, _⟩ => show win0_2.index t (1 : Fin 2) * 256 + 1 * j.val = j.val; rw [e5]; omega

/-- What point t writes back is block t of the product with the row added: the body's one store fills its block,
    and each of its entries reads the operands' blocks at the rows and columns the entry's place in the array names. -/
theorem flushed_eq (c : Dev nD) (t : Fin cfg0.N) :
    (dat0 (F := Ideal) V c).flushed 3 t
      = ((cfg0.win 3).blk t).view.read (Elt Ideal)
          (Cert.Spec.addRow (Cert.Spec.mm (V c main_arg0) (V c main_arg2)) (V c main_v27)) := by
  show (cfg0.win 3).cut (grid0.coords t) ((dat0 V c).after 3 t) = _
  rw [after0_3]
  unfold out0_3
  rw [View.canon_unit_zero hz]
  simp only [View.ld_unit_zero (S := S2000x256) hz,
    View.ld_unit_zero (S := S256x256) hz,
    View.ld_unit_zero (S := S1x256) hz]
  obtain ⟨-, -, -, -, -, -, e6, e7⟩ := idx_facts t
  have hN : t.val < 50 := Nat.lt_of_lt_of_eq t.isLt N_0
  funext j
  obtain ⟨p, q, rfl⟩ : ∃ (p : Fin 2000) (q : Fin 256), j = ix2 p q := ⟨j 0, j 1, eq_ix2 j⟩
  have hemb : ((cfg0.win 3).blk t).view.emb (ix2 p q)
      = (ix2 (⟨2000 * t.val + p.val, by have := p.isLt; omega⟩ : Fin 100000) q : S100000x256.Idx) := by
    funext a; apply Fin.ext
    match a with
    | ⟨0, _⟩ => show win0_3.index t (0 : Fin 2) * 2000 + 1 * p.val = 2000 * t.val + p.val; rw [e6]; omega
    | ⟨1, _⟩ => show win0_3.index t (1 : Fin 2) * 256 + 1 * q.val = q.val; rw [e7]; omega
  show k0_pay1 (iblk0 V c 0 t) (iblk0 V c 1 t) (iblk0 V c 2 t) (ix2 p q)
      = Cert.Spec.addRow (Cert.Spec.mm (V c main_arg0) (V c main_arg2)) (V c main_v27)
          (((cfg0.win 3).blk t).view.emb (ix2 p q))
  rw [hemb, Cert.Spec.addRow_apply, Cert.Spec.mm_apply]
  refine (pay_apply (iblk0 V c 0 t) (iblk0 V c 1 t) (iblk0 V c 2 t) p q).trans ?_
  refine congrArg₂ (· + ·) (Finset.sum_congr rfl fun k _ => congrArg₂ (· * ·) ?_ ?_) ?_
  · exact blk_lhs V c t p k _ rfl
  · exact blk_rhs V c t k q
  · exact blk_bias V c t 0 q

/-- An index of the result array is in point t's block iff each coordinate is in the block's range on its axis. -/
theorem mem_blk (t : Fin cfg0.N) (i : S100000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v28).slice (win0_3.rect t)).set ↔ _
  rw [View.set_slice_whole, Rect.mem_set_unit]
  exact Iff.rfl

/-- Row r of the result lies in the block of point r / 2000, so the fifty blocks cover the array. -/
theorem cover (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hlt : (i 0).val / 2000 < cfg0.N := by rw [show cfg0.N = 50 from N_0]; omega
  obtain ⟨-, -, -, -, -, -, e6, e7⟩ := idx_facts ⟨(i 0).val / 2000, hlt⟩
  refine ⟨⟨(i 0).val / 2000, hlt⟩, flush0_3 _, ?_⟩
  rw [mem_blk]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, hlt⟩ (1 : Fin 2) * 256 ≤ (i 1).val
      ∧ (i 1).val < win0_3.index ⟨(i 0).val / 2000, hlt⟩ (1 : Fin 2) * 256 + 256
    rw [e7]; omega

/-- The array the region leaves: the matrix product of the first two operands, with the third operand's one row
    added to every row. -/
theorem value (c : Dev nD) :
      (Gen.dat0 (F := Ideal) V c).arrAt 3 cfg0.N
        = Cert.Spec.addRow (Cert.Spec.mm (V c main_arg0) (V c main_arg2)) (V c main_v27) :=
  (dat0 (F := Ideal) V c).arrAt_eq_of_cover 3
    (Cert.Spec.addRow (Cert.Spec.mm (V c main_arg0) (V c main_arg2)) (V c main_v27))
    (fun t _ => flushed_eq V c t) cover

end Cert.KReg0

end
-- ==== Proof.RegMM1.lean ====
/-
  The region whose body multiplies a block of 2000 rows of a 100000 × 256 array by a whole 256 × 128 array and adds
  one row of 128 entries to every row of the product.  Over the extended reals the rounding of the two operands to a
  shorter format is the identity, and a product accumulated from zero is the plain sum over the inner index, so the
  block the body leaves is, entry by entry, ∑ q, X (r, q) · W (q, j) + B (0, j) with r the row of the array the block's
  row sits at.  Block t holds rows 2000·t … 2000·t + 1999, the fifty blocks tile the 100000 rows, and so the array
  the region leaves is the matrix product of the first two operands with the third operand's row added to each row.
-/
import proofs.«171444_j1073741824178_1_alg».proof.Proof.Gen.KernelIdeal.Frame
import proofs.«171444_j1073741824178_1_alg».proof.Proof.LibMatOps
import proofs.«171444_j1073741824178_1_alg».proof.Proof.LibPlainDot
import Idealize.ShloMosaic.Lib.Pipeline.Value
import Idealize.ShloMosaic.Lib.ValueLayout
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KReg1

open Cert.KernelIdeal Cert.KernelIdeal.Gen

variable (V : (c : Dev nD) → (b : Ref sig .tc) → Buf (Elt Ideal) ((c : Thread nD τ).loc b))

/-- The offsets of a rectangle that starts at the origin. -/
theorem hz : (![0, 0] : Fin 2 → Nat) = fun _ => 0 := funext fun a => by fin_cases a <;> rfl

/-- The product contracts the left operand's columns against the right operand's rows, with no batch axis. -/
theorem dims_plain : dot_S2000x256_S256x128_S2000x128_1_0_0_1_n_n = DotDims.plain 2000 256 128 := rfl

/-- The body's result at row p, column j of its block: the inner product of row p of the first block with column j
    of the second, plus entry j of the one row. -/
theorem pay_apply (x0 : Vec Ideal S2000x256 .f32) (x1 : Vec Ideal S256x128 .f32) (x2 : Vec Ideal S1x128 .f32)
    (p : Fin 2000) (j : Fin 128) :
    k1_pay1 (F := Ideal) x0 x1 x2 (ix2 p j)
      = (∑ q : Fin 256, x0 (ix2 p q) * x1 (ix2 q j)) + x2 (ix2 (0 : Fin 1) j) := by
  unfold k1_pay1
  refine (addf_apply _ _ _).trans ?_
  refine congrArg₂ (· + ·) ?_ ?_
  · refine (Cert.LibPlainDot.matmul_zero_apply dot_S2000x256_S256x128_S2000x128_1_0_0_1_n_n dims_plain none
      (truncf .bf16 (shapeCast S2000x256 x0 shapeCasts_S2000x256_S2000x256) bitsLt_bf16_f32) (truncf .bf16 x1 bitsLt_bf16_f32) p j).trans ?_
    rw [shapeCast_self]
    rfl
  · rw [shapeCast_self]
    exact broadcastTo_1b_ab_apply x2 broadcasts_S1x128_S2000x128 p j

/-- Where the blocks sit, at each of the fifty points: the first operand's block and the result's block are block t
    of the rows; the second and third operands are one block, the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the first operand's block at point t is row 2000·t + p of the array. -/
theorem blk_lhs (c : Dev nD) (t : Fin cfg1.N) (p : Fin 2000) (q : Fin 256) (r : Fin 100000)
    (hr : r.val = 2000 * t.val + p.val) :
    (iblk1 V c 0 t : Vec Ideal S2000x256 .f32) (ix2 p q) = (V c main_v28 : S100000x256.Idx → EReal) (ix2 r q) := by
  obtain ⟨e0, e1, -⟩ := idx_facts t
  unfold iblk1
  rw [View.read_apply]
  show V c main_v28 _ = V c main_v28 _
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 256 + 1 * q.val = q.val; rw [e1]; omega

/-- The second operand's block is the whole array at every point. -/
theorem blk_rhs (c : Dev nD) (t : Fin cfg1.N) (q : Fin 256) (j : Fin 128) :
    (iblk1 V c 1 t : Vec Ideal S256x128 .f32) (ix2 q j) = (V c main_arg4 : S256x128.Idx → EReal) (ix2 q j) := by
  obtain ⟨-, -, e2, e3, -⟩ := idx_facts t
  unfold iblk1
  rw [View.read_apply]
  show V c main_arg4 _ = V c main_arg4 _
  refine congrArg _ (funext fun a => Fin.ext ?_)
  match a with
  | ⟨0, _⟩ => show win1_1.index t (0 : Fin 2) * 256 + 1 * q.val = q.val; rw [e2]; omega
  | ⟨1, _⟩ => show win1_1.index t (1 : Fin 2) * 128 + 1 * j.val = j.val; rw [e3]; omega

/-- The one row's block is the whole row at every point. -/
theorem blk_bias (c : Dev nD) (t : Fin cfg1.N) (z : Fin 1) (j : Fin 128) :
    (iblk1 V c 2 t : Vec Ideal S1x128 .f32) (ix2 z j) = (V c main_v30 : S1x128.Idx → EReal) (ix2 z j) := by
  obtain ⟨-, -, -, -, e4, e5, -⟩ := idx_facts t
  unfold iblk1
  rw [View.read_apply]
  show V c main_v30 _ = V c main_v30 _
  refine congrArg _ (funext fun a => Fin.ext ?_)
  match a with
  | ⟨0, _⟩ => show win1_2.index t (0 : Fin 2) * 1 + 1 * z.val = z.val; rw [e4]; omega
  | ⟨1, _⟩ => show win1_2.index t (1 : Fin 2) * 128 + 1 * j.val = j.val; rw [e5]; omega

/-- What point t writes back is block t of the product with the row added: the body's one store fills its block,
    and each of its entries reads the operands' blocks at the rows and columns the entry's place in the array names. -/
theorem flushed_eq (c : Dev nD) (t : Fin cfg1.N) :
    (dat1 (F := Ideal) V c).flushed 3 t
      = ((cfg1.win 3).blk t).view.read (Elt Ideal)
          (Cert.Spec.addRow (Cert.Spec.mm (V c main_v28) (V c main_arg4)) (V c main_v30)) := by
  show (cfg1.win 3).cut (grid1.coords t) ((dat1 V c).after 3 t) = _
  rw [after1_3]
  unfold out1_3
  rw [View.canon_unit_zero hz]
  simp only [View.ld_unit_zero (S := S2000x256) hz,
    View.ld_unit_zero (S := S256x128) hz,
    View.ld_unit_zero (S := S1x128) hz,
    View.ld_unit_zero (S := S2000x128) hz]
  obtain ⟨-, -, -, -, -, -, e6, e7⟩ := idx_facts t
  have hN : t.val < 50 := Nat.lt_of_lt_of_eq t.isLt N_1
  funext j
  obtain ⟨p, q, rfl⟩ : ∃ (p : Fin 2000) (q : Fin 128), j = ix2 p q := ⟨j 0, j 1, eq_ix2 j⟩
  have hemb : ((cfg1.win 3).blk t).view.emb (ix2 p q)
      = (ix2 (⟨2000 * t.val + p.val, by have := p.isLt; omega⟩ : Fin 100000) q : S100000x128.Idx) := by
    funext a; apply Fin.ext
    match a with
    | ⟨0, _⟩ => show win1_3.index t (0 : Fin 2) * 2000 + 1 * p.val = 2000 * t.val + p.val; rw [e6]; omega
    | ⟨1, _⟩ => show win1_3.index t (1 : Fin 2) * 128 + 1 * q.val = q.val; rw [e7]; omega
  show k1_pay1 (iblk1 V c 0 t) (iblk1 V c 1 t) (iblk1 V c 2 t) (ix2 p q)
      = Cert.Spec.addRow (Cert.Spec.mm (V c main_v28) (V c main_arg4)) (V c main_v30)
          (((cfg1.win 3).blk t).view.emb (ix2 p q))
  rw [hemb, Cert.Spec.addRow_apply, Cert.Spec.mm_apply]
  refine (pay_apply (iblk1 V c 0 t) (iblk1 V c 1 t) (iblk1 V c 2 t) p q).trans ?_
  refine congrArg₂ (· + ·) (Finset.sum_congr rfl fun k _ => congrArg₂ (· * ·) ?_ ?_) ?_
  · exact blk_lhs V c t p k _ rfl
  · exact blk_rhs V c t k q
  · exact blk_bias V c t 0 q

/-- An index of the result array is in point t's block iff each coordinate is in the block's range on its axis. -/
theorem mem_blk (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v31).slice (win1_3.rect t)).set ↔ _
  rw [View.set_slice_whole, Rect.mem_set_unit]
  exact Iff.rfl

/-- Row r of the result lies in the block of point r / 2000, so the fifty blocks cover the array. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hlt : (i 0).val / 2000 < cfg1.N := by rw [show cfg1.N = 50 from N_1]; omega
  obtain ⟨-, -, -, -, -, -, e6, e7⟩ := idx_facts ⟨(i 0).val / 2000, hlt⟩
  refine ⟨⟨(i 0).val / 2000, hlt⟩, flush1_3 _, ?_⟩
  rw [mem_blk]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, hlt⟩ (1 : Fin 2) * 128 ≤ (i 1).val
      ∧ (i 1).val < win1_3.index ⟨(i 0).val / 2000, hlt⟩ (1 : Fin 2) * 128 + 128
    rw [e7]; omega

/-- The array the region leaves: the matrix product of the first two operands, with the third operand's one row
    added to every row. -/
theorem value (c : Dev nD) :
      (Gen.dat1 (F := Ideal) V c).arrAt 3 cfg1.N
        = Cert.Spec.addRow (Cert.Spec.mm (V c main_v28) (V c main_arg4)) (V c main_v30) :=
  (dat1 (F := Ideal) V c).arrAt_eq_of_cover 3
    (Cert.Spec.addRow (Cert.Spec.mm (V c main_v28) (V c main_arg4)) (V c main_v30))
    (fun t _ => flushed_eq V c t) cover

end Cert.KReg1

end
-- ==== Proof.RegMM4.lean ====
/-
  The region whose body multiplies a block of 2000 rows of a 100000 × 128 array by a whole 128 × 128 array and adds
  one row of 128 entries to every row of the product.  Over the extended reals the rounding of the two operands to a
  shorter format is the identity, and a product accumulated from zero is the plain sum over the inner index, so the
  block the body leaves is, entry by entry, ∑ q, X (r, q) · W (q, j) + B (0, j) with r the row of the array the block's
  row sits at.  Block t holds rows 2000·t … 2000·t + 1999, the fifty blocks tile the 100000 rows, and so the array
  the region leaves is the matrix product of the first two operands with the third operand's row added to each row.
-/
import proofs.«171444_j1073741824178_1_alg».proof.Proof.Gen.KernelIdeal.Frame
import proofs.«171444_j1073741824178_1_alg».proof.Proof.LibMatOps
import proofs.«171444_j1073741824178_1_alg».proof.Proof.LibPlainDot
import Idealize.ShloMosaic.Lib.Pipeline.Value
import Idealize.ShloMosaic.Lib.ValueLayout
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KReg4

open Cert.KernelIdeal Cert.KernelIdeal.Gen

variable (V : (c : Dev nD) → (b : Ref sig .tc) → Buf (Elt Ideal) ((c : Thread nD τ).loc b))

/-- The offsets of a rectangle that starts at the origin. -/
theorem hz : (![0, 0] : Fin 2 → Nat) = fun _ => 0 := funext fun a => by fin_cases a <;> rfl

/-- The product contracts the left operand's columns against the right operand's rows, with no batch axis. -/
theorem dims_plain : dot_S2000x128_S128x128_S2000x128_1_0_0_1_n_n = DotDims.plain 2000 128 128 := rfl

/-- The body's result at row p, column j of its block: the inner product of row p of the first block with column j
    of the second, plus entry j of the one row. -/
theorem pay_apply (x0 : Vec Ideal S2000x128 .f32) (x1 : Vec Ideal S128x128 .f32) (x2 : Vec Ideal S1x128 .f32)
    (p : Fin 2000) (j : Fin 128) :
    k4_pay1 (F := Ideal) x0 x1 x2 (ix2 p j)
      = (∑ q : Fin 128, x0 (ix2 p q) * x1 (ix2 q j)) + x2 (ix2 (0 : Fin 1) j) := by
  unfold k4_pay1
  refine (addf_apply _ _ _).trans ?_
  refine congrArg₂ (· + ·) ?_ ?_
  · refine (Cert.LibPlainDot.matmul_zero_apply dot_S2000x128_S128x128_S2000x128_1_0_0_1_n_n dims_plain none
      (truncf .bf16 (shapeCast S2000x128 x0 shapeCasts_S2000x128_S2000x128) bitsLt_bf16_f32) (truncf .bf16 x1 bitsLt_bf16_f32) p j).trans ?_
    rw [shapeCast_self]
    rfl
  · rw [shapeCast_self]
    exact broadcastTo_1b_ab_apply x2 broadcasts_S1x128_S2000x128 p j

/-- Where the blocks sit, at each of the fifty points: the first operand's block and the result's block are block t
    of the rows; the second and third operands are one block, the whole array. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of the first operand's block at point t is row 2000·t + p of the array. -/
theorem blk_lhs (c : Dev nD) (t : Fin cfg4.N) (p : Fin 2000) (q : Fin 128) (r : Fin 100000)
    (hr : r.val = 2000 * t.val + p.val) :
    (iblk4 V c 0 t : Vec Ideal S2000x128 .f32) (ix2 p q) = (V c main_v67 : S100000x128.Idx → EReal) (ix2 r q) := by
  obtain ⟨e0, e1, -⟩ := idx_facts t
  unfold iblk4
  rw [View.read_apply]
  show V c main_v67 _ = V c main_v67 _
  refine congrArg _ (funext fun a => Fin.ext ?_)
  match a with
  | ⟨0, _⟩ => show win4_0.index t (0 : Fin 2) * 2000 + 1 * p.val = r.val; rw [e0, hr]; omega
  | ⟨1, _⟩ => show win4_0.index t (1 : Fin 2) * 128 + 1 * q.val = q.val; rw [e1]; omega

/-- The second operand's block is the whole array at every point. -/
theorem blk_rhs (c : Dev nD) (t : Fin cfg4.N) (q : Fin 128) (j : Fin 128) :
    (iblk4 V c 1 t : Vec Ideal S128x128 .f32) (ix2 q j) = (V c main_arg8 : S128x128.Idx → EReal) (ix2 q j) := by
  obtain ⟨-, -, e2, e3, -⟩ := idx_facts t
  unfold iblk4
  rw [View.read_apply]
  show V c main_arg8 _ = V c main_arg8 _
  refine congrArg _ (funext fun a => Fin.ext ?_)
  match a with
  | ⟨0, _⟩ => show win4_1.index t (0 : Fin 2) * 128 + 1 * q.val = q.val; rw [e2]; omega
  | ⟨1, _⟩ => show win4_1.index t (1 : Fin 2) * 128 + 1 * j.val = j.val; rw [e3]; omega

/-- The one row's block is the whole row at every point. -/
theorem blk_bias (c : Dev nD) (t : Fin cfg4.N) (z : Fin 1) (j : Fin 128) :
    (iblk4 V c 2 t : Vec Ideal S1x128 .f32) (ix2 z j) = (V c main_v69 : S1x128.Idx → EReal) (ix2 z j) := by
  obtain ⟨-, -, -, -, e4, e5, -⟩ := idx_facts t
  unfold iblk4
  rw [View.read_apply]
  show V c main_v69 _ = V c main_v69 _
  refine congrArg _ (funext fun a => Fin.ext ?_)
  match a with
  | ⟨0, _⟩ => show win4_2.index t (0 : Fin 2) * 1 + 1 * z.val = z.val; rw [e4]; omega
  | ⟨1, _⟩ => show win4_2.index t (1 : Fin 2) * 128 + 1 * j.val = j.val; rw [e5]; omega

/-- What point t writes back is block t of the product with the row added: the body's one store fills its block,
    and each of its entries reads the operands' blocks at the rows and columns the entry's place in the array names. -/
theorem flushed_eq (c : Dev nD) (t : Fin cfg4.N) :
    (dat4 (F := Ideal) V c).flushed 3 t
      = ((cfg4.win 3).blk t).view.read (Elt Ideal)
          (Cert.Spec.addRow (Cert.Spec.mm (V c main_v67) (V c main_arg8)) (V c main_v69)) := by
  show (cfg4.win 3).cut (grid4.coords t) ((dat4 V c).after 3 t) = _
  rw [after4_3]
  unfold out4_3
  rw [View.canon_unit_zero hz]
  simp only [View.ld_unit_zero (S := S2000x128) hz,
    View.ld_unit_zero (S := S128x128) hz,
    View.ld_unit_zero (S := S1x128) hz]
  obtain ⟨-, -, -, -, -, -, e6, e7⟩ := idx_facts t
  have hN : t.val < 50 := Nat.lt_of_lt_of_eq t.isLt N_4
  funext j
  obtain ⟨p, q, rfl⟩ : ∃ (p : Fin 2000) (q : Fin 128), j = ix2 p q := ⟨j 0, j 1, eq_ix2 j⟩
  have hemb : ((cfg4.win 3).blk t).view.emb (ix2 p q)
      = (ix2 (⟨2000 * t.val + p.val, by have := p.isLt; omega⟩ : Fin 100000) q : S100000x128.Idx) := by
    funext a; apply Fin.ext
    match a with
    | ⟨0, _⟩ => show win4_3.index t (0 : Fin 2) * 2000 + 1 * p.val = 2000 * t.val + p.val; rw [e6]; omega
    | ⟨1, _⟩ => show win4_3.index t (1 : Fin 2) * 128 + 1 * q.val = q.val; rw [e7]; omega
  show k4_pay1 (iblk4 V c 0 t) (iblk4 V c 1 t) (iblk4 V c 2 t) (ix2 p q)
      = Cert.Spec.addRow (Cert.Spec.mm (V c main_v67) (V c main_arg8)) (V c main_v69)
          (((cfg4.win 3).blk t).view.emb (ix2 p q))
  rw [hemb, Cert.Spec.addRow_apply, Cert.Spec.mm_apply]
  refine (pay_apply (iblk4 V c 0 t) (iblk4 V c 1 t) (iblk4 V c 2 t) p q).trans ?_
  refine congrArg₂ (· + ·) (Finset.sum_congr rfl fun k _ => congrArg₂ (· * ·) ?_ ?_) ?_
  · exact blk_lhs V c t p k _ rfl
  · exact blk_rhs V c t k q
  · exact blk_bias V c t 0 q

/-- An index of the result array is in point t's block iff each coordinate is in the block's range on its axis. -/
theorem mem_blk (t : Fin cfg4.N) (i : S100000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v70).slice (win4_3.rect t)).set ↔ _
  rw [View.set_slice_whole, Rect.mem_set_unit]
  exact Iff.rfl

/-- Row r of the result lies in the block of point r / 2000, so the fifty blocks cover the array. -/
theorem cover (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hlt : (i 0).val / 2000 < cfg4.N := by rw [show cfg4.N = 50 from N_4]; omega
  obtain ⟨-, -, -, -, -, -, e6, e7⟩ := idx_facts ⟨(i 0).val / 2000, hlt⟩
  refine ⟨⟨(i 0).val / 2000, hlt⟩, flush4_3 _, ?_⟩
  rw [mem_blk]
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win4_3.index ⟨(i 0).val / 2000, hlt⟩ (1 : Fin 2) * 128 ≤ (i 1).val
      ∧ (i 1).val < win4_3.index ⟨(i 0).val / 2000, hlt⟩ (1 : Fin 2) * 128 + 128
    rw [e7]; omega

/-- The array the region leaves: the matrix product of the first two operands, with the third operand's one row
    added to every row. -/
theorem value (c : Dev nD) :
      (Gen.dat4 (F := Ideal) V c).arrAt 3 cfg4.N
        = Cert.Spec.addRow (Cert.Spec.mm (V c main_v67) (V c main_arg8)) (V c main_v69) :=
  (dat4 (F := Ideal) V c).arrAt_eq_of_cover 3
    (Cert.Spec.addRow (Cert.Spec.mm (V c main_v67) (V c main_arg8)) (V c main_v69))
    (fun t _ => flushed_eq V c t) cover

end Cert.KReg4

end
-- ==== Proof.RegAff3.lean ====
/-
  The third kernel region: a scale and a shift applied column by column, then the positive part.

  The region walks the 100000 × 128 array in fifty blocks of 2000 rows.  At every block it reads the block's rows of
  the array X, the one row S of scales and the one row T of shifts, and leaves in the result's block the entries
  max (X (r, j) · S j + T j) 0.  An entry of a block sits in the array at row 2000 · (block number) + (row inside the
  block), and the fifty blocks fill the array, so after the region the whole result is the positive part of the array
  scaled and shifted column by column.
-/
import proofs.«171444_j1073741824178_1_alg».proof.Proof.Gen.KernelIdeal.Frame
import proofs.«171444_j1073741824178_1_alg».proof.Proof.LibMatOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KReg3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block's arithmetic at an entry: the block's entry times its column's scale plus its column's shift, or 0 if
    that is negative. -/
theorem pay_apply (x0 : Vec Ideal S2000x128 .f32) (x1 x2 : Vec Ideal S1x128 .f32) (p : Fin 2000) (q : Fin 128) :
    k3_pay1 x0 x1 x2 (ix2 p q) = max (x0 (ix2 p q) * x1 (ix2 (0 : Fin 1) q) + x2 (ix2 (0 : Fin 1) q)) 0 := by
  unfold k3_pay1
  simp only [shapeCast_self]
  rw [maximumf_apply, addf_apply, mulf_apply, broadcast_apply, broadcastTo_1b_ab_apply, broadcastTo_1b_ab_apply]
  exact congrArg _ Ideal.ofBits_zero_f32

/-- The region's result: the positive part of the array scaled and shifted column by column. -/
abbrev G (c : Dev nD) : S100000x128.Idx → EReal :=
  Cert.Spec.relu (Cert.Spec.affine (V c main_v51 : S100000x128.Idx → EReal) (V c main_v63 : S1x128.Idx → EReal) (V c main_v66 : S1x128.Idx → EReal))

/-- The block numbers, decided over the fifty blocks: the array's block and the result's block at a point are the same
    rows and all columns, and the scale and shift rows are read whole at every point. -/
theorem idx_facts : ∀ t : Fin cfg3.N, win3_0.index t (0 : Fin 2) = win3_3.index t (0 : Fin 2)
    ∧ win3_0.index t (1 : Fin 2) = 0 ∧ win3_3.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) ≤ 49 :=
  (by decide +kernel : ∀ t : Fin grid3.N, _)

/-- Every one of the fifty row blocks is some point's. -/
theorem idx_onto : ∀ q : Fin 50, ∃ t : Fin cfg3.N, win3_3.index t (0 : Fin 2) = q.val :=
  (by decide +kernel : ∀ q : Fin 50, ∃ t : Fin grid3.N, win3_3.index t (0 : Fin 2) = q.val)

/-- What a point writes back is its block of the result: an entry of the array's block and the same entry of the
    result's block sit at the same place of their arrays, and the two rows are read at the entry's column. -/
theorem flushed_eq (c : Dev nD) (t : Fin cfg3.N) :
    (dat3 (F := Ideal) V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S2000x128) hz, View.ld_unit_zero (S := S1x128) hz]
  obtain ⟨e0, e1, e2, e3, e4, e5, e6, e7⟩ := idx_facts t
  funext j
  obtain ⟨p, q, rfl⟩ : ∃ (p : Fin 2000) (q : Fin 128), j = (ix2 p q : S2000x128.Idx) :=
    ⟨j 0, j 1, eq_ix2 (n0 := 2000) (n1 := 128) j⟩
  refine (pay_apply (iblk3 V c 0 t) (iblk3 V c 1 t) (iblk3 V c 2 t) p q).trans ?_
  have h0 : ((cfg3.win 0).blk t).view.emb (ix2 p q) = ((cfg3.win 3).blk t).view.emb (ix2 p q) := by
    funext a; apply Fin.ext
    match a with
    | ⟨0, _⟩ => show win3_0.index t (0 : Fin 2) * 2000 + 1 * p.val = win3_3.index t (0 : Fin 2) * 2000 + 1 * p.val; omega
    | ⟨1, _⟩ => show win3_0.index t (1 : Fin 2) * 128 + 1 * q.val = win3_3.index t (1 : Fin 2) * 128 + 1 * q.val; omega
  have h1 : ((cfg3.win 1).blk t).view.emb (ix2 (0 : Fin 1) q) = ix2 (0 : Fin 1) ((((cfg3.win 3).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_3.index t (1 : Fin 2) * 128 + 1 * q.val; omega
  have h2 : ((cfg3.win 2).blk t).view.emb (ix2 (0 : Fin 1) q) = ix2 (0 : Fin 1) ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  have key : ∀ (X : S100000x128.Idx → EReal) (S T : S1x128.Idx → EReal),
      max (X (((cfg3.win 0).blk t).view.emb (ix2 p q)) * S (((cfg3.win 1).blk t).view.emb (ix2 (0 : Fin 1) q))
          + T (((cfg3.win 2).blk t).view.emb (ix2 (0 : Fin 1) q))) 0
        = Cert.Spec.relu (Cert.Spec.affine X S T) (((cfg3.win 3).blk t).view.emb (ix2 p q)) := by
    intro X S T
    rw [h0, h1, h2]
    rfl
  exact key (V c main_v51) (V c main_v63) (V c main_v66)

/-- An index of the array is in a point's block exactly when each coordinate is in the block's range on its axis. -/
theorem mem_blk (t : Fin cfg3.N) (i : S100000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v67).slice (win3_3.rect t)).set ↔ _
  rw [View.set_slice_whole, Rect.mem_set_unit]
  exact Iff.rfl

/-- The fifty blocks fill the array: row r is in block r / 2000. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := idx_onto ⟨(i 0).val / 2000, by omega⟩
  obtain ⟨e0, e1, e2, e3, e4, e5, e6, e7⟩ := idx_facts t
  have q0 : win3_3.index t (0 : Fin 2) = (i 0).val / 2000 := ht
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- After the region the result array is the positive part of the array scaled and shifted column by column. -/
theorem value (c : Dev nD) :
    (Gen.dat3 (F := Ideal) V c).arrAt 3 cfg3.N
      = Cert.Spec.relu (Cert.Spec.affine (V c main_v51) (V c main_v63) (V c main_v66)) :=
  (dat3 V c).arrAt_eq_of_cover 3 (G V c) (fun t _ => flushed_eq V c t) cover

end Cert.KReg3

end
-- ==== Proof.RegAff6.lean ====
/-
  The sixth kernel region: a scale and a shift applied column by column.

  The region walks the 100000 × 128 array in fifty blocks of 2000 rows.  At every block it reads the block's rows of
  the array X, the one row S of scales and the one row T of shifts, and leaves in the result's block the entries
  X (r, j) · S j + T j.  An entry of a block sits in the array at row 2000 · (block number) + (row inside the
  block), and the fifty blocks fill the array, so after the region the whole result is the array scaled and shifted column
  by column.
-/
import proofs.«171444_j1073741824178_1_alg».proof.Proof.Gen.KernelIdeal.Frame
import proofs.«171444_j1073741824178_1_alg».proof.Proof.LibMatOps
import Idealize.ShloMosaic.Lib.Pipeline.Value
import Idealize.ShloMosaic.Lib.ValueIdx
import Idealize.ShloMosaic.Lib.ValueLayout

set_option maxRecDepth 16384

noncomputable section

namespace Cert.KReg6

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block's arithmetic at an entry: the block's entry times its column's scale plus its column's shift. -/
theorem pay_apply (x0 : Vec Ideal S2000x128 .f32) (x1 x2 : Vec Ideal S1x128 .f32) (p : Fin 2000) (q : Fin 128) :
    k6_pay1 x0 x1 x2 (ix2 p q) = x0 (ix2 p q) * x1 (ix2 (0 : Fin 1) q) + x2 (ix2 (0 : Fin 1) q) := by
  unfold k6_pay1
  simp only [shapeCast_self]
  rw [addf_apply, mulf_apply, broadcastTo_1b_ab_apply, broadcastTo_1b_ab_apply]

/-- The region's result: the array scaled and shifted column by column. -/
abbrev G (c : Dev nD) : S100000x128.Idx → EReal :=
  Cert.Spec.affine (V c main_v90 : S100000x128.Idx → EReal) (V c main_v102 : S1x128.Idx → EReal) (V c main_v105 : S1x128.Idx → EReal)

/-- The block numbers, decided over the fifty blocks: the array's block and the result's block at a point are the same
    rows and all columns, and the scale and shift rows are read whole at every point. -/
theorem idx_facts : ∀ t : Fin cfg6.N, win6_0.index t (0 : Fin 2) = win6_3.index t (0 : Fin 2)
    ∧ win6_0.index t (1 : Fin 2) = 0 ∧ win6_3.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) ≤ 49 :=
  (by decide +kernel : ∀ t : Fin grid6.N, _)

/-- Every one of the fifty row blocks is some point's. -/
theorem idx_onto : ∀ q : Fin 50, ∃ t : Fin cfg6.N, win6_3.index t (0 : Fin 2) = q.val :=
  (by decide +kernel : ∀ q : Fin 50, ∃ t : Fin grid6.N, win6_3.index t (0 : Fin 2) = q.val)

/-- What a point writes back is its block of the result: an entry of the array's block and the same entry of the
    result's block sit at the same place of their arrays, and the two rows are read at the entry's column. -/
theorem flushed_eq (c : Dev nD) (t : Fin cfg6.N) :
    (dat6 (F := Ideal) V c).flushed 3 t = ((cfg6.win 3).blk t).view.read (Elt Ideal) (G V c) := by
  show (cfg6.win 3).cut (grid6.coords t) ((dat6 V c).after 3 t) = _
  rw [after6_3]
  unfold out6_3
  rw [View.canon_unit_zero hz]
  simp only [View.ld_unit_zero (S := S2000x128) hz, View.ld_unit_zero (S := S1x128) hz]
  obtain ⟨e0, e1, e2, e3, e4, e5, e6, e7⟩ := idx_facts t
  funext j
  obtain ⟨p, q, rfl⟩ : ∃ (p : Fin 2000) (q : Fin 128), j = (ix2 p q : S2000x128.Idx) :=
    ⟨j 0, j 1, eq_ix2 (n0 := 2000) (n1 := 128) j⟩
  refine (pay_apply (iblk6 V c 0 t) (iblk6 V c 1 t) (iblk6 V c 2 t) p q).trans ?_
  have h0 : ((cfg6.win 0).blk t).view.emb (ix2 p q) = ((cfg6.win 3).blk t).view.emb (ix2 p q) := by
    funext a; apply Fin.ext
    match a with
    | ⟨0, _⟩ => show win6_0.index t (0 : Fin 2) * 2000 + 1 * p.val = win6_3.index t (0 : Fin 2) * 2000 + 1 * p.val; omega
    | ⟨1, _⟩ => show win6_0.index t (1 : Fin 2) * 128 + 1 * q.val = win6_3.index t (1 : Fin 2) * 128 + 1 * q.val; omega
  have h1 : ((cfg6.win 1).blk t).view.emb (ix2 (0 : Fin 1) q) = ix2 (0 : Fin 1) ((((cfg6.win 3).blk t).view.emb (ix2 p q)) 1) := by
    funext a; apply Fin.ext
    match a with
    | ⟨0, _⟩ => show win6_1.index t (0 : Fin 2) * 1 + 1 * 0 = 0; omega
    | ⟨1, _⟩ => show win6_1.index t (1 : Fin 2) * 128 + 1 * q.val = win6_3.index t (1 : Fin 2) * 128 + 1 * q.val; omega
  have h2 : ((cfg6.win 2).blk t).view.emb (ix2 (0 : Fin 1) q) = ix2 (0 : Fin 1) ((((cfg6.win 3).blk t).view.emb (ix2 p q)) 1) := by
    funext a; apply Fin.ext
    match a with
    | ⟨0, _⟩ => show win6_2.index t (0 : Fin 2) * 1 + 1 * 0 = 0; omega
    | ⟨1, _⟩ => show win6_2.index t (1 : Fin 2) * 128 + 1 * q.val = win6_3.index t (1 : Fin 2) * 128 + 1 * q.val; omega
  have key : ∀ (X : S100000x128.Idx → EReal) (S T : S1x128.Idx → EReal),
      X (((cfg6.win 0).blk t).view.emb (ix2 p q)) * S (((cfg6.win 1).blk t).view.emb (ix2 (0 : Fin 1) q))
          + T (((cfg6.win 2).blk t).view.emb (ix2 (0 : Fin 1) q))
        = Cert.Spec.affine X S T (((cfg6.win 3).blk t).view.emb (ix2 p q)) := by
    intro X S T
    rw [h0, h1, h2]
    rfl
  exact key (V c main_v90) (V c main_v102) (V c main_v105)

/-- An index of the array is in a point's block exactly when each coordinate is in the block's range on its axis. -/
theorem mem_blk (t : Fin cfg6.N) (i : S100000x128.Idx) :
    i ∈ ((cfg6.win 3).blk t).view.set ↔ ∀ a : Fin 2, win6_3.index t a * S2000x128.size a ≤ (i a).val
      ∧ (i a).val < win6_3.index t a * S2000x128.size a + S2000x128.size a := by
  show i ∈ ((View.whole main_v106).slice (win6_3.rect t)).set ↔ _
  rw [View.set_slice_whole, Rect.mem_set_unit]
  exact Iff.rfl

/-- The fifty blocks fill the array: row r is in block r / 2000. -/
theorem cover (i : S100000x128.Idx) :
    ∃ t : Fin cfg6.N, (cfg6.win 3).flush t = true ∧ i ∈ ((cfg6.win 3).blk t).view.set := by
  have hi0 : (i 0).val < 100000 := (i 0).isLt
  have hi1 : (i 1).val < 128 := (i 1).isLt
  obtain ⟨t, ht⟩ := idx_onto ⟨(i 0).val / 2000, by omega⟩
  obtain ⟨e0, e1, e2, e3, e4, e5, e6, e7⟩ := idx_facts t
  have q0 : win6_3.index t (0 : Fin 2) = (i 0).val / 2000 := ht
  refine ⟨t, flush6_3 t, ?_⟩
  rw [mem_blk]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 128 ≤ (i 1).val ∧ (i 1).val < win6_3.index t (1 : Fin 2) * 128 + 128; omega

/-- After the region the result array is the array scaled and shifted column by column. -/
theorem value (c : Dev nD) :
    (Gen.dat6 (F := Ideal) V c).arrAt 3 cfg6.N
      = Cert.Spec.affine (V c main_v90) (V c main_v102) (V c main_v105) :=
  (dat6 V c).arrAt_eq_of_cover 3 (G V c) (fun t _ => flushed_eq V c t) cover

end Cert.KReg6

end
-- ==== Proof.LibChunkSum.lean ====
/-
  A long sum taken in equal chunks.

  In any commutative additive monoid, for a sequence `f : ℕ → M` and a chunk length `b`:
  `partialSum f n` is the sum of the first `n` terms; the empty partial sum is zero
  (`partialSum_zero`); the first `(k+1)·b` terms are the first `k·b` terms followed by chunk `k`,
  the chunk written as a sum over `q : Fin b` of the terms `k·b + q` (`partialSum_chunk`); and all
  `n` terms are the sum over `r : Fin n` (`partialSum_all`). Only commutativity and associativity of
  the addition are used, so the law holds on the extended reals with no finiteness assumption: an
  accumulator that starts at zero and adds one chunk's sum per step ends at the whole sum.
-/
import Mathlib.Algebra.BigOperators.Fin

namespace ChunkSum

open Finset

variable {M : Type*} [AddCommMonoid M]

/-- The sum of the first `n` terms of `f`. -/
def partialSum (f : ℕ → M) (n : ℕ) : M := ∑ r ∈ range n, f r

/-- No terms sum to zero. -/
theorem partialSum_zero (f : ℕ → M) : partialSum f 0 = 0 := by
  simp [partialSum]

/-- The first `(k+1)·b` terms are the first `k·b` terms, then chunk `k`: the terms `k·b + q`, `q < b`. -/
theorem partialSum_chunk (f : ℕ → M) (b k : ℕ) :
    partialSum f ((k + 1) * b) = partialSum f (k * b) + ∑ q : Fin b, f (k * b + q.val) := by
  unfold partialSum
  rw [Nat.add_mul, Nat.one_mul, Finset.sum_range_add]
  exact congrArg _ (Finset.sum_range fun x => f (k * b + x))

/-- All `n` terms, as a sum over `Fin n`. -/
theorem partialSum_all (f : ℕ → M) (n : ℕ) : partialSum f n = ∑ r : Fin n, f r.val := by
  unfold partialSum
  exact Finset.sum_range f

end ChunkSum
-- ==== Proof.RegSumLemmas.lean ====
/-
  Column sums of a tall matrix, accumulated block by block.

  A row of running sums starts at zero.  Each step adds to it, column by column, the sums down the next block of b
  rows — for a second row, the sums of the squares of the entries.  After k steps the row holds, in column j, the sum
  over the first k·b rows of the entries of column j, and after the last step the sum over every row.  These are sums
  in a commutative monoid: the extended reals are one, so cutting the long sum into blocks needs no finiteness.

  The step itself is read at an index: a lane sum of an [a, b] array along its first axis holds at column j the sum over
  the rows r of the entries (r, j); the casts around it keep every entry where it is.
-/
import Idealize.ShloMosaic.Lib.Pipeline.Value
import Idealize.ShloMosaic.Lib.ValueIdx
import Idealize.ShloMosaic.Lib.ValueLayout
import Idealize.ShloMosaic.PureOps.Ideal.Laws
import proofs.«171444_j1073741824178_1_alg».proof.Proof.LibChunkSum
import proofs.«171444_j1073741824178_1_alg».proof.Proof.LibMatOps

noncomputable section

open scoped BigOperators

namespace Cert.RegSum

open Idealize.ShloMosaic Idealize.ShloMosaic.ValueIdx ChunkSum

variable {a b n d : ℕ}

/-! ## The step, read at an index -/

/-- Column j with the row coordinate k put back is the entry (k, j). -/
theorem lift_col (h : (⟨2, ![a, b]⟩ : Shape).Reduces [0] ⟨1, ![b]⟩) (j : Fin b)
    (k : Fin ((⟨2, ![a, b]⟩ : Shape).size 0)) : h.lift (ix1 j) k = ix2 (⟨k.val, k.isLt⟩ : Fin a) j := by
  funext ax
  refine Fin.ext ?_
  match ax with
  | ⟨0, _⟩ => rfl
  | ⟨1, _⟩ => rfl

/-- A lane sum of an [a, b] array along its first axis, at column j: the sum over the rows r of the entries (r, j). -/
theorem colReduce_apply (v : FVec Ideal ⟨2, ![a, b]⟩ .f32) (w : BitVec 32)
    (h : (⟨2, ![a, b]⟩ : Shape).Reduces [0] ⟨1, ![b]⟩) (hφ : FKind.Formats .f32)
    (hw : w = FKind.add.neutral .f32 hφ) (j : Fin b) :
    multiReduction .add [0] ⟨1, ![b]⟩ v w h hφ hw (ix1 j) = ∑ r : Fin a, v (ix2 r j) := by
  refine (Ideal.multiReduction_add_single v w h hφ hw (ix1 j)).trans ?_
  exact Finset.sum_congr rfl fun k _ => congrArg v (lift_col h j k)

/-- The running row plus the column sums of a block, at column j. -/
theorem addColSum_apply (x : FVec Ideal ⟨2, ![a, b]⟩ .f32) (acc : FVec Ideal ⟨2, ![1, b]⟩ .f32)
    (h1 : (⟨2, ![1, b]⟩ : Shape).ShapeCasts ⟨2, ![1, b]⟩) (h2 : (⟨2, ![a, b]⟩ : Shape).ShapeCasts ⟨2, ![a, b]⟩)
    (w : BitVec 32) (hr : (⟨2, ![a, b]⟩ : Shape).Reduces [0] ⟨1, ![b]⟩) (hφ : FKind.Formats .f32)
    (hw : w = FKind.add.neutral .f32 hφ) (h3 : (⟨1, ![b]⟩ : Shape).ShapeCasts ⟨2, ![1, b]⟩) (u : Fin 1) (j : Fin b) :
    addf (shapeCast ⟨2, ![1, b]⟩ acc h1)
        (shapeCast ⟨2, ![1, b]⟩ (multiReduction .add [0] ⟨1, ![b]⟩ (shapeCast ⟨2, ![a, b]⟩ x h2) w hr hφ hw) h3) (ix2 u j)
      = acc (ix2 u j) + ∑ r : Fin a, x (ix2 r j) := by
  rw [shapeCast_self, shapeCast_self, addf_apply, shapeCast_a_1a_apply, colReduce_apply]

/-- The running row plus the column sums of a block's squares, at column j. -/
theorem addColSumSq_apply (x : FVec Ideal ⟨2, ![a, b]⟩ .f32) (acc : FVec Ideal ⟨2, ![1, b]⟩ .f32)
    (h1 : (⟨2, ![1, b]⟩ : Shape).ShapeCasts ⟨2, ![1, b]⟩) (h2 : (⟨2, ![a, b]⟩ : Shape).ShapeCasts ⟨2, ![a, b]⟩)
    (w : BitVec 32) (hr : (⟨2, ![a, b]⟩ : Shape).Reduces [0] ⟨1, ![b]⟩) (hφ : FKind.Formats .f32)
    (hw : w = FKind.add.neutral .f32 hφ) (h3 : (⟨1, ![b]⟩ : Shape).ShapeCasts ⟨2, ![1, b]⟩) (u : Fin 1) (j : Fin b) :
    addf (shapeCast ⟨2, ![1, b]⟩ acc h1)
        (shapeCast ⟨2, ![1, b]⟩ (multiReduction .add [0] ⟨1, ![b]⟩
          (mulf (shapeCast ⟨2, ![a, b]⟩ x h2) (shapeCast ⟨2, ![a, b]⟩ x h2)) w hr hφ hw) h3) (ix2 u j)
      = acc (ix2 u j) + ∑ r : Fin a, x (ix2 r j) * x (ix2 r j) := by
  rw [shapeCast_self, shapeCast_self, addf_apply, shapeCast_a_1a_apply, colReduce_apply]
  rfl

/-- A row filled with the zero word holds zero everywhere. -/
theorem zeroRow_apply (s : Shape) (i : s.Idx) :
    (broadcast s (Scalar.ofBits (F := Ideal) .f32 0x00000000#32) : FVec Ideal s .f32) i = 0 :=
  Ideal.ofBits_zero_f32

/-! ## Column j of a matrix as a sequence, and its partial sums -/

/-- Column j of X read down the rows, continued by zeros past the last row. -/
def colSeq (X : Spec.Mat n d) (j : Fin d) : ℕ → EReal := fun r => if h : r < n then X (ix2 ⟨r, h⟩ j) else 0

theorem colSeq_lt (X : Spec.Mat n d) (j : Fin d) (r : ℕ) (h : r < n) : colSeq X j r = X (ix2 ⟨r, h⟩ j) := dif_pos h

/-- The squares of column j's entries, as a sequence. -/
def colSqSeq (X : Spec.Mat n d) (j : Fin d) : ℕ → EReal := fun r => colSeq X j r * colSeq X j r

/-- Adding block k's column sum to the sum over the first k·b rows gives the sum over the first (k+1)·b rows. -/
theorem sum_step (X : Spec.Mat n d) (k : ℕ) (blk : Spec.Mat b d) (j : Fin d)
    (hblk : ∀ q : Fin b, blk (ix2 q j) = colSeq X j (k * b + q.val)) :
    partialSum (colSeq X j) (k * b) + ∑ q : Fin b, blk (ix2 q j) = partialSum (colSeq X j) ((k + 1) * b) := by
  rw [partialSum_chunk]
  exact congrArg _ (Finset.sum_congr rfl fun q _ => hblk q)

/-- The same for the squares. -/
theorem sumSq_step (X : Spec.Mat n d) (k : ℕ) (blk : Spec.Mat b d) (j : Fin d)
    (hblk : ∀ q : Fin b, blk (ix2 q j) = colSeq X j (k * b + q.val)) :
    partialSum (colSqSeq X j) (k * b) + ∑ q : Fin b, blk (ix2 q j) * blk (ix2 q j)
      = partialSum (colSqSeq X j) ((k + 1) * b) := by
  rw [partialSum_chunk]
  refine congrArg _ (Finset.sum_congr rfl fun q _ => ?_)
  rw [hblk q]
  rfl

/-- From zero, the first block's column sum is the sum over the first b rows. -/
theorem sum_first (X : Spec.Mat n d) (blk : Spec.Mat b d) (j : Fin d)
    (hblk : ∀ q : Fin b, blk (ix2 q j) = colSeq X j (0 * b + q.val)) :
    (0 : EReal) + ∑ q : Fin b, blk (ix2 q j) = partialSum (colSeq X j) ((0 + 1) * b) := by
  rw [← sum_step X 0 blk j hblk, Nat.zero_mul, partialSum_zero]

/-- The same for the squares. -/
theorem sumSq_first (X : Spec.Mat n d) (blk : Spec.Mat b d) (j : Fin d)
    (hblk : ∀ q : Fin b, blk (ix2 q j) = colSeq X j (0 * b + q.val)) :
    (0 : EReal) + ∑ q : Fin b, blk (ix2 q j) * blk (ix2 q j) = partialSum (colSqSeq X j) ((0 + 1) * b) := by
  rw [← sumSq_step X 0 blk j hblk, Nat.zero_mul, partialSum_zero]

/-- The sum over all n rows of column j is the column sum. -/
theorem sum_all (X : Spec.Mat n d) (z : Fin 1) (j : Fin d) :
    partialSum (colSeq X j) n = Spec.colSum X (ix2 z j) := by
  rw [partialSum_all, Spec.colSum_apply]
  exact Finset.sum_congr rfl fun r _ => colSeq_lt X j r.val r.isLt

/-- The same for the squares. -/
theorem sumSq_all (X : Spec.Mat n d) (z : Fin 1) (j : Fin d) :
    partialSum (colSqSeq X j) n = Spec.colSumSq X (ix2 z j) := by
  rw [partialSum_all, Spec.colSumSq_apply]
  refine Finset.sum_congr rfl fun r _ => ?_
  show colSeq X j r.val * colSeq X j r.val = _
  rw [colSeq_lt X j r.val r.isLt]

end Cert.RegSum

end
-- ==== Proof.RegSum2.lean ====
/-
  The first column-sum region, in closed form.

  The grid runs over the 50 blocks of 2000 rows of a [100000, 128] array X.  Each of the two outputs is one [1, 128]
  row: the same row at every grid point, carried from one point to the next and written back after the last point only.
  The first point stores zeros into both rows; then every point adds to the first row the sums down the columns of
  its block of X, and to the second row the sums down the columns of the squares of the block's entries.  So after
  point t the first row holds in column j the sum of X (r, j) over the rows r below 2000·(t+1), and the second row the
  sum of X (r, j)², and after the last point they hold the sums over all 100000 rows: the column sums of X and of its
  squares.  Sums of extended reals regroup freely, so no entry needs to be finite.
-/
import proofs.«171444_j1073741824178_1_alg».proof.Proof.Gen.KernelIdeal.Frame
import proofs.«171444_j1073741824178_1_alg».proof.Proof.LibMatOps
import proofs.«171444_j1073741824178_1_alg».proof.Proof.RegSumLemmas
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen
open ChunkSum

namespace Cert.KReg2

/-! ## What each case of the body leaves in the two rows -/

section Pieces

variable {F : FTy → Type} [FloatOps F]

theorem hz : (![0, 0] : Fin 2 → Nat) = fun _ => 0 := funext fun a => by fin_cases a <;> rfl

/-- A later point leaves in the first row the step applied to the block and to what the row held. -/
theorem out_B_1 (c : Dev nD) (i : grid2.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond2_0 i) (x : Vec F S2000x128 .f32) (xo1 xo2 : Vec F S1x128 .f32) :
    out2_B_1 c i a1 h1 a2 h2 a3 h3 hc x xo1 xo2 = k2_pay4 x xo1 := by
  unfold out2_B_1
  rw [View.read_writes_eq_canon _ _ _ (cover2_B_1 c i a1 h1 a2 h2 a3 h3 hc x xo1 xo2)]
  unfold kernelRun2_B
  dsimp only
  rw [View.canon_unit_zero hz]
  simp only [View.readAt_eq_ld, h1.read_unread, h2.read_unread, View.ld_unit_zero (S := S2000x128) hz,
    View.ld_unit_zero (S := S1x128) hz]

/-- A later point leaves in the second row the squares' step applied to the block and to what the row held. -/
theorem out_B_2 (c : Dev nD) (i : grid2.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond2_0 i) (x : Vec F S2000x128 .f32) (xo1 xo2 : Vec F S1x128 .f32) :
    out2_B_2 c i a1 h1 a2 h2 a3 h3 hc x xo1 xo2 = k2_pay5 x xo2 := by
  unfold out2_B_2
  rw [View.read_writes_eq_canon _ _ _ (cover2_B_2 c i a1 h1 a2 h2 a3 h3 hc x xo1 xo2)]
  unfold kernelRun2_B
  dsimp only
  rw [View.canon_unit_zero hz]
  simp only [View.readAt_eq_ld, h1.read_unread, h3.read_unread, View.ld_unit_zero (S := S2000x128) hz,
    View.ld_unit_zero (S := S1x128) hz]

/-- The first point stores the zero row, reads it back, and leaves the step applied to the block and the zero row. -/
theorem out_A_1 (c : Dev nD) (i : grid2.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond2_0 i) (x : Vec F S2000x128 .f32) :
    out2_A_1 c i a1 h1 a2 h2 a3 h3 hc x = k2_pay4 x (k2_pay1 (F := F)) := by
  unfold out2_A_1
  rw [View.read_writes_eq_canon _ _ _ (cover2_A_1 c i a1 h1 a2 h2 a3 h3 hc x)]
  unfold kernelRun2_A
  dsimp only
  sl_unfold_words
  rw [View.canon_cons_unit_zero (S := S1x128) hz, View.readCov_unit_zero (S := S1x128) _ hz]
  simp only [View.readAt_eq_ld, h1.read_unread, View.ld_unit_zero (S := S2000x128) hz]

/-- The same for the second row. -/
theorem out_A_2 (c : Dev nD) (i : grid2.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond2_0 i) (x : Vec F S2000x128 .f32) :
    out2_A_2 c i a1 h1 a2 h2 a3 h3 hc x = k2_pay5 x (k2_pay2 (F := F)) := by
  unfold out2_A_2
  rw [View.read_writes_eq_canon _ _ _ (cover2_A_2 c i a1 h1 a2 h2 a3 h3 hc x)]
  unfold kernelRun2_A
  dsimp only
  sl_unfold_words
  rw [View.canon_cons_unit_zero (S := S1x128) hz, View.readCov_unit_zero (S := S1x128) _ hz]
  simp only [View.readAt_eq_ld, h1.read_unread, View.ld_unit_zero (S := S2000x128) hz]

end Pieces

/-! ## The step at an index, over the extended reals -/

/-- The step on the first row, at column j: what the row held plus the sum down column j of the block. -/
theorem pay4_apply (x : FVec Ideal S2000x128 .f32) (acc : FVec Ideal S1x128 .f32) (u : Fin 1) (j : Fin 128) :
    k2_pay4 (F := Ideal) x acc (ix2 u j) = acc (ix2 u j) + ∑ r : Fin 2000, x (ix2 r j) := by
  unfold k2_pay4 k2_pay3
  exact RegSum.addColSum_apply x acc _ _ _ _ _ _ _ u j

/-- The step on the second row, at column j: what the row held plus the sum down column j of the block's squares. -/
theorem pay5_apply (x : FVec Ideal S2000x128 .f32) (acc : FVec Ideal S1x128 .f32) (u : Fin 1) (j : Fin 128) :
    k2_pay5 (F := Ideal) x acc (ix2 u j) = acc (ix2 u j) + ∑ r : Fin 2000, x (ix2 r j) * x (ix2 r j) := by
  unfold k2_pay5 k2_pay3
  exact RegSum.addColSumSq_apply x acc _ _ _ _ _ _ _ u j

/-- The rows the first point stores hold zero. -/
theorem pay1_apply (i : S1x128.Idx) : k2_pay1 (F := Ideal) i = 0 := RegSum.zeroRow_apply S1x128 i
theorem pay2_apply (i : S1x128.Idx) : k2_pay2 (F := Ideal) i = 0 := RegSum.zeroRow_apply S1x128 i

/-! ## One point, from what the point before left -/

/-- A later point k: rows holding the sums over the first k·2000 rows of X, and a block holding rows k·2000 … of X,
    leave the sums over the first (k+1)·2000 rows. -/
theorem step_B (c : Dev nD) (i : grid2.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond2_0 i) (X : Spec.Mat 100000 128) (k : ℕ) (x : FVec Ideal S2000x128 .f32) (xo1 xo2 : FVec Ideal S1x128 .f32)
    (u : Fin 1) (j : Fin 128) (hx : ∀ q : Fin 2000, x (ix2 q j) = RegSum.colSeq X j (k * 2000 + q.val))
    (e1 : xo1 (ix2 u j) = partialSum (RegSum.colSeq X j) (k * 2000))
    (e2 : xo2 (ix2 u j) = partialSum (RegSum.colSqSeq X j) (k * 2000)) :
    out2_B_1 (F := Ideal) c i a1 h1 a2 h2 a3 h3 hc x xo1 xo2 (ix2 u j) = partialSum (RegSum.colSeq X j) ((k + 1) * 2000)
    ∧ out2_B_2 (F := Ideal) c i a1 h1 a2 h2 a3 h3 hc x xo1 xo2 (ix2 u j) = partialSum (RegSum.colSqSeq X j) ((k + 1) * 2000) := by
  rw [out_B_1 (F := Ideal) c i a1 h1 a2 h2 a3 h3 hc x xo1 xo2, out_B_2 (F := Ideal) c i a1 h1 a2 h2 a3 h3 hc x xo1 xo2, pay4_apply x xo1 u j,
    pay5_apply x xo2 u j, e1, e2]
  exact ⟨RegSum.sum_step X k x j hx, RegSum.sumSq_step X k x j hx⟩

/-- The first point: a block holding the first 2000 rows of X leaves the sums over them. -/
theorem step_A (c : Dev nD) (i : grid2.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond2_0 i) (X : Spec.Mat 100000 128) (x : FVec Ideal S2000x128 .f32)
    (u : Fin 1) (j : Fin 128) (hx : ∀ q : Fin 2000, x (ix2 q j) = RegSum.colSeq X j (0 * 2000 + q.val)) :
    out2_A_1 (F := Ideal) c i a1 h1 a2 h2 a3 h3 hc x (ix2 u j) = partialSum (RegSum.colSeq X j) ((0 + 1) * 2000)
    ∧ out2_A_2 (F := Ideal) c i a1 h1 a2 h2 a3 h3 hc x (ix2 u j) = partialSum (RegSum.colSqSeq X j) ((0 + 1) * 2000) := by
  rw [out_A_1 (F := Ideal) c i a1 h1 a2 h2 a3 h3 hc x, out_A_2 (F := Ideal) c i a1 h1 a2 h2 a3 h3 hc x, pay4_apply x _ u j, pay5_apply x _ u j,
    pay1_apply, pay2_apply]
  exact ⟨RegSum.sum_first X x j hx, RegSum.sumSq_first X x j hx⟩

/-! ## The rows after every point -/

variable (V : (c : Dev nD) → (b : Ref sig .tc) → Buf (Elt Ideal) ((c : Thread nD τ).loc b))

/-- The array the region reads, as a matrix of extended reals. -/
abbrev X (c : Dev nD) : Spec.Mat 100000 128 := V c main_v51

/-- The block index of the input window at point t is (t, 0): decided over the grid. -/
theorem idx_in : ∀ t : Fin cfg2.N, win2_0.index t (0 : Fin 2) = t.val ∧ win2_0.index t (1 : Fin 2) = 0 :=
  (by decide +kernel : ∀ t : Fin grid2.N, _)

/-- The block index of both output windows is (0, 0) at every point: decided over the grid. -/
theorem idx_out : ∀ t : Fin cfg2.N, (win2_1.index t (0 : Fin 2) = 0 ∧ win2_1.index t (1 : Fin 2) = 0)
    ∧ win2_2.index t (0 : Fin 2) = 0 ∧ win2_2.index t (1 : Fin 2) = 0 :=
  (by decide +kernel : ∀ t : Fin grid2.N, _)

/-- The input block at point t holds rows t·2000 … of X: entry (q, j) of the block is X (t·2000 + q, j). -/
theorem blk_apply (c : Dev nD) (t : Fin cfg2.N) (q : Fin 2000) (j : Fin 128) :
    (iblk2 V c 0 t : FVec Ideal S2000x128 .f32) (ix2 q j) = RegSum.colSeq (X V c) j (t.val * 2000 + q.val) := by
  have hN : t.val < 50 := lt_of_lt_of_eq t.isLt (show cfg2.N = 50 from N_2)
  have hq : q.val < 2000 := q.isLt
  rw [RegSum.colSeq_lt (X V c) j _ (by omega)]
  unfold iblk2
  rw [View.read_apply]
  show V c main_v51 (((cfg2.win 0).blk t).view.emb (ix2 q j)) = V c main_v51 (ix2 ⟨t.val * 2000 + q.val, _⟩ j)
  refine congrArg (V c main_v51) (funext fun a => Fin.ext ?_)
  obtain ⟨e0, e1⟩ := idx_in t
  match a with
  | ⟨0, _⟩ => show win2_0.index t (0 : Fin 2) * 2000 + 1 * q.val = t.val * 2000 + q.val; omega
  | ⟨1, _⟩ => show win2_0.index t (1 : Fin 2) * 128 + 1 * j.val = j.val; omega

/-- After point n the first row holds, in column j, the sum of X (r, j) over r < (n+1)·2000, and the second row the sum
    of the squares: by induction on the point. -/
theorem outsAt_eq (c : Dev nD) : ∀ (n : ℕ) (h : n < cfg2.N) (u : Fin 1) (j : Fin 128),
    (outsAt2 V c n h).1 (ix2 u j) = partialSum (RegSum.colSeq (X V c) j) ((n + 1) * 2000)
    ∧ (outsAt2 V c n h).2 (ix2 u j) = partialSum (RegSum.colSqSeq (X V c) j) ((n + 1) * 2000)
  | 0, h, u, j => by
    rw [outsAt2_A V c ⟨0, h⟩ rfl]
    dsimp only
    exact step_A c (grid2.coords ⟨0, h⟩) (ms2_0 ⟨0, h⟩) (hs2_0 ⟨0, h⟩) (ms2_1 ⟨0, h⟩) (hs2_1 ⟨0, h⟩) (ms2_2 ⟨0, h⟩)
      (hs2_2 ⟨0, h⟩) ((hcond2_0 ⟨0, h⟩).mpr rfl) (X V c) (iblk2 V c 0 ⟨0, h⟩) u j (fun q => blk_apply V c ⟨0, h⟩ q j)
  | n + 1, h, u, j => by
    have hN : cfg2.N = 50 := N_2
    have hB : ¬(⟨n + 1, h⟩ : Fin cfg2.N).val % 50 = 0 := by dsimp only; omega
    obtain ⟨i1, i2⟩ := outsAt_eq c n (Nat.lt_of_succ_lt h) u j
    rw [outsAt2_B V c ⟨n + 1, h⟩ hB]
    dsimp only
    exact step_B c (grid2.coords ⟨n + 1, h⟩) (ms2_0 ⟨n + 1, h⟩) (hs2_0 ⟨n + 1, h⟩) (ms2_1 ⟨n + 1, h⟩) (hs2_1 ⟨n + 1, h⟩)
      (ms2_2 ⟨n + 1, h⟩) (hs2_2 ⟨n + 1, h⟩) (fun hh => hB ((hcond2_0 ⟨n + 1, h⟩).mp hh)) (X V c) (n + 1)
      (iblk2 V c 0 ⟨n + 1, h⟩) (outsAt2 V c n (Nat.lt_of_succ_lt h)).1 (outsAt2 V c n (Nat.lt_of_succ_lt h)).2 u j
      (fun q => blk_apply V c ⟨n + 1, h⟩ q j) i1 i2

/-- After the last point the first row is the column sums of X … -/
theorem last_1 (c : Dev nD) (t : Fin cfg2.N) (ht : t.val = 49) :
    ((outsAt2 V c t.val t.isLt).1 : Spec.Mat 1 128) = Spec.colSum (X V c) := by
  funext i
  obtain ⟨u, j, rfl⟩ : ∃ (u : Fin 1) (j : Fin 128), i = ix2 u j := ⟨i 0, i 1, eq_ix2 i⟩
  rw [(outsAt_eq V c t.val t.isLt u j).1, ← RegSum.sum_all (X V c) u j, ht]

/-- … and the second row the column sums of its squares. -/
theorem last_2 (c : Dev nD) (t : Fin cfg2.N) (ht : t.val = 49) :
    ((outsAt2 V c t.val t.isLt).2 : Spec.Mat 1 128) = Spec.colSumSq (X V c) := by
  funext i
  obtain ⟨u, j, rfl⟩ : ∃ (u : Fin 1) (j : Fin 128), i = ix2 u j := ⟨i 0, i 1, eq_ix2 i⟩
  rw [(outsAt_eq V c t.val t.isLt u j).2, ← RegSum.sumSq_all (X V c) u j, ht]

/-! ## The write-back and the arrays after the region -/

/-- The one write-back of the first row, after the last point, writes the column sums: the row's block is the whole
    [1, 128] array at zero offsets. -/
theorem flushed_1 (c : Dev nD) (t : Fin cfg2.N) (hf : (cfg2.win 1).flush t = true) :
    (dat2 V c).flushed 1 t = ((cfg2.win 1).blk t).view.read (Elt Ideal) (Spec.colSum (X V c)) := by
  have hN : cfg2.N = 50 := N_2
  have h49 : t.val = 49 := by have := (flush2_1 t).mp hf; have := t.isLt; omega
  show (cfg2.win 1).cut (grid2.coords t) ((dat2 V c).after 1 t) = _
  rw [after2_1, last_1 V c t h49]
  have hz' : (fun a => win2_1.index t a * main_v52_0.ty.shape.size a) = fun _ => 0 := funext fun a => by
    obtain ⟨⟨e0, e1⟩, -⟩ := idx_out t
    match a with
    | ⟨0, _⟩ => show win2_1.index t (0 : Fin 2) * 1 = 0; omega
    | ⟨1, _⟩ => show win2_1.index t (1 : Fin 2) * 128 = 0; omega
  exact (Memref.read_access_unit_zero (Elt Ideal) main_v52_0 hz' (fun a => by rw [congrFun hz' a]; simp) (Spec.colSum (X V c))).symm

/-- The same for the second row and the squares. -/
theorem flushed_2 (c : Dev nD) (t : Fin cfg2.N) (hf : (cfg2.win 2).flush t = true) :
    (dat2 V c).flushed 2 t = ((cfg2.win 2).blk t).view.read (Elt Ideal) (Spec.colSumSq (X V c)) := by
  have hN : cfg2.N = 50 := N_2
  have h49 : t.val = 49 := by have := (flush2_2 t).mp hf; have := t.isLt; omega
  show (cfg2.win 2).cut (grid2.coords t) ((dat2 V c).after 2 t) = _
  rw [after2_2, last_2 V c t h49]
  have hz' : (fun a => win2_2.index t a * main_v52_1.ty.shape.size a) = fun _ => 0 := funext fun a => by
    obtain ⟨-, e0, e1⟩ := idx_out t
    match a with
    | ⟨0, _⟩ => show win2_2.index t (0 : Fin 2) * 1 = 0; omega
    | ⟨1, _⟩ => show win2_2.index t (1 : Fin 2) * 128 = 0; omega
  exact (Memref.read_access_unit_zero (Elt Ideal) main_v52_1 hz' (fun a => by rw [congrFun hz' a]; simp) (Spec.colSumSq (X V c))).symm

/-- The last point. -/
abbrev tLast : Fin cfg2.N := ⟨49, by rw [show cfg2.N = 50 from N_2]; decide⟩

/-- Every index of the first row lies in the block the last point writes back. -/
theorem cover_1 (i : S1x128.Idx) : ∃ t : Fin cfg2.N, (cfg2.win 1).flush t = true ∧ i ∈ ((cfg2.win 1).blk t).view.set := by
  refine ⟨tLast, (flush2_1 tLast).mpr rfl, ?_⟩
  show i ∈ ((View.whole main_v52_0).slice (win2_1.rect tLast)).set
  rw [View.set_slice_whole, Rect.mem_set_unit]
  intro a
  obtain ⟨⟨e0, e1⟩, -⟩ := idx_out tLast
  have h0 : (i 0).val < 1 := (i 0).isLt
  have h1 : (i 1).val < 128 := (i 1).isLt
  match a with
  | ⟨0, _⟩ => show win2_1.index tLast (0 : Fin 2) * 1 ≤ (i 0).val ∧ (i 0).val < win2_1.index tLast (0 : Fin 2) * 1 + 1; omega
  | ⟨1, _⟩ => show win2_1.index tLast (1 : Fin 2) * 128 ≤ (i 1).val ∧ (i 1).val < win2_1.index tLast (1 : Fin 2) * 128 + 128; omega

/-- The same for the second row. -/
theorem cover_2 (i : S1x128.Idx) : ∃ t : Fin cfg2.N, (cfg2.win 2).flush t = true ∧ i ∈ ((cfg2.win 2).blk t).view.set := by
  refine ⟨tLast, (flush2_2 tLast).mpr rfl, ?_⟩
  show i ∈ ((View.whole main_v52_1).slice (win2_2.rect tLast)).set
  rw [View.set_slice_whole, Rect.mem_set_unit]
  intro a
  obtain ⟨-, e0, e1⟩ := idx_out tLast
  have h0 : (i 0).val < 1 := (i 0).isLt
  have h1 : (i 1).val < 128 := (i 1).isLt
  match a with
  | ⟨0, _⟩ => show win2_2.index tLast (0 : Fin 2) * 1 ≤ (i 0).val ∧ (i 0).val < win2_2.index tLast (0 : Fin 2) * 1 + 1; omega
  | ⟨1, _⟩ => show win2_2.index tLast (1 : Fin 2) * 128 ≤ (i 1).val ∧ (i 1).val < win2_2.index tLast (1 : Fin 2) * 128 + 128; omega

/-- After the region the first output array holds the column sums of the array the region read. -/
theorem sum (V : (c : Dev nD) → (b : Ref sig .tc) → Buf (Elt Ideal) ((c : Thread nD τ).loc b)) (c : Dev nD) :
    (Gen.dat2 (F := Ideal) V c).arrAt 1 cfg2.N = Cert.Spec.colSum (V c main_v51) :=
  (dat2 V c).arrAt_eq_of_cover 1 (Spec.colSum (X V c)) (flushed_1 V c) cover_1

/-- After the region the second output array holds the column sums of the squares of the array the region read. -/
theorem sumsq (V : (c : Dev nD) → (b : Ref sig .tc) → Buf (Elt Ideal) ((c : Thread nD τ).loc b)) (c : Dev nD) :
    (Gen.dat2 (F := Ideal) V c).arrAt 2 cfg2.N = Cert.Spec.colSumSq (V c main_v51) :=
  (dat2 V c).arrAt_eq_of_cover 2 (Spec.colSumSq (X V c)) (flushed_2 V c) cover_2

end Cert.KReg2

end
-- ==== Proof.RegSum5.lean ====
/-
  The second column-sum region, in closed form: the same body as the first, on another array.

  The grid runs over the 50 blocks of 2000 rows of a [100000, 128] array X.  Each of the two outputs is one [1, 128]
  row: the same row at every grid point, carried from one point to the next and written back after the last point only.
  The first point stores zeros into both rows; then every point adds to the first row the sums down the columns of
  its block of X, and to the second row the sums down the columns of the squares of the block's entries.  So after
  point t the first row holds in column j the sum of X (r, j) over the rows r below 2000·(t+1), and the second row the
  sum of X (r, j)², and after the last point they hold the sums over all 100000 rows: the column sums of X and of its
  squares.  Sums of extended reals regroup freely, so no entry needs to be finite.
-/
import proofs.«171444_j1073741824178_1_alg».proof.Proof.Gen.KernelIdeal.Frame
import proofs.«171444_j1073741824178_1_alg».proof.Proof.LibMatOps
import proofs.«171444_j1073741824178_1_alg».proof.Proof.RegSumLemmas
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen
open ChunkSum

namespace Cert.KReg5

/-! ## What each case of the body leaves in the two rows -/

section Pieces

variable {F : FTy → Type} [FloatOps F]

theorem hz : (![0, 0] : Fin 2 → Nat) = fun _ => 0 := funext fun a => by fin_cases a <;> rfl

/-- A later point leaves in the first row the step applied to the block and to what the row held. -/
theorem out_B_1 (c : Dev nD) (i : grid5.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond5_0 i) (x : Vec F S2000x128 .f32) (xo1 xo2 : Vec F S1x128 .f32) :
    out5_B_1 c i a1 h1 a2 h2 a3 h3 hc x xo1 xo2 = k5_pay4 x xo1 := by
  unfold out5_B_1
  rw [View.read_writes_eq_canon _ _ _ (cover5_B_1 c i a1 h1 a2 h2 a3 h3 hc x xo1 xo2)]
  unfold kernelRun5_B
  dsimp only
  rw [View.canon_unit_zero hz]
  simp only [View.readAt_eq_ld, h1.read_unread, h2.read_unread, View.ld_unit_zero (S := S2000x128) hz,
    View.ld_unit_zero (S := S1x128) hz]

/-- A later point leaves in the second row the squares' step applied to the block and to what the row held. -/
theorem out_B_2 (c : Dev nD) (i : grid5.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond5_0 i) (x : Vec F S2000x128 .f32) (xo1 xo2 : Vec F S1x128 .f32) :
    out5_B_2 c i a1 h1 a2 h2 a3 h3 hc x xo1 xo2 = k5_pay5 x xo2 := by
  unfold out5_B_2
  rw [View.read_writes_eq_canon _ _ _ (cover5_B_2 c i a1 h1 a2 h2 a3 h3 hc x xo1 xo2)]
  unfold kernelRun5_B
  dsimp only
  rw [View.canon_unit_zero hz]
  simp only [View.readAt_eq_ld, h1.read_unread, h3.read_unread, View.ld_unit_zero (S := S2000x128) hz,
    View.ld_unit_zero (S := S1x128) hz]

/-- The first point stores the zero row, reads it back, and leaves the step applied to the block and the zero row. -/
theorem out_A_1 (c : Dev nD) (i : grid5.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond5_0 i) (x : Vec F S2000x128 .f32) :
    out5_A_1 c i a1 h1 a2 h2 a3 h3 hc x = k5_pay4 x (k5_pay1 (F := F)) := by
  unfold out5_A_1
  rw [View.read_writes_eq_canon _ _ _ (cover5_A_1 c i a1 h1 a2 h2 a3 h3 hc x)]
  unfold kernelRun5_A
  dsimp only
  sl_unfold_words
  rw [View.canon_cons_unit_zero (S := S1x128) hz, View.readCov_unit_zero (S := S1x128) _ hz]
  simp only [View.readAt_eq_ld, h1.read_unread, View.ld_unit_zero (S := S2000x128) hz]

/-- The same for the second row. -/
theorem out_A_2 (c : Dev nD) (i : grid5.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond5_0 i) (x : Vec F S2000x128 .f32) :
    out5_A_2 c i a1 h1 a2 h2 a3 h3 hc x = k5_pay5 x (k5_pay2 (F := F)) := by
  unfold out5_A_2
  rw [View.read_writes_eq_canon _ _ _ (cover5_A_2 c i a1 h1 a2 h2 a3 h3 hc x)]
  unfold kernelRun5_A
  dsimp only
  sl_unfold_words
  rw [View.canon_cons_unit_zero (S := S1x128) hz, View.readCov_unit_zero (S := S1x128) _ hz]
  simp only [View.readAt_eq_ld, h1.read_unread, View.ld_unit_zero (S := S2000x128) hz]

end Pieces

/-! ## The step at an index, over the extended reals -/

/-- The step on the first row, at column j: what the row held plus the sum down column j of the block. -/
theorem pay4_apply (x : FVec Ideal S2000x128 .f32) (acc : FVec Ideal S1x128 .f32) (u : Fin 1) (j : Fin 128) :
    k5_pay4 (F := Ideal) x acc (ix2 u j) = acc (ix2 u j) + ∑ r : Fin 2000, x (ix2 r j) := by
  unfold k5_pay4 k5_pay3
  exact RegSum.addColSum_apply x acc _ _ _ _ _ _ _ u j

/-- The step on the second row, at column j: what the row held plus the sum down column j of the block's squares. -/
theorem pay5_apply (x : FVec Ideal S2000x128 .f32) (acc : FVec Ideal S1x128 .f32) (u : Fin 1) (j : Fin 128) :
    k5_pay5 (F := Ideal) x acc (ix2 u j) = acc (ix2 u j) + ∑ r : Fin 2000, x (ix2 r j) * x (ix2 r j) := by
  unfold k5_pay5 k5_pay3
  exact RegSum.addColSumSq_apply x acc _ _ _ _ _ _ _ u j

/-- The rows the first point stores hold zero. -/
theorem pay1_apply (i : S1x128.Idx) : k5_pay1 (F := Ideal) i = 0 := RegSum.zeroRow_apply S1x128 i
theorem pay2_apply (i : S1x128.Idx) : k5_pay2 (F := Ideal) i = 0 := RegSum.zeroRow_apply S1x128 i

/-! ## One point, from what the point before left -/

/-- A later point k: rows holding the sums over the first k·2000 rows of X, and a block holding rows k·2000 … of X,
    leave the sums over the first (k+1)·2000 rows. -/
theorem step_B (c : Dev nD) (i : grid5.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond5_0 i) (X : Spec.Mat 100000 128) (k : ℕ) (x : FVec Ideal S2000x128 .f32) (xo1 xo2 : FVec Ideal S1x128 .f32)
    (u : Fin 1) (j : Fin 128) (hx : ∀ q : Fin 2000, x (ix2 q j) = RegSum.colSeq X j (k * 2000 + q.val))
    (e1 : xo1 (ix2 u j) = partialSum (RegSum.colSeq X j) (k * 2000))
    (e2 : xo2 (ix2 u j) = partialSum (RegSum.colSqSeq X j) (k * 2000)) :
    out5_B_1 (F := Ideal) c i a1 h1 a2 h2 a3 h3 hc x xo1 xo2 (ix2 u j) = partialSum (RegSum.colSeq X j) ((k + 1) * 2000)
    ∧ out5_B_2 (F := Ideal) c i a1 h1 a2 h2 a3 h3 hc x xo1 xo2 (ix2 u j) = partialSum (RegSum.colSqSeq X j) ((k + 1) * 2000) := by
  rw [out_B_1 (F := Ideal) c i a1 h1 a2 h2 a3 h3 hc x xo1 xo2, out_B_2 (F := Ideal) c i a1 h1 a2 h2 a3 h3 hc x xo1 xo2, pay4_apply x xo1 u j,
    pay5_apply x xo2 u j, e1, e2]
  exact ⟨RegSum.sum_step X k x j hx, RegSum.sumSq_step X k x j hx⟩

/-- The first point: a block holding the first 2000 rows of X leaves the sums over them. -/
theorem step_A (c : Dev nD) (i : grid5.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond5_0 i) (X : Spec.Mat 100000 128) (x : FVec Ideal S2000x128 .f32)
    (u : Fin 1) (j : Fin 128) (hx : ∀ q : Fin 2000, x (ix2 q j) = RegSum.colSeq X j (0 * 2000 + q.val)) :
    out5_A_1 (F := Ideal) c i a1 h1 a2 h2 a3 h3 hc x (ix2 u j) = partialSum (RegSum.colSeq X j) ((0 + 1) * 2000)
    ∧ out5_A_2 (F := Ideal) c i a1 h1 a2 h2 a3 h3 hc x (ix2 u j) = partialSum (RegSum.colSqSeq X j) ((0 + 1) * 2000) := by
  rw [out_A_1 (F := Ideal) c i a1 h1 a2 h2 a3 h3 hc x, out_A_2 (F := Ideal) c i a1 h1 a2 h2 a3 h3 hc x, pay4_apply x _ u j, pay5_apply x _ u j,
    pay1_apply, pay2_apply]
  exact ⟨RegSum.sum_first X x j hx, RegSum.sumSq_first X x j hx⟩

/-! ## The rows after every point -/

variable (V : (c : Dev nD) → (b : Ref sig .tc) → Buf (Elt Ideal) ((c : Thread nD τ).loc b))

/-- The array the region reads, as a matrix of extended reals. -/
abbrev X (c : Dev nD) : Spec.Mat 100000 128 := V c main_v90

/-- The block index of the input window at point t is (t, 0): decided over the grid. -/
theorem idx_in : ∀ t : Fin cfg5.N, win5_0.index t (0 : Fin 2) = t.val ∧ win5_0.index t (1 : Fin 2) = 0 :=
  (by decide +kernel : ∀ t : Fin grid5.N, _)

/-- The block index of both output windows is (0, 0) at every point: decided over the grid. -/
theorem idx_out : ∀ t : Fin cfg5.N, (win5_1.index t (0 : Fin 2) = 0 ∧ win5_1.index t (1 : Fin 2) = 0)
    ∧ win5_2.index t (0 : Fin 2) = 0 ∧ win5_2.index t (1 : Fin 2) = 0 :=
  (by decide +kernel : ∀ t : Fin grid5.N, _)

/-- The input block at point t holds rows t·2000 … of X: entry (q, j) of the block is X (t·2000 + q, j). -/
theorem blk_apply (c : Dev nD) (t : Fin cfg5.N) (q : Fin 2000) (j : Fin 128) :
    (iblk5 V c 0 t : FVec Ideal S2000x128 .f32) (ix2 q j) = RegSum.colSeq (X V c) j (t.val * 2000 + q.val) := by
  have hN : t.val < 50 := lt_of_lt_of_eq t.isLt (show cfg5.N = 50 from N_5)
  have hq : q.val < 2000 := q.isLt
  rw [RegSum.colSeq_lt (X V c) j _ (by omega)]
  unfold iblk5
  rw [View.read_apply]
  show V c main_v90 (((cfg5.win 0).blk t).view.emb (ix2 q j)) = V c main_v90 (ix2 ⟨t.val * 2000 + q.val, _⟩ j)
  refine congrArg (V c main_v90) (funext fun a => Fin.ext ?_)
  obtain ⟨e0, e1⟩ := idx_in t
  match a with
  | ⟨0, _⟩ => show win5_0.index t (0 : Fin 2) * 2000 + 1 * q.val = t.val * 2000 + q.val; omega
  | ⟨1, _⟩ => show win5_0.index t (1 : Fin 2) * 128 + 1 * j.val = j.val; omega

/-- After point n the first row holds, in column j, the sum of X (r, j) over r < (n+1)·2000, and the second row the sum
    of the squares: by induction on the point. -/
theorem outsAt_eq (c : Dev nD) : ∀ (n : ℕ) (h : n < cfg5.N) (u : Fin 1) (j : Fin 128),
    (outsAt5 V c n h).1 (ix2 u j) = partialSum (RegSum.colSeq (X V c) j) ((n + 1) * 2000)
    ∧ (outsAt5 V c n h).2 (ix2 u j) = partialSum (RegSum.colSqSeq (X V c) j) ((n + 1) * 2000)
  | 0, h, u, j => by
    rw [outsAt5_A V c ⟨0, h⟩ rfl]
    dsimp only
    exact step_A c (grid5.coords ⟨0, h⟩) (ms5_0 ⟨0, h⟩) (hs5_0 ⟨0, h⟩) (ms5_1 ⟨0, h⟩) (hs5_1 ⟨0, h⟩) (ms5_2 ⟨0, h⟩)
      (hs5_2 ⟨0, h⟩) ((hcond5_0 ⟨0, h⟩).mpr rfl) (X V c) (iblk5 V c 0 ⟨0, h⟩) u j (fun q => blk_apply V c ⟨0, h⟩ q j)
  | n + 1, h, u, j => by
    have hN : cfg5.N = 50 := N_5
    have hB : ¬(⟨n + 1, h⟩ : Fin cfg5.N).val % 50 = 0 := by dsimp only; omega
    obtain ⟨i1, i2⟩ := outsAt_eq c n (Nat.lt_of_succ_lt h) u j
    rw [outsAt5_B V c ⟨n + 1, h⟩ hB]
    dsimp only
    exact step_B c (grid5.coords ⟨n + 1, h⟩) (ms5_0 ⟨n + 1, h⟩) (hs5_0 ⟨n + 1, h⟩) (ms5_1 ⟨n + 1, h⟩) (hs5_1 ⟨n + 1, h⟩)
      (ms5_2 ⟨n + 1, h⟩) (hs5_2 ⟨n + 1, h⟩) (fun hh => hB ((hcond5_0 ⟨n + 1, h⟩).mp hh)) (X V c) (n + 1)
      (iblk5 V c 0 ⟨n + 1, h⟩) (outsAt5 V c n (Nat.lt_of_succ_lt h)).1 (outsAt5 V c n (Nat.lt_of_succ_lt h)).2 u j
      (fun q => blk_apply V c ⟨n + 1, h⟩ q j) i1 i2

/-- After the last point the first row is the column sums of X … -/
theorem last_1 (c : Dev nD) (t : Fin cfg5.N) (ht : t.val = 49) :
    ((outsAt5 V c t.val t.isLt).1 : Spec.Mat 1 128) = Spec.colSum (X V c) := by
  funext i
  obtain ⟨u, j, rfl⟩ : ∃ (u : Fin 1) (j : Fin 128), i = ix2 u j := ⟨i 0, i 1, eq_ix2 i⟩
  rw [(outsAt_eq V c t.val t.isLt u j).1, ← RegSum.sum_all (X V c) u j, ht]

/-- … and the second row the column sums of its squares. -/
theorem last_2 (c : Dev nD) (t : Fin cfg5.N) (ht : t.val = 49) :
    ((outsAt5 V c t.val t.isLt).2 : Spec.Mat 1 128) = Spec.colSumSq (X V c) := by
  funext i
  obtain ⟨u, j, rfl⟩ : ∃ (u : Fin 1) (j : Fin 128), i = ix2 u j := ⟨i 0, i 1, eq_ix2 i⟩
  rw [(outsAt_eq V c t.val t.isLt u j).2, ← RegSum.sumSq_all (X V c) u j, ht]

/-! ## The write-back and the arrays after the region -/

/-- The one write-back of the first row, after the last point, writes the column sums: the row's block is the whole
    [1, 128] array at zero offsets. -/
theorem flushed_1 (c : Dev nD) (t : Fin cfg5.N) (hf : (cfg5.win 1).flush t = true) :
    (dat5 V c).flushed 1 t = ((cfg5.win 1).blk t).view.read (Elt Ideal) (Spec.colSum (X V c)) := by
  have hN : cfg5.N = 50 := N_5
  have h49 : t.val = 49 := by have := (flush5_1 t).mp hf; have := t.isLt; omega
  show (cfg5.win 1).cut (grid5.coords t) ((dat5 V c).after 1 t) = _
  rw [after5_1, last_1 V c t h49]
  have hz' : (fun a => win5_1.index t a * main_v91_0.ty.shape.size a) = fun _ => 0 := funext fun a => by
    obtain ⟨⟨e0, e1⟩, -⟩ := idx_out t
    match a with
    | ⟨0, _⟩ => show win5_1.index t (0 : Fin 2) * 1 = 0; omega
    | ⟨1, _⟩ => show win5_1.index t (1 : Fin 2) * 128 = 0; omega
  exact (Memref.read_access_unit_zero (Elt Ideal) main_v91_0 hz' (fun a => by rw [congrFun hz' a]; simp) (Spec.colSum (X V c))).symm

/-- The same for the second row and the squares. -/
theorem flushed_2 (c : Dev nD) (t : Fin cfg5.N) (hf : (cfg5.win 2).flush t = true) :
    (dat5 V c).flushed 2 t = ((cfg5.win 2).blk t).view.read (Elt Ideal) (Spec.colSumSq (X V c)) := by
  have hN : cfg5.N = 50 := N_5
  have h49 : t.val = 49 := by have := (flush5_2 t).mp hf; have := t.isLt; omega
  show (cfg5.win 2).cut (grid5.coords t) ((dat5 V c).after 2 t) = _
  rw [after5_2, last_2 V c t h49]
  have hz' : (fun a => win5_2.index t a * main_v91_1.ty.shape.size a) = fun _ => 0 := funext fun a => by
    obtain ⟨-, e0, e1⟩ := idx_out t
    match a with
    | ⟨0, _⟩ => show win5_2.index t (0 : Fin 2) * 1 = 0; omega
    | ⟨1, _⟩ => show win5_2.index t (1 : Fin 2) * 128 = 0; omega
  exact (Memref.read_access_unit_zero (Elt Ideal) main_v91_1 hz' (fun a => by rw [congrFun hz' a]; simp) (Spec.colSumSq (X V c))).symm

/-- The last point. -/
abbrev tLast : Fin cfg5.N := ⟨49, by rw [show cfg5.N = 50 from N_5]; decide⟩

/-- Every index of the first row lies in the block the last point writes back. -/
theorem cover_1 (i : S1x128.Idx) : ∃ t : Fin cfg5.N, (cfg5.win 1).flush t = true ∧ i ∈ ((cfg5.win 1).blk t).view.set := by
  refine ⟨tLast, (flush5_1 tLast).mpr rfl, ?_⟩
  show i ∈ ((View.whole main_v91_0).slice (win5_1.rect tLast)).set
  rw [View.set_slice_whole, Rect.mem_set_unit]
  intro a
  obtain ⟨⟨e0, e1⟩, -⟩ := idx_out tLast
  have h0 : (i 0).val < 1 := (i 0).isLt
  have h1 : (i 1).val < 128 := (i 1).isLt
  match a with
  | ⟨0, _⟩ => show win5_1.index tLast (0 : Fin 2) * 1 ≤ (i 0).val ∧ (i 0).val < win5_1.index tLast (0 : Fin 2) * 1 + 1; omega
  | ⟨1, _⟩ => show win5_1.index tLast (1 : Fin 2) * 128 ≤ (i 1).val ∧ (i 1).val < win5_1.index tLast (1 : Fin 2) * 128 + 128; omega

/-- The same for the second row. -/
theorem cover_2 (i : S1x128.Idx) : ∃ t : Fin cfg5.N, (cfg5.win 2).flush t = true ∧ i ∈ ((cfg5.win 2).blk t).view.set := by
  refine ⟨tLast, (flush5_2 tLast).mpr rfl, ?_⟩
  show i ∈ ((View.whole main_v91_1).slice (win5_2.rect tLast)).set
  rw [View.set_slice_whole, Rect.mem_set_unit]
  intro a
  obtain ⟨-, e0, e1⟩ := idx_out tLast
  have h0 : (i 0).val < 1 := (i 0).isLt
  have h1 : (i 1).val < 128 := (i 1).isLt
  match a with
  | ⟨0, _⟩ => show win5_2.index tLast (0 : Fin 2) * 1 ≤ (i 0).val ∧ (i 0).val < win5_2.index tLast (0 : Fin 2) * 1 + 1; omega
  | ⟨1, _⟩ => show win5_2.index tLast (1 : Fin 2) * 128 ≤ (i 1).val ∧ (i 1).val < win5_2.index tLast (1 : Fin 2) * 128 + 128; omega

/-- After the region the first output array holds the column sums of the array the region read. -/
theorem sum (V : (c : Dev nD) → (b : Ref sig .tc) → Buf (Elt Ideal) ((c : Thread nD τ).loc b)) (c : Dev nD) :
    (Gen.dat5 (F := Ideal) V c).arrAt 1 cfg5.N = Cert.Spec.colSum (V c main_v90) :=
  (dat5 V c).arrAt_eq_of_cover 1 (Spec.colSum (X V c)) (flushed_1 V c) cover_1

/-- After the region the second output array holds the column sums of the squares of the array the region read. -/
theorem sumsq (V : (c : Dev nD) → (b : Ref sig .tc) → Buf (Elt Ideal) ((c : Thread nD τ).loc b)) (c : Dev nD) :
    (Gen.dat5 (F := Ideal) V c).arrAt 2 cfg5.N = Cert.Spec.colSumSq (V c main_v90) :=
  (dat5 V c).arrAt_eq_of_cover 2 (Spec.colSumSq (X V c)) (flushed_2 V c) cover_2

end Cert.KReg5

end
-- ==== Proof.KStages.lean ====
/-
  The contents of every buffer the program's value passes through, at every boundary of its run.

  The run alternates seven stretches of array operations with seven kernel regions; the contents at each boundary are a
  fold over the launch memory.  Walking the fold forward: a stretch's results are its operations' terms of what the
  boundary before it holds; a region's output arrays hold the region's closed form of its input arrays as the region
  finds them; a buffer that a stretch does not write and that is no array of the region before it is carried over
  unchanged, and a region's input array leaves the region as it entered.  Each boundary's facts are stated for the
  buffers a later step reads, in terms of the argument arrays, and the last one says that the result buffer ends at
  the program's value `out` of the twelve arguments.
-/
import proofs.«171444_j1073741824178_1_alg».proof.Proof.Gen.KernelIdeal.Frame
import proofs.«171444_j1073741824178_1_alg».proof.Proof.KDefs
import proofs.«171444_j1073741824178_1_alg».proof.Proof.RegMM0
import proofs.«171444_j1073741824178_1_alg».proof.Proof.RegMM1
import proofs.«171444_j1073741824178_1_alg».proof.Proof.RegMM4
import proofs.«171444_j1073741824178_1_alg».proof.Proof.RegAff3
import proofs.«171444_j1073741824178_1_alg».proof.Proof.RegAff6
import proofs.«171444_j1073741824178_1_alg».proof.Proof.RegSum2
import proofs.«171444_j1073741824178_1_alg».proof.Proof.RegSum5

set_option maxRecDepth 16384

noncomputable section

namespace Cert.KerVal

open Cert.KernelIdeal Cert.KernelIdeal.Facts₀ Cert.KernelIdeal.Facts Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- No operation of a stretch writes the buffer: read off the literal list of operations. -/
macro "no_write" : tactic => `(tactic| (
  refine List.forall_iff_forall_mem.mp ?_
  simp only [hostOps0, hostOps1, hostOps2, hostOps3, hostOps4, hostOps5, hostOps6, List.Forall, StableHlo.nullary_writes,
    StableHlo.unary_writes, StableHlo.binary_writes, StableHlo.ternary_writes, StableHlo.reshape_writes, Finset.mem_singleton]
  repeat' apply And.intro
  all_goals exact StableHlo.devRef_ne_of_ne (by decide)))

/-! ## Carrying a buffer over: a buffer that a stretch does not write, and that is no array of the region before
    the stretch, holds after the stretch what it held before that region -/

theorem keep0 (b : Ref sig .tc) (h : ∀ op ∈ (hostOps0 : List (HloOp τ sig (Elt Ideal))), Proc.devRef .tc b ∉ op.writes) :
    W1 m ρ c (Proc.devRef .tc b) = m ((c : Thread nD τ).loc b) := StableHlo.after_of_forall_not_mem _ _ h
theorem keep1 (b : Ref sig .tc) (hr : ∀ w, Pipeline.arrRef spec0 w ≠ b) (h : ∀ op ∈ (hostOps1 : List (HloOp τ sig (Elt Ideal))), Proc.devRef .tc b ∉ op.writes) :
    W3 m ρ c (Proc.devRef .tc b) = W1 m ρ c (Proc.devRef .tc b) := (StableHlo.after_of_forall_not_mem _ _ h).trans (W2_of_ne m ρ c b hr)
theorem keep2 (b : Ref sig .tc) (hr : ∀ w, Pipeline.arrRef spec1 w ≠ b) (h : ∀ op ∈ (hostOps2 : List (HloOp τ sig (Elt Ideal))), Proc.devRef .tc b ∉ op.writes) :
    W5 m ρ c (Proc.devRef .tc b) = W3 m ρ c (Proc.devRef .tc b) := (StableHlo.after_of_forall_not_mem _ _ h).trans (W4_of_ne m ρ c b hr)
theorem keep3 (b : Ref sig .tc) (hr : ∀ w, Pipeline.arrRef spec2 w ≠ b) (h : ∀ op ∈ (hostOps3 : List (HloOp τ sig (Elt Ideal))), Proc.devRef .tc b ∉ op.writes) :
    W7 m ρ c (Proc.devRef .tc b) = W5 m ρ c (Proc.devRef .tc b) := (StableHlo.after_of_forall_not_mem _ _ h).trans (W6_of_ne m ρ c b hr)
theorem keep4 (b : Ref sig .tc) (hr : ∀ w, Pipeline.arrRef spec3 w ≠ b) (h : ∀ op ∈ (hostOps4 : List (HloOp τ sig (Elt Ideal))), Proc.devRef .tc b ∉ op.writes) :
    W9 m ρ c (Proc.devRef .tc b) = W7 m ρ c (Proc.devRef .tc b) := (StableHlo.after_of_forall_not_mem _ _ h).trans (W8_of_ne m ρ c b hr)
theorem keep5 (b : Ref sig .tc) (hr : ∀ w, Pipeline.arrRef spec4 w ≠ b) (h : ∀ op ∈ (hostOps5 : List (HloOp τ sig (Elt Ideal))), Proc.devRef .tc b ∉ op.writes) :
    W11 m ρ c (Proc.devRef .tc b) = W9 m ρ c (Proc.devRef .tc b) := (StableHlo.after_of_forall_not_mem _ _ h).trans (W10_of_ne m ρ c b hr)
theorem keep6 (b : Ref sig .tc) (hr : ∀ w, Pipeline.arrRef spec5 w ≠ b) (h : ∀ op ∈ (hostOps6 : List (HloOp τ sig (Elt Ideal))), Proc.devRef .tc b ∉ op.writes) :
    W13 m ρ c (Proc.devRef .tc b) = W11 m ρ c (Proc.devRef .tc b) := (StableHlo.after_of_forall_not_mem _ _ h).trans (W12_of_ne m ρ c b hr)

/-! ## After the first stretch: the edge words, the weights, the bias row of the projection -/

set_option maxHeartbeats 1000000 in
theorem W1_v1 : W1 m ρ c (Proc.devRef .tc main_v1) = src (m ((c : Thread nD τ).loc main_arg1)) := by
  show StableHlo.after hostOps0 (W0 m ρ c) (Proc.devRef .tc main_v1) = _
  after_results_simp; rfl
set_option maxHeartbeats 1000000 in
theorem W1_v3 : W1 m ρ c (Proc.devRef .tc main_v3) = dst (m ((c : Thread nD τ).loc main_arg1)) := by
  show StableHlo.after hostOps0 (W0 m ρ c) (Proc.devRef .tc main_v3) = _
  after_results_simp; rfl
set_option maxHeartbeats 1000000 in
theorem W1_v25 : W1 m ρ c (Proc.devRef .tc main_v25) = norm (m ((c : Thread nD τ).loc main_arg1)) := by
  show StableHlo.after hostOps0 (W0 m ρ c) (Proc.devRef .tc main_v25) = _
  after_results_simp; rfl
set_option maxHeartbeats 1000000 in
theorem W1_v26 : W1 m ρ c (Proc.devRef .tc main_v26) = selfn (m ((c : Thread nD τ).loc main_arg1)) := by
  show StableHlo.after hostOps0 (W0 m ρ c) (Proc.devRef .tc main_v26) = _
  after_results_simp; rfl
set_option maxHeartbeats 1000000 in
theorem W1_v27 : W1 m ρ c (Proc.devRef .tc main_v27) = row256 (m ((c : Thread nD τ).loc main_arg3)) := by
  show StableHlo.after hostOps0 (W0 m ρ c) (Proc.devRef .tc main_v27) = _
  after_results_simp; rfl
theorem W1_arg0 : W1 m ρ c (Proc.devRef .tc main_arg0) = (m ((c : Thread nD τ).loc main_arg0)) := keep0 m ρ c main_arg0 (by no_write)
theorem W1_arg2 : W1 m ρ c (Proc.devRef .tc main_arg2) = (m ((c : Thread nD τ).loc main_arg2)) := keep0 m ρ c main_arg2 (by no_write)

/-! ## The projection -/

theorem W2_v28 : W2 m ρ c (Proc.devRef .tc main_v28) = (proj (m ((c : Thread nD τ).loc main_arg0)) (m ((c : Thread nD τ).loc main_arg2)) (m ((c : Thread nD τ).loc main_arg3))) := by
  refine (W2_arr m ρ c 3).trans ((Cert.KReg0.value (V1 m ρ) c).trans ?_)
  show Cert.Spec.addRow (Cert.Spec.mm (W1 m ρ c (Proc.devRef .tc main_arg0)) (W1 m ρ c (Proc.devRef .tc main_arg2))) (W1 m ρ c (Proc.devRef .tc main_v27)) = _
  rw [W1_arg0 m ρ c, W1_arg2 m ρ c, W1_v27 m ρ c]; rfl

theorem W3_v30 : W3 m ρ c (Proc.devRef .tc main_v30) = zrow := by
  show StableHlo.after hostOps1 (W2 m ρ c) (Proc.devRef .tc main_v30) = _
  after_results_simp; rfl
theorem W3_v28 : W3 m ρ c (Proc.devRef .tc main_v28) = (proj (m ((c : Thread nD τ).loc main_arg0)) (m ((c : Thread nD τ).loc main_arg2)) (m ((c : Thread nD τ).loc main_arg3))) :=
  (StableHlo.after_of_forall_not_mem _ _ (by no_write)).trans (W2_v28 m ρ c)
theorem W3_arg4 : W3 m ρ c (Proc.devRef .tc main_arg4) = (m ((c : Thread nD τ).loc main_arg4)) :=
  (keep1 m ρ c main_arg4 (by decide) (by no_write)).trans (keep0 m ρ c main_arg4 (by no_write))

/-! ## The first dense layer -/

theorem W4_v31 : W4 m ρ c (Proc.devRef .tc main_v31) = (lin1 (proj (m ((c : Thread nD τ).loc main_arg0)) (m ((c : Thread nD τ).loc main_arg2)) (m ((c : Thread nD τ).loc main_arg3))) (m ((c : Thread nD τ).loc main_arg4))) := by
  refine (W4_arr m ρ c 3).trans ((Cert.KReg1.value (V3 m ρ) c).trans ?_)
  show Cert.Spec.addRow (Cert.Spec.mm (W3 m ρ c (Proc.devRef .tc main_v28)) (W3 m ρ c (Proc.devRef .tc main_arg4))) (W3 m ρ c (Proc.devRef .tc main_v30)) = _
  rw [W3_v28 m ρ c, W3_arg4 m ρ c, W3_v30 m ρ c]; rfl

theorem W4_keep (b : Ref sig .tc) (hr1 : ∀ w, Pipeline.arrRef spec1 w ≠ b) (hr0 : ∀ w, Pipeline.arrRef spec0 w ≠ b)
    (h1 : ∀ op ∈ (hostOps1 : List (HloOp τ sig (Elt Ideal))), Proc.devRef .tc b ∉ op.writes) :
    W4 m ρ c (Proc.devRef .tc b) = W1 m ρ c (Proc.devRef .tc b) := (W4_of_ne m ρ c b hr1).trans (keep1 m ρ c b hr0 h1)
theorem W4_v1 : W4 m ρ c (Proc.devRef .tc main_v1) = src (m ((c : Thread nD τ).loc main_arg1)) := (W4_keep m ρ c main_v1 (by decide) (by decide) (by no_write)).trans (W1_v1 m ρ c)
theorem W4_v3 : W4 m ρ c (Proc.devRef .tc main_v3) = dst (m ((c : Thread nD τ).loc main_arg1)) := (W4_keep m ρ c main_v3 (by decide) (by decide) (by no_write)).trans (W1_v3 m ρ c)
theorem W4_v25 : W4 m ρ c (Proc.devRef .tc main_v25) = norm (m ((c : Thread nD τ).loc main_arg1)) := (W4_keep m ρ c main_v25 (by decide) (by decide) (by no_write)).trans (W1_v25 m ρ c)
theorem W4_v26 : W4 m ρ c (Proc.devRef .tc main_v26) = selfn (m ((c : Thread nD τ).loc main_arg1)) := (W4_keep m ρ c main_v26 (by decide) (by decide) (by no_write)).trans (W1_v26 m ρ c)
theorem W4_arg5 : W4 m ρ c (Proc.devRef .tc main_arg5) = (m ((c : Thread nD τ).loc main_arg5)) :=
  (W4_keep m ρ c main_arg5 (by decide) (by decide) (by no_write)).trans (keep0 m ρ c main_arg5 (by no_write))

/-! ## The first convolution -/

set_option maxHeartbeats 1000000 in
theorem W5_v51 : W5 m ρ c (Proc.devRef .tc main_v51) = (conv (lin1 (proj (m ((c : Thread nD τ).loc main_arg0)) (m ((c : Thread nD τ).loc main_arg2)) (m ((c : Thread nD τ).loc main_arg3))) (m ((c : Thread nD τ).loc main_arg4))) (m ((c : Thread nD τ).loc main_arg1)) (m ((c : Thread nD τ).loc main_arg5))) := by
  show StableHlo.after hostOps2 (W4 m ρ c) (Proc.devRef .tc main_v51) = _
  after_results_simp
  rw [W4_v1 m ρ c, W4_v3 m ρ c, W4_v25 m ρ c, W4_v26 m ρ c, W4_v31 m ρ c, W4_arg5 m ρ c]; rfl

/-! ## The first normalisation: the column sums, the scale and the shift, the application -/

theorem W6_v52_0 : W6 m ρ c (Proc.devRef .tc main_v52_0) = Cert.Spec.colSum (conv (lin1 (proj (m ((c : Thread nD τ).loc main_arg0)) (m ((c : Thread nD τ).loc main_arg2)) (m ((c : Thread nD τ).loc main_arg3))) (m ((c : Thread nD τ).loc main_arg4))) (m ((c : Thread nD τ).loc main_arg1)) (m ((c : Thread nD τ).loc main_arg5))) := by
  refine (W6_arr m ρ c 1).trans ((Cert.KReg2.sum (V5 m ρ) c).trans ?_)
  show Cert.Spec.colSum (W5 m ρ c (Proc.devRef .tc main_v51)) = _
  rw [W5_v51 m ρ c]
theorem W6_v52_1 : W6 m ρ c (Proc.devRef .tc main_v52_1) = Cert.Spec.colSumSq (conv (lin1 (proj (m ((c : Thread nD τ).loc main_arg0)) (m ((c : Thread nD τ).loc main_arg2)) (m ((c : Thread nD τ).loc main_arg3))) (m ((c : Thread nD τ).loc main_arg4))) (m ((c : Thread nD τ).loc main_arg1)) (m ((c : Thread nD τ).loc main_arg5))) := by
  refine (W6_arr m ρ c 2).trans ((Cert.KReg2.sumsq (V5 m ρ) c).trans ?_)
  show Cert.Spec.colSumSq (W5 m ρ c (Proc.devRef .tc main_v51)) = _
  rw [W5_v51 m ρ c]
theorem W6_v51 : W6 m ρ c (Proc.devRef .tc main_v51) = (conv (lin1 (proj (m ((c : Thread nD τ).loc main_arg0)) (m ((c : Thread nD τ).loc main_arg2)) (m ((c : Thread nD τ).loc main_arg3))) (m ((c : Thread nD τ).loc main_arg4))) (m ((c : Thread nD τ).loc main_arg1)) (m ((c : Thread nD τ).loc main_arg5))) :=
  ((W6_arr m ρ c 0).trans (((dat2 (V5 m ρ) c).arrAt_in 0 rfl _).trans (A_eq2 (V5 m ρ) c 0))).trans (W5_v51 m ρ c)
theorem W6_keep (b : Ref sig .tc) (hr2 : ∀ w, Pipeline.arrRef spec2 w ≠ b) (hr1 : ∀ w, Pipeline.arrRef spec1 w ≠ b)
    (hr0 : ∀ w, Pipeline.arrRef spec0 w ≠ b) (h2 : ∀ op ∈ (hostOps2 : List (HloOp τ sig (Elt Ideal))), Proc.devRef .tc b ∉ op.writes)
    (h1 : ∀ op ∈ (hostOps1 : List (HloOp τ sig (Elt Ideal))), Proc.devRef .tc b ∉ op.writes) :
    W6 m ρ c (Proc.devRef .tc b) = W1 m ρ c (Proc.devRef .tc b) :=
  (W6_of_ne m ρ c b hr2).trans ((keep2 m ρ c b hr1 h2).trans (keep1 m ρ c b hr0 h1))
theorem W6_arg6 : W6 m ρ c (Proc.devRef .tc main_arg6) = (m ((c : Thread nD τ).loc main_arg6)) :=
  (W6_keep m ρ c main_arg6 (by decide) (by decide) (by decide) (by no_write) (by no_write)).trans (keep0 m ρ c main_arg6 (by no_write))
theorem W6_arg7 : W6 m ρ c (Proc.devRef .tc main_arg7) = (m ((c : Thread nD τ).loc main_arg7)) :=
  (W6_keep m ρ c main_arg7 (by decide) (by decide) (by decide) (by no_write) (by no_write)).trans (keep0 m ρ c main_arg7 (by no_write))

set_option maxHeartbeats 1000000 in
theorem W7_v63 : W7 m ρ c (Proc.devRef .tc main_v63) = scale (Cert.Spec.colSum (conv (lin1 (proj (m ((c : Thread nD τ).loc main_arg0)) (m ((c : Thread nD τ).loc main_arg2)) (m ((c : Thread nD τ).loc main_arg3))) (m ((c : Thread nD τ).loc main_arg4))) (m ((c : Thread nD τ).loc main_arg1)) (m ((c : Thread nD τ).loc main_arg5)))) (Cert.Spec.colSumSq (conv (lin1 (proj (m ((c : Thread nD τ).loc main_arg0)) (m ((c : Thread nD τ).loc main_arg2)) (m ((c : Thread nD τ).loc main_arg3))) (m ((c : Thread nD τ).loc main_arg4))) (m ((c : Thread nD τ).loc main_arg1)) (m ((c : Thread nD τ).loc main_arg5)))) (m ((c : Thread nD τ).loc main_arg6)) := by
  show StableHlo.after hostOps3 (W6 m ρ c) (Proc.devRef .tc main_v63) = _
  after_results_simp
  rw [W6_v52_0 m ρ c, W6_v52_1 m ρ c, W6_arg6 m ρ c]; rfl
set_option maxHeartbeats 1000000 in
theorem W7_v66 : W7 m ρ c (Proc.devRef .tc main_v66) = shift (Cert.Spec.colSum (conv (lin1 (proj (m ((c : Thread nD τ).loc main_arg0)) (m ((c : Thread nD τ).loc main_arg2)) (m ((c : Thread nD τ).loc main_arg3))) (m ((c : Thread nD τ).loc main_arg4))) (m ((c : Thread nD τ).loc main_arg1)) (m ((c : Thread nD τ).loc main_arg5)))) (Cert.Spec.colSumSq (conv (lin1 (proj (m ((c : Thread nD τ).loc main_arg0)) (m ((c : Thread nD τ).loc main_arg2)) (m ((c : Thread nD τ).loc main_arg3))) (m ((c : Thread nD τ).loc main_arg4))) (m ((c : Thread nD τ).loc main_arg1)) (m ((c : Thread nD τ).loc main_arg5)))) (m ((c : Thread nD τ).loc main_arg6)) (m ((c : Thread nD τ).loc main_arg7)) := by
  show StableHlo.after hostOps3 (W6 m ρ c) (Proc.devRef .tc main_v66) = _
  after_results_simp
  rw [W6_v52_0 m ρ c, W6_v52_1 m ρ c, W6_arg6 m ρ c, W6_arg7 m ρ c]; rfl
theorem W7_v51 : W7 m ρ c (Proc.devRef .tc main_v51) = (conv (lin1 (proj (m ((c : Thread nD τ).loc main_arg0)) (m ((c : Thread nD τ).loc main_arg2)) (m ((c : Thread nD τ).loc main_arg3))) (m ((c : Thread nD τ).loc main_arg4))) (m ((c : Thread nD τ).loc main_arg1)) (m ((c : Thread nD τ).loc main_arg5))) :=
  (StableHlo.after_of_forall_not_mem _ _ (by no_write)).trans (W6_v51 m ρ c)

theorem W8_v67 : W8 m ρ c (Proc.devRef .tc main_v67) = (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W8_arr m ρ c 3).trans ((Cert.KReg3.value (V7 m ρ) c).trans ?_)
  show Cert.Spec.relu (Cert.Spec.affine (W7 m ρ c (Proc.devRef .tc main_v51)) (W7 m ρ c (Proc.devRef .tc main_v63)) (W7 m ρ c (Proc.devRef .tc main_v66))) = _
  rw [W7_v51 m ρ c, W7_v63 m ρ c, W7_v66 m ρ c]; rfl

/-! ## The second dense layer -/

theorem W9_v69 : W9 m ρ c (Proc.devRef .tc main_v69) = zrow := by
  show StableHlo.after hostOps4 (W8 m ρ c) (Proc.devRef .tc main_v69) = _
  after_results_simp; rfl
theorem W9_v67 : W9 m ρ c (Proc.devRef .tc main_v67) = (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (StableHlo.after_of_forall_not_mem _ _ (by no_write)).trans (W8_v67 m ρ c)
theorem W9_keep (b : Ref sig .tc) (hr3 : ∀ w, Pipeline.arrRef spec3 w ≠ b) (hr2 : ∀ w, Pipeline.arrRef spec2 w ≠ b)
    (hr1 : ∀ w, Pipeline.arrRef spec1 w ≠ b) (hr0 : ∀ w, Pipeline.arrRef spec0 w ≠ b)
    (h4 : ∀ op ∈ (hostOps4 : List (HloOp τ sig (Elt Ideal))), Proc.devRef .tc b ∉ op.writes) (h3 : ∀ op ∈ (hostOps3 : List (HloOp τ sig (Elt Ideal))), Proc.devRef .tc b ∉ op.writes)
    (h2 : ∀ op ∈ (hostOps2 : List (HloOp τ sig (Elt Ideal))), Proc.devRef .tc b ∉ op.writes) (h1 : ∀ op ∈ (hostOps1 : List (HloOp τ sig (Elt Ideal))), Proc.devRef .tc b ∉ op.writes) :
    W9 m ρ c (Proc.devRef .tc b) = W1 m ρ c (Proc.devRef .tc b) :=
  (keep4 m ρ c b hr3 h4).trans ((keep3 m ρ c b hr2 h3).trans ((keep2 m ρ c b hr1 h2).trans (keep1 m ρ c b hr0 h1)))
theorem W9_arg8 : W9 m ρ c (Proc.devRef .tc main_arg8) = (m ((c : Thread nD τ).loc main_arg8)) :=
  (W9_keep m ρ c main_arg8 (by decide) (by decide) (by decide) (by decide) (by no_write) (by no_write) (by no_write) (by no_write)).trans (keep0 m ρ c main_arg8 (by no_write))

theorem W10_v70 : W10 m ρ c (Proc.devRef .tc main_v70) = (lin2 (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) := by
  refine (W10_arr m ρ c 3).trans ((Cert.KReg4.value (V9 m ρ) c).trans ?_)
  show Cert.Spec.addRow (Cert.Spec.mm (W9 m ρ c (Proc.devRef .tc main_v67)) (W9 m ρ c (Proc.devRef .tc main_arg8))) (W9 m ρ c (Proc.devRef .tc main_v69)) = _
  rw [W9_v67 m ρ c, W9_arg8 m ρ c, W9_v69 m ρ c]; rfl

theorem W10_keep (b : Ref sig .tc) (hr4 : ∀ w, Pipeline.arrRef spec4 w ≠ b) (hr3 : ∀ w, Pipeline.arrRef spec3 w ≠ b)
    (hr2 : ∀ w, Pipeline.arrRef spec2 w ≠ b) (hr1 : ∀ w, Pipeline.arrRef spec1 w ≠ b) (hr0 : ∀ w, Pipeline.arrRef spec0 w ≠ b)
    (h4 : ∀ op ∈ (hostOps4 : List (HloOp τ sig (Elt Ideal))), Proc.devRef .tc b ∉ op.writes) (h3 : ∀ op ∈ (hostOps3 : List (HloOp τ sig (Elt Ideal))), Proc.devRef .tc b ∉ op.writes)
    (h2 : ∀ op ∈ (hostOps2 : List (HloOp τ sig (Elt Ideal))), Proc.devRef .tc b ∉ op.writes) (h1 : ∀ op ∈ (hostOps1 : List (HloOp τ sig (Elt Ideal))), Proc.devRef .tc b ∉ op.writes) :
    W10 m ρ c (Proc.devRef .tc b) = W1 m ρ c (Proc.devRef .tc b) :=
  (W10_of_ne m ρ c b hr4).trans (W9_keep m ρ c b hr3 hr2 hr1 hr0 h4 h3 h2 h1)
theorem W10_v1 : W10 m ρ c (Proc.devRef .tc main_v1) = src (m ((c : Thread nD τ).loc main_arg1)) :=
  (W10_keep m ρ c main_v1 (by decide) (by decide) (by decide) (by decide) (by decide) (by no_write) (by no_write) (by no_write) (by no_write)).trans (W1_v1 m ρ c)
theorem W10_v3 : W10 m ρ c (Proc.devRef .tc main_v3) = dst (m ((c : Thread nD τ).loc main_arg1)) :=
  (W10_keep m ρ c main_v3 (by decide) (by decide) (by decide) (by decide) (by decide) (by no_write) (by no_write) (by no_write) (by no_write)).trans (W1_v3 m ρ c)
theorem W10_v25 : W10 m ρ c (Proc.devRef .tc main_v25) = norm (m ((c : Thread nD τ).loc main_arg1)) :=
  (W10_keep m ρ c main_v25 (by decide) (by decide) (by decide) (by decide) (by decide) (by no_write) (by no_write) (by no_write) (by no_write)).trans (W1_v25 m ρ c)
theorem W10_v26 : W10 m ρ c (Proc.devRef .tc main_v26) = selfn (m ((c : Thread nD τ).loc main_arg1)) :=
  (W10_keep m ρ c main_v26 (by decide) (by decide) (by decide) (by decide) (by decide) (by no_write) (by no_write) (by no_write) (by no_write)).trans (W1_v26 m ρ c)
theorem W10_arg9 : W10 m ρ c (Proc.devRef .tc main_arg9) = (m ((c : Thread nD τ).loc main_arg9)) :=
  (W10_keep m ρ c main_arg9 (by decide) (by decide) (by decide) (by decide) (by decide) (by no_write) (by no_write) (by no_write) (by no_write)).trans (keep0 m ρ c main_arg9 (by no_write))

/-! ## The second convolution -/

set_option maxHeartbeats 1000000 in
theorem W11_v90 : W11 m ρ c (Proc.devRef .tc main_v90) = (conv (lin2 (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9))) := by
  show StableHlo.after hostOps5 (W10 m ρ c) (Proc.devRef .tc main_v90) = _
  after_results_simp
  rw [W10_v1 m ρ c, W10_v3 m ρ c, W10_v25 m ρ c, W10_v26 m ρ c, W10_v70 m ρ c, W10_arg9 m ρ c]; rfl

/-! ## The second normalisation -/

theorem W12_v91_0 : W12 m ρ c (Proc.devRef .tc main_v91_0) = Cert.Spec.colSum (conv (lin2 (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9))) := by
  refine (W12_arr m ρ c 1).trans ((Cert.KReg5.sum (V11 m ρ) c).trans ?_)
  show Cert.Spec.colSum (W11 m ρ c (Proc.devRef .tc main_v90)) = _
  rw [W11_v90 m ρ c]
theorem W12_v91_1 : W12 m ρ c (Proc.devRef .tc main_v91_1) = Cert.Spec.colSumSq (conv (lin2 (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9))) := by
  refine (W12_arr m ρ c 2).trans ((Cert.KReg5.sumsq (V11 m ρ) c).trans ?_)
  show Cert.Spec.colSumSq (W11 m ρ c (Proc.devRef .tc main_v90)) = _
  rw [W11_v90 m ρ c]
theorem W12_v90 : W12 m ρ c (Proc.devRef .tc main_v90) = (conv (lin2 (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9))) :=
  ((W12_arr m ρ c 0).trans (((dat5 (V11 m ρ) c).arrAt_in 0 rfl _).trans (A_eq5 (V11 m ρ) c 0))).trans (W11_v90 m ρ c)
theorem W12_keep (b : Ref sig .tc) (hr5 : ∀ w, Pipeline.arrRef spec5 w ≠ b) (hr4 : ∀ w, Pipeline.arrRef spec4 w ≠ b)
    (hr3 : ∀ w, Pipeline.arrRef spec3 w ≠ b) (hr2 : ∀ w, Pipeline.arrRef spec2 w ≠ b) (hr1 : ∀ w, Pipeline.arrRef spec1 w ≠ b)
    (hr0 : ∀ w, Pipeline.arrRef spec0 w ≠ b)
    (h5 : ∀ op ∈ (hostOps5 : List (HloOp τ sig (Elt Ideal))), Proc.devRef .tc b ∉ op.writes) (h4 : ∀ op ∈ (hostOps4 : List (HloOp τ sig (Elt Ideal))), Proc.devRef .tc b ∉ op.writes)
    (h3 : ∀ op ∈ (hostOps3 : List (HloOp τ sig (Elt Ideal))), Proc.devRef .tc b ∉ op.writes) (h2 : ∀ op ∈ (hostOps2 : List (HloOp τ sig (Elt Ideal))), Proc.devRef .tc b ∉ op.writes)
    (h1 : ∀ op ∈ (hostOps1 : List (HloOp τ sig (Elt Ideal))), Proc.devRef .tc b ∉ op.writes) :
    W12 m ρ c (Proc.devRef .tc b) = W1 m ρ c (Proc.devRef .tc b) :=
  (W12_of_ne m ρ c b hr5).trans ((keep5 m ρ c b hr4 h5).trans (W9_keep m ρ c b hr3 hr2 hr1 hr0 h4 h3 h2 h1))
theorem W12_arg10 : W12 m ρ c (Proc.devRef .tc main_arg10) = (m ((c : Thread nD τ).loc main_arg10)) :=
  (W12_keep m ρ c main_arg10 (by decide) (by decide) (by decide) (by decide) (by decide) (by decide) (by no_write) (by no_write) (by no_write) (by no_write) (by no_write)).trans (keep0 m ρ c main_arg10 (by no_write))
theorem W12_arg11 : W12 m ρ c (Proc.devRef .tc main_arg11) = (m ((c : Thread nD τ).loc main_arg11)) :=
  (W12_keep m ρ c main_arg11 (by decide) (by decide) (by decide) (by decide) (by decide) (by decide) (by no_write) (by no_write) (by no_write) (by no_write) (by no_write)).trans (keep0 m ρ c main_arg11 (by no_write))

set_option maxHeartbeats 1000000 in
theorem W13_v102 : W13 m ρ c (Proc.devRef .tc main_v102) = scale (Cert.Spec.colSum (conv (lin2 (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9)))) (Cert.Spec.colSumSq (conv (lin2 (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9)))) (m ((c : Thread nD τ).loc main_arg10)) := by
  show StableHlo.after hostOps6 (W12 m ρ c) (Proc.devRef .tc main_v102) = _
  after_results_simp
  rw [W12_v91_0 m ρ c, W12_v91_1 m ρ c, W12_arg10 m ρ c]; rfl
set_option maxHeartbeats 1000000 in
theorem W13_v105 : W13 m ρ c (Proc.devRef .tc main_v105) = shift (Cert.Spec.colSum (conv (lin2 (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9)))) (Cert.Spec.colSumSq (conv (lin2 (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9)))) (m ((c : Thread nD τ).loc main_arg10)) (m ((c : Thread nD τ).loc main_arg11)) := by
  show StableHlo.after hostOps6 (W12 m ρ c) (Proc.devRef .tc main_v105) = _
  after_results_simp
  rw [W12_v91_0 m ρ c, W12_v91_1 m ρ c, W12_arg10 m ρ c, W12_arg11 m ρ c]; rfl
theorem W13_v90 : W13 m ρ c (Proc.devRef .tc main_v90) = (conv (lin2 (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9))) :=
  (StableHlo.after_of_forall_not_mem _ _ (by no_write)).trans (W12_v90 m ρ c)

/-- The result buffer ends at the program's value of the twelve argument arrays. -/
theorem W14_v106 : W14 m ρ c (Proc.devRef .tc main_v106) = (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (W14_arr m ρ c 3).trans ((Cert.KReg6.value (V13 m ρ) c).trans ?_)
  show Cert.Spec.affine (W13 m ρ c (Proc.devRef .tc main_v90)) (W13 m ρ c (Proc.devRef .tc main_v102)) (W13 m ρ c (Proc.devRef .tc main_v105)) = _
  rw [W13_v90 m ρ c, W13_v102 m ρ c, W13_v105 m ρ c]; rfl

end Cert.KerVal

end
-- ==== Proof.RefOps.lean ====
/-
  The reference program as a straight line of operations.

  @main's statements in order, each call's body written out at the call over that call's buffers: 207 operations.
  The line is also given as its ten consecutive stretches — the projection, the first dense layer, the first
  neighbour sum, the first variance (with the column mean before it), the first normalisation, the rectifier, the
  second dense layer, and the second neighbour sum, variance and normalisation — so that what a buffer holds after
  the line can be read stretch by stretch.  The run: every weakly fair execution ends with every buffer at the
  line's fold over the launch contents.
-/
import proofs.«171444_j1073741824178_1_alg».proof.Proof.Gen.ReferenceIdeal
import Idealize.ShloMosaic.Lib.StableHlo.Run

noncomputable section

namespace Cert.RefVal

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F]

/-- The whole line. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg3 main_v5 (broadcastInDim S1x256 ![1] bcast_S256_S1x256_1 : (⟨S256, .f32⟩ : BufTy).Contents (Elt F) → (⟨S1x256, .f32⟩ : BufTy).Contents (Elt F)),
    unary main_v5 main_v6 (broadcastInDim S100000x256 ![0, 1] bcast_S1x256_S100000x256_0_1 : (⟨S1x256, .f32⟩ : BufTy).Contents (Elt F) → (⟨S100000x256, .f32⟩ : BufTy).Contents (Elt F)),
    binary main_v4 main_v6 main_v7 (addf : (⟨S100000x256, .f32⟩ : BufTy).Contents (Elt F) → (⟨S100000x256, .f32⟩ : BufTy).Contents (Elt F) → (⟨S100000x256, .f32⟩ : BufTy).Contents (Elt F)),
    binary main_v7 main_arg4 main_v8 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_cst (constant S_ .f32 0x3F800000#32),
    unary main_cst main_v9 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v3 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (addf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_c (constantI S_ 32 0#32),
    unary main_c main_v16 (broadcastInDim S1600000 ![] bcast_S_S1600000 : (⟨S_, .i32⟩ : BufTy).Contents (Elt F) → (⟨S1600000, .i32⟩ : BufTy).Contents (Elt F)),
    binary main_v1 main_v16 main_v17 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v18 (broadcastInDim S1600000 ![] bcast_S_S1600000 : (⟨S_, .i32⟩ : BufTy).Contents (Elt F) → (⟨S1600000, .i32⟩ : BufTy).Contents (Elt F)),
    binary main_v1 main_v18 main_v19 (addi : (⟨S1600000, .i32⟩ : BufTy).Contents (Elt F) → (⟨S1600000, .i32⟩ : BufTy).Contents (Elt F) → (⟨S1600000, .i32⟩ : BufTy).Contents (Elt F)),
    ternary main_v17 main_v19 main_v1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v20 main_v21 (broadcastInDim S1600000x1 ![0] bcast_S1600000_S1600000x1_0 : (⟨S1600000, .i32⟩ : BufTy).Contents (Elt F) → (⟨S1600000x1, .i32⟩ : BufTy).Contents (Elt F)),
    binary main_v15 main_v21 main_v22 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v23 (broadcastInDim S1600000 ![] bcast_S_S1600000 : (⟨S_, .i32⟩ : BufTy).Contents (Elt F) → (⟨S1600000, .i32⟩ : BufTy).Contents (Elt F)),
    binary main_v3 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v25 (broadcastInDim S1600000 ![] bcast_S_S1600000 : (⟨S_, .i32⟩ : BufTy).Contents (Elt F) → (⟨S1600000, .i32⟩ : BufTy).Contents (Elt F)),
    binary main_v3 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_v3 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v15 main_v28 main_v29 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v22 main_v29 main_v30 (mulf : (⟨S1600000, .f32⟩ : BufTy).Contents (Elt F) → (⟨S1600000, .f32⟩ : BufTy).Contents (Elt F) → (⟨S1600000, .f32⟩ : BufTy).Contents (Elt F)),
    nullary main_c_5 (constantI S_ 32 0#32),
    unary main_c_5 main_v31 (broadcastInDim S1600000 ![] bcast_S_S1600000 : (⟨S_, .i32⟩ : BufTy).Contents (Elt F) → (⟨S1600000, .i32⟩ : BufTy).Contents (Elt F)),
    binary main_v1 main_v31 main_v32 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v33 (broadcastInDim S1600000 ![] bcast_S_S1600000 : (⟨S_, .i32⟩ : BufTy).Contents (Elt F) → (⟨S1600000, .i32⟩ : BufTy).Contents (Elt F)),
    binary main_v1 main_v33 main_v34 (addi : (⟨S1600000, .i32⟩ : BufTy).Contents (Elt F) → (⟨S1600000, .i32⟩ : BufTy).Contents (Elt F) → (⟨S1600000, .i32⟩ : BufTy).Contents (Elt F)),
    ternary main_v32 main_v34 main_v1 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v35 main_v36 (broadcastInDim S1600000x1 ![0] bcast_S1600000_S1600000x1_0 : (⟨S1600000, .i32⟩ : BufTy).Contents (Elt F) → (⟨S1600000x1, .i32⟩ : BufTy).Contents (Elt F)),
    binary main_v8 main_v36 main_v37 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v30 main_v38 (broadcastInDim S1600000x1 ![0] bcast_S1600000_S1600000x1_0 : (⟨S1600000, .f32⟩ : BufTy).Contents (Elt F) → (⟨S1600000x1, .f32⟩ : BufTy).Contents (Elt F)),
    unary main_v38 main_v39 (broadcastInDim S1600000x128 ![0, 1] bcast_S1600000x1_S1600000x128_0_1 : (⟨S1600000x1, .f32⟩ : BufTy).Contents (Elt F) → (⟨S1600000x128, .f32⟩ : BufTy).Contents (Elt F)),
    binary main_v37 main_v39 main_v40 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v41 (broadcastInDim S100000x128 ![] bcast_S_S100000x128 : (⟨S_, .f32⟩ : BufTy).Contents (Elt F) → (⟨S100000x128, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v15 main_v15 main_v44 (mulf : (⟨S100000, .f32⟩ : BufTy).Contents (Elt F) → (⟨S100000, .f32⟩ : BufTy).Contents (Elt F) → (⟨S100000, .f32⟩ : BufTy).Contents (Elt F)),
    unary main_v44 main_v45 (broadcastInDim S100000x1 ![0] bcast_S100000_S100000x1_0 : (⟨S100000, .f32⟩ : BufTy).Contents (Elt F) → (⟨S100000x1, .f32⟩ : BufTy).Contents (Elt F)),
    unary main_v45 main_v46 (broadcastInDim S100000x128 ![0, 1] bcast_S100000x1_S100000x128_0_1 : (⟨S100000x1, .f32⟩ : BufTy).Contents (Elt F) → (⟨S100000x128, .f32⟩ : BufTy).Contents (Elt F)),
    binary main_v8 main_v46 main_v47 (mulf : (⟨S100000x128, .f32⟩ : BufTy).Contents (Elt F) → (⟨S100000x128, .f32⟩ : BufTy).Contents (Elt F) → (⟨S100000x128, .f32⟩ : BufTy).Contents (Elt F)),
    binary main_v43 main_v47 main_v48 (addf : (⟨S100000x128, .f32⟩ : BufTy).Contents (Elt F) → (⟨S100000x128, .f32⟩ : BufTy).Contents (Elt F) → (⟨S100000x128, .f32⟩ : BufTy).Contents (Elt F)),
    unary main_arg5 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v51 main_cst_8 main_v52 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v53 (broadcastInDim S128 ![] bcast_S_S128 : (⟨S_, .f32⟩ : BufTy).Contents (Elt F) → (⟨S128, .f32⟩ : BufTy).Contents (Elt F)),
    binary main_v52 main_v53 main_v54 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call0.cst (constant S_ .f32 0x00000000#32),
    TRef.binary (.of main_v51 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 (Host.divf),
    TRef.unary main_call0.v3 main_call0.v4 (broadcastInDim S100000x128 ![0, 1] bcast_S1x128_S100000x128_0_1),
    TRef.binary (.of main_v51 : TRef sig ⟨S100000x128, .f32⟩) main_call0.v4 main_call0.v5 (subf),
    TRef.binary main_call0.v5 main_call0.v5 main_call0.v6 (mulf),
    TRef.unary (.of main_c_10 : TRef sig ⟨S_, .i32⟩) main_call0.v7 (sitofp .f32),
    TRef.nullary main_call0.cst_1 (constant S_ .f32 0x47C35000#32),
    TRef.binary main_call0.cst_1 main_call0.v7 main_call0.v8 (subf),
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 (Host.divf),
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 (id),
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v54 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v51 main_v57 main_v58 (subf : (⟨S100000x128, .f32⟩ : BufTy).Contents (Elt F) → (⟨S100000x128, .f32⟩ : BufTy).Contents (Elt F) → (⟨S100000x128, .f32⟩ : BufTy).Contents (Elt F)),
    unary main_arg6 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v60 main_v58 main_v61 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v62 (broadcastInDim S128 ![] bcast_S_S128 : (⟨S_, .f32⟩ : BufTy).Contents (Elt F) → (⟨S128, .f32⟩ : BufTy).Contents (Elt F)),
    binary main_v55 main_v62 main_v63 (addf : (⟨S128, .f32⟩ : BufTy).Contents (Elt F) → (⟨S128, .f32⟩ : BufTy).Contents (Elt F) → (⟨S128, .f32⟩ : BufTy).Contents (Elt F)),
    unary main_v63 main_v64 (Host.rsqrt : (⟨S128, .f32⟩ : BufTy).Contents (Elt F) → (⟨S128, .f32⟩ : BufTy).Contents (Elt F)),
    unary main_v64 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v61 main_v66 main_v67 (mulf : (⟨S100000x128, .f32⟩ : BufTy).Contents (Elt F) → (⟨S100000x128, .f32⟩ : BufTy).Contents (Elt F) → (⟨S100000x128, .f32⟩ : BufTy).Contents (Elt F)),
    unary main_arg7 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v67 main_v69 main_v70 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v70 : TRef sig ⟨S100000x128, .f32⟩) main_call1.v0 main_call1.v1 (maximumf),
    binary main_v71 main_arg8 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_12 (constant S_ .f32 0x3F800000#32),
    unary main_cst_12 main_v73 (broadcastInDim S1600000 ![] bcast_S_S1600000 : (⟨S_, .f32⟩ : BufTy).Contents (Elt F) → (⟨S1600000, .f32⟩ : BufTy).Contents (Elt F)),
    nullary main_cst_13 (constant S_ .f32 0x00000000#32),
    unary main_cst_13 main_v74 (broadcastInDim S100000 ![] bcast_S_S100000 : (⟨S_, .f32⟩ : BufTy).Contents (Elt F) → (⟨S100000, .f32⟩ : BufTy).Contents (Elt F)),
    unary main_v3 main_v75 (broadcastInDim S1600000x1 ![0] bcast_S1600000_S1600000x1_0 : (⟨S1600000, .i32⟩ : BufTy).Contents (Elt F) → (⟨S1600000x1, .i32⟩ : BufTy).Contents (Elt F)),
    ternary main_v74 main_v75 main_v73 main_v76 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_14 (constant S_ .f32 0x3F800000#32),
    unary main_cst_14 main_v77 (broadcastInDim S100000 ![] bcast_S_S100000 : (⟨S_, .f32⟩ : BufTy).Contents (Elt F) → (⟨S100000, .f32⟩ : BufTy).Contents (Elt F)),
    binary main_v76 main_v77 main_v78 (addf : (⟨S100000, .f32⟩ : BufTy).Contents (Elt F) → (⟨S100000, .f32⟩ : BufTy).Contents (Elt F) → (⟨S100000, .f32⟩ : BufTy).Contents (Elt F)),
    unary main_v78 main_v79 (Host.rsqrt : (⟨S100000, .f32⟩ : BufTy).Contents (Elt F) → (⟨S100000, .f32⟩ : BufTy).Contents (Elt F)),
    nullary main_c_15 (constantI S_ 32 0#32),
    unary main_c_15 main_v80 (broadcastInDim S1600000 ![] bcast_S_S1600000 : (⟨S_, .i32⟩ : BufTy).Contents (Elt F) → (⟨S1600000, .i32⟩ : BufTy).Contents (Elt F)),
    binary main_v1 main_v80 main_v81 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v82 (broadcastInDim S1600000 ![] bcast_S_S1600000 : (⟨S_, .i32⟩ : BufTy).Contents (Elt F) → (⟨S1600000, .i32⟩ : BufTy).Contents (Elt F)),
    binary main_v1 main_v82 main_v83 (addi : (⟨S1600000, .i32⟩ : BufTy).Contents (Elt F) → (⟨S1600000, .i32⟩ : BufTy).Contents (Elt F) → (⟨S1600000, .i32⟩ : BufTy).Contents (Elt F)),
    ternary main_v81 main_v83 main_v1 main_v84 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v84 main_v85 (broadcastInDim S1600000x1 ![0] bcast_S1600000_S1600000x1_0 : (⟨S1600000, .i32⟩ : BufTy).Contents (Elt F) → (⟨S1600000x1, .i32⟩ : BufTy).Contents (Elt F)),
    binary main_v79 main_v85 main_v86 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_17 (constantI S_ 32 0#32),
    unary main_c_17 main_v87 (broadcastInDim S1600000 ![] bcast_S_S1600000 : (⟨S_, .i32⟩ : BufTy).Contents (Elt F) → (⟨S1600000, .i32⟩ : BufTy).Contents (Elt F)),
    binary main_v3 main_v87 main_v88 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v89 (broadcastInDim S1600000 ![] bcast_S_S1600000 : (⟨S_, .i32⟩ : BufTy).Contents (Elt F) → (⟨S1600000, .i32⟩ : BufTy).Contents (Elt F)),
    binary main_v3 main_v89 main_v90 (addi : (⟨S1600000, .i32⟩ : BufTy).Contents (Elt F) → (⟨S1600000, .i32⟩ : BufTy).Contents (Elt F) → (⟨S1600000, .i32⟩ : BufTy).Contents (Elt F)),
    ternary main_v88 main_v90 main_v3 main_v91 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v91 main_v92 (broadcastInDim S1600000x1 ![0] bcast_S1600000_S1600000x1_0 : (⟨S1600000, .i32⟩ : BufTy).Contents (Elt F) → (⟨S1600000x1, .i32⟩ : BufTy).Contents (Elt F)),
    binary main_v79 main_v92 main_v93 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v86 main_v93 main_v94 (mulf : (⟨S1600000, .f32⟩ : BufTy).Contents (Elt F) → (⟨S1600000, .f32⟩ : BufTy).Contents (Elt F) → (⟨S1600000, .f32⟩ : BufTy).Contents (Elt F)),
    nullary main_c_19 (constantI S_ 32 0#32),
    unary main_c_19 main_v95 (broadcastInDim S1600000 ![] bcast_S_S1600000 : (⟨S_, .i32⟩ : BufTy).Contents (Elt F) → (⟨S1600000, .i32⟩ : BufTy).Contents (Elt F)),
    binary main_v1 main_v95 main_v96 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v97 (broadcastInDim S1600000 ![] bcast_S_S1600000 : (⟨S_, .i32⟩ : BufTy).Contents (Elt F) → (⟨S1600000, .i32⟩ : BufTy).Contents (Elt F)),
    binary main_v1 main_v97 main_v98 (addi : (⟨S1600000, .i32⟩ : BufTy).Contents (Elt F) → (⟨S1600000, .i32⟩ : BufTy).Contents (Elt F) → (⟨S1600000, .i32⟩ : BufTy).Contents (Elt F)),
    ternary main_v96 main_v98 main_v1 main_v99 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v99 main_v100 (broadcastInDim S1600000x1 ![0] bcast_S1600000_S1600000x1_0 : (⟨S1600000, .i32⟩ : BufTy).Contents (Elt F) → (⟨S1600000x1, .i32⟩ : BufTy).Contents (Elt F)),
    binary main_v72 main_v100 main_v101 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v94 main_v102 (broadcastInDim S1600000x1 ![0] bcast_S1600000_S1600000x1_0 : (⟨S1600000, .f32⟩ : BufTy).Contents (Elt F) → (⟨S1600000x1, .f32⟩ : BufTy).Contents (Elt F)),
    unary main_v102 main_v103 (broadcastInDim S1600000x128 ![0, 1] bcast_S1600000x1_S1600000x128_0_1 : (⟨S1600000x1, .f32⟩ : BufTy).Contents (Elt F) → (⟨S1600000x128, .f32⟩ : BufTy).Contents (Elt F)),
    binary main_v101 main_v103 main_v104 (mulf : (⟨S1600000x128, .f32⟩ : BufTy).Contents (Elt F) → (⟨S1600000x128, .f32⟩ : BufTy).Contents (Elt F) → (⟨S1600000x128, .f32⟩ : BufTy).Contents (Elt F)),
    nullary main_cst_21 (constant S_ .f32 0x00000000#32),
    unary main_cst_21 main_v105 (broadcastInDim S100000x128 ![] bcast_S_S100000x128 : (⟨S_, .f32⟩ : BufTy).Contents (Elt F) → (⟨S100000x128, .f32⟩ : BufTy).Contents (Elt F)),
    unary main_v3 main_v106 (broadcastInDim S1600000x1 ![0] bcast_S1600000_S1600000x1_0 : (⟨S1600000, .i32⟩ : BufTy).Contents (Elt F) → (⟨S1600000x1, .i32⟩ : BufTy).Contents (Elt F)),
    ternary main_v105 main_v106 main_v104 main_v107 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v79 main_v79 main_v108 (mulf : (⟨S100000, .f32⟩ : BufTy).Contents (Elt F) → (⟨S100000, .f32⟩ : BufTy).Contents (Elt F) → (⟨S100000, .f32⟩ : BufTy).Contents (Elt F)),
    unary main_v108 main_v109 (broadcastInDim S100000x1 ![0] bcast_S100000_S100000x1_0 : (⟨S100000, .f32⟩ : BufTy).Contents (Elt F) → (⟨S100000x1, .f32⟩ : BufTy).Contents (Elt F)),
    unary main_v109 main_v110 (broadcastInDim S100000x128 ![0, 1] bcast_S100000x1_S100000x128_0_1 : (⟨S100000x1, .f32⟩ : BufTy).Contents (Elt F) → (⟨S100000x128, .f32⟩ : BufTy).Contents (Elt F)),
    binary main_v72 main_v110 main_v111 (mulf : (⟨S100000x128, .f32⟩ : BufTy).Contents (Elt F) → (⟨S100000x128, .f32⟩ : BufTy).Contents (Elt F) → (⟨S100000x128, .f32⟩ : BufTy).Contents (Elt F)),
    binary main_v107 main_v111 main_v112 (addf : (⟨S100000x128, .f32⟩ : BufTy).Contents (Elt F) → (⟨S100000x128, .f32⟩ : BufTy).Contents (Elt F) → (⟨S100000x128, .f32⟩ : BufTy).Contents (Elt F)),
    unary main_arg9 main_v113 (broadcastInDim S1x128 ![1] bcast_S128_S1x128_1 : (⟨S128, .f32⟩ : BufTy).Contents (Elt F) → (⟨S1x128, .f32⟩ : BufTy).Contents (Elt F)),
    unary main_v113 main_v114 (broadcastInDim S100000x128 ![0, 1] bcast_S1x128_S100000x128_0_1 : (⟨S1x128, .f32⟩ : BufTy).Contents (Elt F) → (⟨S100000x128, .f32⟩ : BufTy).Contents (Elt F)),
    binary main_v112 main_v114 main_v115 (addf : (⟨S100000x128, .f32⟩ : BufTy).Contents (Elt F) → (⟨S100000x128, .f32⟩ : BufTy).Contents (Elt F) → (⟨S100000x128, .f32⟩ : BufTy).Contents (Elt F)),
    nullary main_cst_22 (constant S_ .f32 0x00000000#32),
    binary main_v115 main_cst_22 main_v116 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_23 (constant S_ .f32 0x47C35000#32),
    unary main_cst_23 main_v117 (broadcastInDim S128 ![] bcast_S_S128 : (⟨S_, .f32⟩ : BufTy).Contents (Elt F) → (⟨S128, .f32⟩ : BufTy).Contents (Elt F)),
    binary main_v116 main_v117 main_v118 (Host.divf : (⟨S128, .f32⟩ : BufTy).Contents (Elt F) → (⟨S128, .f32⟩ : BufTy).Contents (Elt F) → (⟨S128, .f32⟩ : BufTy).Contents (Elt F)),
    nullary main_c_24 (constantI S_ 32 0#32),
    TRef.nullary main_call2.cst (constant S_ .f32 0x00000000#32),
    TRef.binary (.of main_v115 : TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 (Host.divf),
    TRef.unary main_call2.v3 main_call2.v4 (broadcastInDim S100000x128 ![0, 1] bcast_S1x128_S100000x128_0_1),
    TRef.binary (.of main_v115 : TRef sig ⟨S100000x128, .f32⟩) main_call2.v4 main_call2.v5 (subf),
    TRef.binary main_call2.v5 main_call2.v5 main_call2.v6 (mulf),
    TRef.unary (.of main_c_24 : TRef sig ⟨S_, .i32⟩) main_call2.v7 (sitofp .f32),
    TRef.nullary main_call2.cst_1 (constant S_ .f32 0x47C35000#32),
    TRef.binary main_call2.cst_1 main_call2.v7 main_call2.v8 (subf),
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 (Host.divf),
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 (id),
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v118 main_v120 (broadcastInDim S1x128 ![1] bcast_S128_S1x128_1 : (⟨S128, .f32⟩ : BufTy).Contents (Elt F) → (⟨S1x128, .f32⟩ : BufTy).Contents (Elt F)),
    unary main_v120 main_v121 (broadcastInDim S100000x128 ![0, 1] bcast_S1x128_S100000x128_0_1 : (⟨S1x128, .f32⟩ : BufTy).Contents (Elt F) → (⟨S100000x128, .f32⟩ : BufTy).Contents (Elt F)),
    binary main_v115 main_v121 main_v122 (subf : (⟨S100000x128, .f32⟩ : BufTy).Contents (Elt F) → (⟨S100000x128, .f32⟩ : BufTy).Contents (Elt F) → (⟨S100000x128, .f32⟩ : BufTy).Contents (Elt F)),
    unary main_arg10 main_v123 (broadcastInDim S1x128 ![1] bcast_S128_S1x128_1 : (⟨S128, .f32⟩ : BufTy).Contents (Elt F) → (⟨S1x128, .f32⟩ : BufTy).Contents (Elt F)),
    unary main_v123 main_v124 (broadcastInDim S100000x128 ![0, 1] bcast_S1x128_S100000x128_0_1 : (⟨S1x128, .f32⟩ : BufTy).Contents (Elt F) → (⟨S100000x128, .f32⟩ : BufTy).Contents (Elt F)),
    binary main_v124 main_v122 main_v125 (mulf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x3727C5AC#32),
    unary main_cst_25 main_v126 (broadcastInDim S128 ![] bcast_S_S128 : (⟨S_, .f32⟩ : BufTy).Contents (Elt F) → (⟨S128, .f32⟩ : BufTy).Contents (Elt F)),
    binary main_v119 main_v126 main_v127 (addf : (⟨S128, .f32⟩ : BufTy).Contents (Elt F) → (⟨S128, .f32⟩ : BufTy).Contents (Elt F) → (⟨S128, .f32⟩ : BufTy).Contents (Elt F)),
    unary main_v127 main_v128 (Host.rsqrt : (⟨S128, .f32⟩ : BufTy).Contents (Elt F) → (⟨S128, .f32⟩ : BufTy).Contents (Elt F)),
    unary main_v128 main_v129 (broadcastInDim S1x128 ![1] bcast_S128_S1x128_1 : (⟨S128, .f32⟩ : BufTy).Contents (Elt F) → (⟨S1x128, .f32⟩ : BufTy).Contents (Elt F)),
    unary main_v129 main_v130 (broadcastInDim S100000x128 ![0, 1] bcast_S1x128_S100000x128_0_1 : (⟨S1x128, .f32⟩ : BufTy).Contents (Elt F) → (⟨S100000x128, .f32⟩ : BufTy).Contents (Elt F)),
    binary main_v125 main_v130 main_v131 (mulf : (⟨S100000x128, .f32⟩ : BufTy).Contents (Elt F) → (⟨S100000x128, .f32⟩ : BufTy).Contents (Elt F) → (⟨S100000x128, .f32⟩ : BufTy).Contents (Elt F)),
    unary main_arg11 main_v132 (broadcastInDim S1x128 ![1] bcast_S128_S1x128_1 : (⟨S128, .f32⟩ : BufTy).Contents (Elt F) → (⟨S1x128, .f32⟩ : BufTy).Contents (Elt F)),
    unary main_v132 main_v133 (broadcastInDim S100000x128 ![0, 1] bcast_S1x128_S100000x128_0_1 : (⟨S1x128, .f32⟩ : BufTy).Contents (Elt F) → (⟨S100000x128, .f32⟩ : BufTy).Contents (Elt F)),
    binary main_v131 main_v133 main_v134 (addf : (⟨S100000x128, .f32⟩ : BufTy).Contents (Elt F) → (⟨S100000x128, .f32⟩ : BufTy).Contents (Elt F) → (⟨S100000x128, .f32⟩ : BufTy).Contents (Elt F)) ]

/-- Stretch 0 of the line: 8 operations, ending at main_v7. -/
def ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg3 main_v5 (broadcastInDim S1x256 ![1] bcast_S256_S1x256_1 : (⟨S256, .f32⟩ : BufTy).Contents (Elt F) → (⟨S1x256, .f32⟩ : BufTy).Contents (Elt F)),
    unary main_v5 main_v6 (broadcastInDim S100000x256 ![0, 1] bcast_S1x256_S100000x256_0_1 : (⟨S1x256, .f32⟩ : BufTy).Contents (Elt F) → (⟨S100000x256, .f32⟩ : BufTy).Contents (Elt F)),
    binary main_v4 main_v6 main_v7 (addf : (⟨S100000x256, .f32⟩ : BufTy).Contents (Elt F) → (⟨S100000x256, .f32⟩ : BufTy).Contents (Elt F) → (⟨S100000x256, .f32⟩ : BufTy).Contents (Elt F)) ]

/-- Stretch 1 of the line: 1 operation, ending at main_v8. -/
def ops1 : List (HloOp τ sig (Elt F)) :=
  [ binary main_v7 main_arg4 main_v8 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

/-- Stretch 2 of the line: 53 operations, ending at main_v51. -/
def ops2 : List (HloOp τ sig (Elt F)) :=
  [ nullary main_cst (constant S_ .f32 0x3F800000#32),
    unary main_cst main_v9 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v3 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (addf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_c (constantI S_ 32 0#32),
    unary main_c main_v16 (broadcastInDim S1600000 ![] bcast_S_S1600000 : (⟨S_, .i32⟩ : BufTy).Contents (Elt F) → (⟨S1600000, .i32⟩ : BufTy).Contents (Elt F)),
    binary main_v1 main_v16 main_v17 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v18 (broadcastInDim S1600000 ![] bcast_S_S1600000 : (⟨S_, .i32⟩ : BufTy).Contents (Elt F) → (⟨S1600000, .i32⟩ : BufTy).Contents (Elt F)),
    binary main_v1 main_v18 main_v19 (addi : (⟨S1600000, .i32⟩ : BufTy).Contents (Elt F) → (⟨S1600000, .i32⟩ : BufTy).Contents (Elt F) → (⟨S1600000, .i32⟩ : BufTy).Contents (Elt F)),
    ternary main_v17 main_v19 main_v1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v20 main_v21 (broadcastInDim S1600000x1 ![0] bcast_S1600000_S1600000x1_0 : (⟨S1600000, .i32⟩ : BufTy).Contents (Elt F) → (⟨S1600000x1, .i32⟩ : BufTy).Contents (Elt F)),
    binary main_v15 main_v21 main_v22 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v23 (broadcastInDim S1600000 ![] bcast_S_S1600000 : (⟨S_, .i32⟩ : BufTy).Contents (Elt F) → (⟨S1600000, .i32⟩ : BufTy).Contents (Elt F)),
    binary main_v3 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v25 (broadcastInDim S1600000 ![] bcast_S_S1600000 : (⟨S_, .i32⟩ : BufTy).Contents (Elt F) → (⟨S1600000, .i32⟩ : BufTy).Contents (Elt F)),
    binary main_v3 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_v3 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v15 main_v28 main_v29 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v22 main_v29 main_v30 (mulf : (⟨S1600000, .f32⟩ : BufTy).Contents (Elt F) → (⟨S1600000, .f32⟩ : BufTy).Contents (Elt F) → (⟨S1600000, .f32⟩ : BufTy).Contents (Elt F)),
    nullary main_c_5 (constantI S_ 32 0#32),
    unary main_c_5 main_v31 (broadcastInDim S1600000 ![] bcast_S_S1600000 : (⟨S_, .i32⟩ : BufTy).Contents (Elt F) → (⟨S1600000, .i32⟩ : BufTy).Contents (Elt F)),
    binary main_v1 main_v31 main_v32 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v33 (broadcastInDim S1600000 ![] bcast_S_S1600000 : (⟨S_, .i32⟩ : BufTy).Contents (Elt F) → (⟨S1600000, .i32⟩ : BufTy).Contents (Elt F)),
    binary main_v1 main_v33 main_v34 (addi : (⟨S1600000, .i32⟩ : BufTy).Contents (Elt F) → (⟨S1600000, .i32⟩ : BufTy).Contents (Elt F) → (⟨S1600000, .i32⟩ : BufTy).Contents (Elt F)),
    ternary main_v32 main_v34 main_v1 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v35 main_v36 (broadcastInDim S1600000x1 ![0] bcast_S1600000_S1600000x1_0 : (⟨S1600000, .i32⟩ : BufTy).Contents (Elt F) → (⟨S1600000x1, .i32⟩ : BufTy).Contents (Elt F)),
    binary main_v8 main_v36 main_v37 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v30 main_v38 (broadcastInDim S1600000x1 ![0] bcast_S1600000_S1600000x1_0 : (⟨S1600000, .f32⟩ : BufTy).Contents (Elt F) → (⟨S1600000x1, .f32⟩ : BufTy).Contents (Elt F)),
    unary main_v38 main_v39 (broadcastInDim S1600000x128 ![0, 1] bcast_S1600000x1_S1600000x128_0_1 : (⟨S1600000x1, .f32⟩ : BufTy).Contents (Elt F) → (⟨S1600000x128, .f32⟩ : BufTy).Contents (Elt F)),
    binary main_v37 main_v39 main_v40 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v41 (broadcastInDim S100000x128 ![] bcast_S_S100000x128 : (⟨S_, .f32⟩ : BufTy).Contents (Elt F) → (⟨S100000x128, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v15 main_v15 main_v44 (mulf : (⟨S100000, .f32⟩ : BufTy).Contents (Elt F) → (⟨S100000, .f32⟩ : BufTy).Contents (Elt F) → (⟨S100000, .f32⟩ : BufTy).Contents (Elt F)),
    unary main_v44 main_v45 (broadcastInDim S100000x1 ![0] bcast_S100000_S100000x1_0 : (⟨S100000, .f32⟩ : BufTy).Contents (Elt F) → (⟨S100000x1, .f32⟩ : BufTy).Contents (Elt F)),
    unary main_v45 main_v46 (broadcastInDim S100000x128 ![0, 1] bcast_S100000x1_S100000x128_0_1 : (⟨S100000x1, .f32⟩ : BufTy).Contents (Elt F) → (⟨S100000x128, .f32⟩ : BufTy).Contents (Elt F)),
    binary main_v8 main_v46 main_v47 (mulf : (⟨S100000x128, .f32⟩ : BufTy).Contents (Elt F) → (⟨S100000x128, .f32⟩ : BufTy).Contents (Elt F) → (⟨S100000x128, .f32⟩ : BufTy).Contents (Elt F)),
    binary main_v43 main_v47 main_v48 (addf : (⟨S100000x128, .f32⟩ : BufTy).Contents (Elt F) → (⟨S100000x128, .f32⟩ : BufTy).Contents (Elt F) → (⟨S100000x128, .f32⟩ : BufTy).Contents (Elt F)),
    unary main_arg5 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)) ]

/-- Stretch 3 of the line: 28 operations, ending at main_v55. -/
def ops3 : List (HloOp τ sig (Elt F)) :=
  [ nullary main_cst_8 (constant S_ .f32 0x00000000#32),
    binary main_v51 main_cst_8 main_v52 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v53 (broadcastInDim S128 ![] bcast_S_S128 : (⟨S_, .f32⟩ : BufTy).Contents (Elt F) → (⟨S128, .f32⟩ : BufTy).Contents (Elt F)),
    binary main_v52 main_v53 main_v54 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call0.cst (constant S_ .f32 0x00000000#32),
    TRef.binary (.of main_v51 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 (Host.divf),
    TRef.unary main_call0.v3 main_call0.v4 (broadcastInDim S100000x128 ![0, 1] bcast_S1x128_S100000x128_0_1),
    TRef.binary (.of main_v51 : TRef sig ⟨S100000x128, .f32⟩) main_call0.v4 main_call0.v5 (subf),
    TRef.binary main_call0.v5 main_call0.v5 main_call0.v6 (mulf),
    TRef.unary (.of main_c_10 : TRef sig ⟨S_, .i32⟩) main_call0.v7 (sitofp .f32),
    TRef.nullary main_call0.cst_1 (constant S_ .f32 0x47C35000#32),
    TRef.binary main_call0.cst_1 main_call0.v7 main_call0.v8 (subf),
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 (Host.divf),
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 (id),
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- Stretch 4 of the line: 16 operations, ending at main_v70. -/
def ops4 : List (HloOp τ sig (Elt F)) :=
  [ unary main_v54 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v51 main_v57 main_v58 (subf : (⟨S100000x128, .f32⟩ : BufTy).Contents (Elt F) → (⟨S100000x128, .f32⟩ : BufTy).Contents (Elt F) → (⟨S100000x128, .f32⟩ : BufTy).Contents (Elt F)),
    unary main_arg6 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v60 main_v58 main_v61 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v62 (broadcastInDim S128 ![] bcast_S_S128 : (⟨S_, .f32⟩ : BufTy).Contents (Elt F) → (⟨S128, .f32⟩ : BufTy).Contents (Elt F)),
    binary main_v55 main_v62 main_v63 (addf : (⟨S128, .f32⟩ : BufTy).Contents (Elt F) → (⟨S128, .f32⟩ : BufTy).Contents (Elt F) → (⟨S128, .f32⟩ : BufTy).Contents (Elt F)),
    unary main_v63 main_v64 (Host.rsqrt : (⟨S128, .f32⟩ : BufTy).Contents (Elt F) → (⟨S128, .f32⟩ : BufTy).Contents (Elt F)),
    unary main_v64 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v61 main_v66 main_v67 (mulf : (⟨S100000x128, .f32⟩ : BufTy).Contents (Elt F) → (⟨S100000x128, .f32⟩ : BufTy).Contents (Elt F) → (⟨S100000x128, .f32⟩ : BufTy).Contents (Elt F)),
    unary main_arg7 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v67 main_v69 main_v70 (addf : (⟨S100000x128, .f32⟩ : BufTy).Contents (Elt F) → (⟨S100000x128, .f32⟩ : BufTy).Contents (Elt F) → (⟨S100000x128, .f32⟩ : BufTy).Contents (Elt F)) ]

/-- Stretch 5 of the line: 3 operations, ending at main_v71. -/
def ops5 : List (HloOp τ sig (Elt F)) :=
  [ TRef.nullary main_call1.cst (constant S_ .f32 0x00000000#32),
    TRef.unary main_call1.cst main_call1.v0 (broadcastInDim S100000x128 ![] bcast_S_S100000x128),
    TRef.binary (.of main_v70 : TRef sig ⟨S100000x128, .f32⟩) main_call1.v0 main_call1.v1 (maximumf) ]

/-- Stretch 6 of the line: 1 operation, ending at main_v72. -/
def ops6 : List (HloOp τ sig (Elt F)) :=
  [ binary main_v71 main_arg8 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Stretch 7 of the line: 53 operations, ending at main_v115. -/
def ops7 : List (HloOp τ sig (Elt F)) :=
  [ nullary main_cst_12 (constant S_ .f32 0x3F800000#32),
    unary main_cst_12 main_v73 (broadcastInDim S1600000 ![] bcast_S_S1600000 : (⟨S_, .f32⟩ : BufTy).Contents (Elt F) → (⟨S1600000, .f32⟩ : BufTy).Contents (Elt F)),
    nullary main_cst_13 (constant S_ .f32 0x00000000#32),
    unary main_cst_13 main_v74 (broadcastInDim S100000 ![] bcast_S_S100000 : (⟨S_, .f32⟩ : BufTy).Contents (Elt F) → (⟨S100000, .f32⟩ : BufTy).Contents (Elt F)),
    unary main_v3 main_v75 (broadcastInDim S1600000x1 ![0] bcast_S1600000_S1600000x1_0 : (⟨S1600000, .i32⟩ : BufTy).Contents (Elt F) → (⟨S1600000x1, .i32⟩ : BufTy).Contents (Elt F)),
    ternary main_v74 main_v75 main_v73 main_v76 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_14 (constant S_ .f32 0x3F800000#32),
    unary main_cst_14 main_v77 (broadcastInDim S100000 ![] bcast_S_S100000 : (⟨S_, .f32⟩ : BufTy).Contents (Elt F) → (⟨S100000, .f32⟩ : BufTy).Contents (Elt F)),
    binary main_v76 main_v77 main_v78 (addf : (⟨S100000, .f32⟩ : BufTy).Contents (Elt F) → (⟨S100000, .f32⟩ : BufTy).Contents (Elt F) → (⟨S100000, .f32⟩ : BufTy).Contents (Elt F)),
    unary main_v78 main_v79 (Host.rsqrt : (⟨S100000, .f32⟩ : BufTy).Contents (Elt F) → (⟨S100000, .f32⟩ : BufTy).Contents (Elt F)),
    nullary main_c_15 (constantI S_ 32 0#32),
    unary main_c_15 main_v80 (broadcastInDim S1600000 ![] bcast_S_S1600000 : (⟨S_, .i32⟩ : BufTy).Contents (Elt F) → (⟨S1600000, .i32⟩ : BufTy).Contents (Elt F)),
    binary main_v1 main_v80 main_v81 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v82 (broadcastInDim S1600000 ![] bcast_S_S1600000 : (⟨S_, .i32⟩ : BufTy).Contents (Elt F) → (⟨S1600000, .i32⟩ : BufTy).Contents (Elt F)),
    binary main_v1 main_v82 main_v83 (addi : (⟨S1600000, .i32⟩ : BufTy).Contents (Elt F) → (⟨S1600000, .i32⟩ : BufTy).Contents (Elt F) → (⟨S1600000, .i32⟩ : BufTy).Contents (Elt F)),
    ternary main_v81 main_v83 main_v1 main_v84 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v84 main_v85 (broadcastInDim S1600000x1 ![0] bcast_S1600000_S1600000x1_0 : (⟨S1600000, .i32⟩ : BufTy).Contents (Elt F) → (⟨S1600000x1, .i32⟩ : BufTy).Contents (Elt F)),
    binary main_v79 main_v85 main_v86 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_17 (constantI S_ 32 0#32),
    unary main_c_17 main_v87 (broadcastInDim S1600000 ![] bcast_S_S1600000 : (⟨S_, .i32⟩ : BufTy).Contents (Elt F) → (⟨S1600000, .i32⟩ : BufTy).Contents (Elt F)),
    binary main_v3 main_v87 main_v88 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v89 (broadcastInDim S1600000 ![] bcast_S_S1600000 : (⟨S_, .i32⟩ : BufTy).Contents (Elt F) → (⟨S1600000, .i32⟩ : BufTy).Contents (Elt F)),
    binary main_v3 main_v89 main_v90 (addi : (⟨S1600000, .i32⟩ : BufTy).Contents (Elt F) → (⟨S1600000, .i32⟩ : BufTy).Contents (Elt F) → (⟨S1600000, .i32⟩ : BufTy).Contents (Elt F)),
    ternary main_v88 main_v90 main_v3 main_v91 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v91 main_v92 (broadcastInDim S1600000x1 ![0] bcast_S1600000_S1600000x1_0 : (⟨S1600000, .i32⟩ : BufTy).Contents (Elt F) → (⟨S1600000x1, .i32⟩ : BufTy).Contents (Elt F)),
    binary main_v79 main_v92 main_v93 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v86 main_v93 main_v94 (mulf : (⟨S1600000, .f32⟩ : BufTy).Contents (Elt F) → (⟨S1600000, .f32⟩ : BufTy).Contents (Elt F) → (⟨S1600000, .f32⟩ : BufTy).Contents (Elt F)),
    nullary main_c_19 (constantI S_ 32 0#32),
    unary main_c_19 main_v95 (broadcastInDim S1600000 ![] bcast_S_S1600000 : (⟨S_, .i32⟩ : BufTy).Contents (Elt F) → (⟨S1600000, .i32⟩ : BufTy).Contents (Elt F)),
    binary main_v1 main_v95 main_v96 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v97 (broadcastInDim S1600000 ![] bcast_S_S1600000 : (⟨S_, .i32⟩ : BufTy).Contents (Elt F) → (⟨S1600000, .i32⟩ : BufTy).Contents (Elt F)),
    binary main_v1 main_v97 main_v98 (addi : (⟨S1600000, .i32⟩ : BufTy).Contents (Elt F) → (⟨S1600000, .i32⟩ : BufTy).Contents (Elt F) → (⟨S1600000, .i32⟩ : BufTy).Contents (Elt F)),
    ternary main_v96 main_v98 main_v1 main_v99 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v99 main_v100 (broadcastInDim S1600000x1 ![0] bcast_S1600000_S1600000x1_0 : (⟨S1600000, .i32⟩ : BufTy).Contents (Elt F) → (⟨S1600000x1, .i32⟩ : BufTy).Contents (Elt F)),
    binary main_v72 main_v100 main_v101 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v94 main_v102 (broadcastInDim S1600000x1 ![0] bcast_S1600000_S1600000x1_0 : (⟨S1600000, .f32⟩ : BufTy).Contents (Elt F) → (⟨S1600000x1, .f32⟩ : BufTy).Contents (Elt F)),
    unary main_v102 main_v103 (broadcastInDim S1600000x128 ![0, 1] bcast_S1600000x1_S1600000x128_0_1 : (⟨S1600000x1, .f32⟩ : BufTy).Contents (Elt F) → (⟨S1600000x128, .f32⟩ : BufTy).Contents (Elt F)),
    binary main_v101 main_v103 main_v104 (mulf : (⟨S1600000x128, .f32⟩ : BufTy).Contents (Elt F) → (⟨S1600000x128, .f32⟩ : BufTy).Contents (Elt F) → (⟨S1600000x128, .f32⟩ : BufTy).Contents (Elt F)),
    nullary main_cst_21 (constant S_ .f32 0x00000000#32),
    unary main_cst_21 main_v105 (broadcastInDim S100000x128 ![] bcast_S_S100000x128 : (⟨S_, .f32⟩ : BufTy).Contents (Elt F) → (⟨S100000x128, .f32⟩ : BufTy).Contents (Elt F)),
    unary main_v3 main_v106 (broadcastInDim S1600000x1 ![0] bcast_S1600000_S1600000x1_0 : (⟨S1600000, .i32⟩ : BufTy).Contents (Elt F) → (⟨S1600000x1, .i32⟩ : BufTy).Contents (Elt F)),
    ternary main_v105 main_v106 main_v104 main_v107 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v79 main_v79 main_v108 (mulf : (⟨S100000, .f32⟩ : BufTy).Contents (Elt F) → (⟨S100000, .f32⟩ : BufTy).Contents (Elt F) → (⟨S100000, .f32⟩ : BufTy).Contents (Elt F)),
    unary main_v108 main_v109 (broadcastInDim S100000x1 ![0] bcast_S100000_S100000x1_0 : (⟨S100000, .f32⟩ : BufTy).Contents (Elt F) → (⟨S100000x1, .f32⟩ : BufTy).Contents (Elt F)),
    unary main_v109 main_v110 (broadcastInDim S100000x128 ![0, 1] bcast_S100000x1_S100000x128_0_1 : (⟨S100000x1, .f32⟩ : BufTy).Contents (Elt F) → (⟨S100000x128, .f32⟩ : BufTy).Contents (Elt F)),
    binary main_v72 main_v110 main_v111 (mulf : (⟨S100000x128, .f32⟩ : BufTy).Contents (Elt F) → (⟨S100000x128, .f32⟩ : BufTy).Contents (Elt F) → (⟨S100000x128, .f32⟩ : BufTy).Contents (Elt F)),
    binary main_v107 main_v111 main_v112 (addf : (⟨S100000x128, .f32⟩ : BufTy).Contents (Elt F) → (⟨S100000x128, .f32⟩ : BufTy).Contents (Elt F) → (⟨S100000x128, .f32⟩ : BufTy).Contents (Elt F)),
    unary main_arg9 main_v113 (broadcastInDim S1x128 ![1] bcast_S128_S1x128_1 : (⟨S128, .f32⟩ : BufTy).Contents (Elt F) → (⟨S1x128, .f32⟩ : BufTy).Contents (Elt F)),
    unary main_v113 main_v114 (broadcastInDim S100000x128 ![0, 1] bcast_S1x128_S100000x128_0_1 : (⟨S1x128, .f32⟩ : BufTy).Contents (Elt F) → (⟨S100000x128, .f32⟩ : BufTy).Contents (Elt F)),
    binary main_v112 main_v114 main_v115 (addf : (⟨S100000x128, .f32⟩ : BufTy).Contents (Elt F) → (⟨S100000x128, .f32⟩ : BufTy).Contents (Elt F) → (⟨S100000x128, .f32⟩ : BufTy).Contents (Elt F)) ]

/-- Stretch 8 of the line: 28 operations, ending at main_v119. -/
def ops8 : List (HloOp τ sig (Elt F)) :=
  [ nullary main_cst_22 (constant S_ .f32 0x00000000#32),
    binary main_v115 main_cst_22 main_v116 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_23 (constant S_ .f32 0x47C35000#32),
    unary main_cst_23 main_v117 (broadcastInDim S128 ![] bcast_S_S128 : (⟨S_, .f32⟩ : BufTy).Contents (Elt F) → (⟨S128, .f32⟩ : BufTy).Contents (Elt F)),
    binary main_v116 main_v117 main_v118 (Host.divf : (⟨S128, .f32⟩ : BufTy).Contents (Elt F) → (⟨S128, .f32⟩ : BufTy).Contents (Elt F) → (⟨S128, .f32⟩ : BufTy).Contents (Elt F)),
    nullary main_c_24 (constantI S_ 32 0#32),
    TRef.nullary main_call2.cst (constant S_ .f32 0x00000000#32),
    TRef.binary (.of main_v115 : TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 (Host.divf),
    TRef.unary main_call2.v3 main_call2.v4 (broadcastInDim S100000x128 ![0, 1] bcast_S1x128_S100000x128_0_1),
    TRef.binary (.of main_v115 : TRef sig ⟨S100000x128, .f32⟩) main_call2.v4 main_call2.v5 (subf),
    TRef.binary main_call2.v5 main_call2.v5 main_call2.v6 (mulf),
    TRef.unary (.of main_c_24 : TRef sig ⟨S_, .i32⟩) main_call2.v7 (sitofp .f32),
    TRef.nullary main_call2.cst_1 (constant S_ .f32 0x47C35000#32),
    TRef.binary main_call2.cst_1 main_call2.v7 main_call2.v8 (subf),
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 (Host.divf),
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 (id),
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

/-- Stretch 9 of the line: 16 operations, ending at main_v134. -/
def ops9 : List (HloOp τ sig (Elt F)) :=
  [ unary main_v118 main_v120 (broadcastInDim S1x128 ![1] bcast_S128_S1x128_1 : (⟨S128, .f32⟩ : BufTy).Contents (Elt F) → (⟨S1x128, .f32⟩ : BufTy).Contents (Elt F)),
    unary main_v120 main_v121 (broadcastInDim S100000x128 ![0, 1] bcast_S1x128_S100000x128_0_1 : (⟨S1x128, .f32⟩ : BufTy).Contents (Elt F) → (⟨S100000x128, .f32⟩ : BufTy).Contents (Elt F)),
    binary main_v115 main_v121 main_v122 (subf : (⟨S100000x128, .f32⟩ : BufTy).Contents (Elt F) → (⟨S100000x128, .f32⟩ : BufTy).Contents (Elt F) → (⟨S100000x128, .f32⟩ : BufTy).Contents (Elt F)),
    unary main_arg10 main_v123 (broadcastInDim S1x128 ![1] bcast_S128_S1x128_1 : (⟨S128, .f32⟩ : BufTy).Contents (Elt F) → (⟨S1x128, .f32⟩ : BufTy).Contents (Elt F)),
    unary main_v123 main_v124 (broadcastInDim S100000x128 ![0, 1] bcast_S1x128_S100000x128_0_1 : (⟨S1x128, .f32⟩ : BufTy).Contents (Elt F) → (⟨S100000x128, .f32⟩ : BufTy).Contents (Elt F)),
    binary main_v124 main_v122 main_v125 (mulf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x3727C5AC#32),
    unary main_cst_25 main_v126 (broadcastInDim S128 ![] bcast_S_S128 : (⟨S_, .f32⟩ : BufTy).Contents (Elt F) → (⟨S128, .f32⟩ : BufTy).Contents (Elt F)),
    binary main_v119 main_v126 main_v127 (addf : (⟨S128, .f32⟩ : BufTy).Contents (Elt F) → (⟨S128, .f32⟩ : BufTy).Contents (Elt F) → (⟨S128, .f32⟩ : BufTy).Contents (Elt F)),
    unary main_v127 main_v128 (Host.rsqrt : (⟨S128, .f32⟩ : BufTy).Contents (Elt F) → (⟨S128, .f32⟩ : BufTy).Contents (Elt F)),
    unary main_v128 main_v129 (broadcastInDim S1x128 ![1] bcast_S128_S1x128_1 : (⟨S128, .f32⟩ : BufTy).Contents (Elt F) → (⟨S1x128, .f32⟩ : BufTy).Contents (Elt F)),
    unary main_v129 main_v130 (broadcastInDim S100000x128 ![0, 1] bcast_S1x128_S100000x128_0_1 : (⟨S1x128, .f32⟩ : BufTy).Contents (Elt F) → (⟨S100000x128, .f32⟩ : BufTy).Contents (Elt F)),
    binary main_v125 main_v130 main_v131 (mulf : (⟨S100000x128, .f32⟩ : BufTy).Contents (Elt F) → (⟨S100000x128, .f32⟩ : BufTy).Contents (Elt F) → (⟨S100000x128, .f32⟩ : BufTy).Contents (Elt F)),
    unary main_arg11 main_v132 (broadcastInDim S1x128 ![1] bcast_S128_S1x128_1 : (⟨S128, .f32⟩ : BufTy).Contents (Elt F) → (⟨S1x128, .f32⟩ : BufTy).Contents (Elt F)),
    unary main_v132 main_v133 (broadcastInDim S100000x128 ![0, 1] bcast_S1x128_S100000x128_0_1 : (⟨S1x128, .f32⟩ : BufTy).Contents (Elt F) → (⟨S100000x128, .f32⟩ : BufTy).Contents (Elt F)),
    binary main_v131 main_v133 main_v134 (addf : (⟨S100000x128, .f32⟩ : BufTy).Contents (Elt F) → (⟨S100000x128, .f32⟩ : BufTy).Contents (Elt F) → (⟨S100000x128, .f32⟩ : BufTy).Contents (Elt F)) ]

/-- The line is its stretches in order. -/
theorem ops_split : (ops : List (HloOp τ sig (Elt F))) = ops0 ++ (ops1 ++ (ops2 ++ (ops3 ++ (ops4 ++ (ops5 ++ (ops6 ++ (ops7 ++ (ops8 ++ ops9)))))))) := rfl

set_option maxRecDepth 16384 in
set_option maxHeartbeats 4000000 in
/-- @main is that line: the calls' bodies unfolded at the calls, the sequencing reassociated. -/
theorem main_eq (c : Dev nD) : main (F := F) c = seq ops := by
  simp only [main, main_part0, main_part1, main_part2, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., binary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    binary_bufs_sub .., unary_bufs_sub .., unary_bufs_sub .., binary_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., binary_bufs_sub ..,
    unary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub ..⟩

/-- From any memory with zero counters, every weakly fair execution of @main terminates, and every buffer ends at the
    line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefVal

end
-- ==== Proof.RefDefs.lean ====
/-
  The reference's value, stage by stage.

  The reference computes, from node features a0, an edge list a1 and the layers' weights, two rounds of: a dense
  layer, a degree-normalised neighbour sum with self loops plus a bias, and a batch normalisation; with a
  projection in front and a rectifier between the rounds.  Each stage below is the composed term of the
  reference's operations for that stage, as a function of the stage's inputs; `out` is their composition.
-/
import proofs.«171444_j1073741824178_1_alg».proof.Proof.Gen.ReferenceIdeal
import Idealize.ShloMosaic.PureOps.Ideal

noncomputable section

namespace Cert.RefVal

open Idealize.ShloMosaic Idealize.SL.Sem Cert.ReferenceIdeal
open Cert.ReferenceIdeal.Facts₀ Cert.ReferenceIdeal.Facts

/-- The projection: a0 · a2 plus the row a3 at every row. -/
def proj (a0 : FVec Ideal S100000x256 .f32) (a2 : FVec Ideal S256x256 .f32) (a3 : FVec Ideal S256 .f32) :
    FVec Ideal S100000x256 .f32 :=
  addf (F := Ideal) (Host.dotGeneral (F := Ideal) dot_S100000x256_S256x256_S100000x256_1_0_0_1_n_n none a0 a2) (broadcastInDim S100000x256 ![0, 1] bcast_S1x256_S100000x256_0_1 (broadcastInDim S1x256 ![1] bcast_S256_S1x256_1 a3))

/-- The first dense layer: x · w. -/
def lin1 (x : FVec Ideal S100000x256 .f32) (w : FVec Ideal S256x128 .f32) : FVec Ideal S100000x128 .f32 :=
  Host.dotGeneral (F := Ideal) dot_S100000x256_S256x128_S100000x128_1_0_0_1_n_n none x w

/-- The neighbour sum: with d the in-degree plus one of each node (counted over the edge list's second row) and
    r = 1/√d, the sum over edges (s, t) of r s · r t · h s into row t, plus r² · h, plus the bias row b. -/
def conv (h : FVec Ideal S100000x128 .f32) (e : IVec S2x1600000 32) (b : FVec Ideal S128 .f32) :
    FVec Ideal S100000x128 .f32 :=
  addf (F := Ideal) (addf (F := Ideal) (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast S1600000 (extractStridedSlice S1x1600000 ![1, 0] e slices_S2x1600000_S1x1600000_1_0) shapeCasts_S1x1600000_S1600000)) (mulf (F := Ideal) (Host.gather gather_S100000x128_S1600000x1_S1600000x128_1_0_n_n_0_1_1128 h (broadcastInDim S1600000x1 ![0] bcast_S1600000_S1600000x1_0 (select (cmpi .slt (shapeCast S1600000 (extractStridedSlice S1x1600000 ![0, 0] e slices_S2x1600000_S1x1600000_0_0) shapeCasts_S1x1600000_S1600000) (broadcastInDim S1600000 ![] bcast_S_S1600000 (constantI S_ 32 0#32))) (addi (shapeCast S1600000 (extractStridedSlice S1x1600000 ![0, 0] e slices_S2x1600000_S1x1600000_0_0) shapeCasts_S1x1600000_S1600000) (broadcastInDim S1600000 ![] bcast_S_S1600000 (constantI S_ 32 100000#32))) (shapeCast S1600000 (extractStridedSlice S1x1600000 ![0, 0] e slices_S2x1600000_S1x1600000_0_0) shapeCasts_S1x1600000_S1600000)))) (broadcastInDim S1600000x128 ![0, 1] bcast_S1600000x1_S1600000x128_0_1 (broadcastInDim S1600000x1 ![0] bcast_S1600000_S1600000x1_0 (mulf (F := Ideal) (Host.gather gather_S100000_S1600000x1_S1600000_n_0_n_n_0_1_1 (Host.rsqrt (F := Ideal) (addf (F := Ideal) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast S1600000 (extractStridedSlice S1x1600000 ![1, 0] e slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32)))) (broadcastInDim S1600000x1 ![0] bcast_S1600000_S1600000x1_0 (select (cmpi .slt (shapeCast S1600000 (extractStridedSlice S1x1600000 ![0, 0] e slices_S2x1600000_S1x1600000_0_0) shapeCasts_S1x1600000_S1600000) (broadcastInDim S1600000 ![] bcast_S_S1600000 (constantI S_ 32 0#32))) (addi (shapeCast S1600000 (extractStridedSlice S1x1600000 ![0, 0] e slices_S2x1600000_S1x1600000_0_0) shapeCasts_S1x1600000_S1600000) (broadcastInDim S1600000 ![] bcast_S_S1600000 (constantI S_ 32 100000#32))) (shapeCast S1600000 (extractStridedSlice S1x1600000 ![0, 0] e slices_S2x1600000_S1x1600000_0_0) shapeCasts_S1x1600000_S1600000)))) (Host.gather gather_S100000_S1600000x1_S1600000_n_0_n_n_0_1_1 (Host.rsqrt (F := Ideal) (addf (F := Ideal) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast S1600000 (extractStridedSlice S1x1600000 ![1, 0] e slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32)))) (broadcastInDim S1600000x1 ![0] bcast_S1600000_S1600000x1_0 (select (cmpi .slt (shapeCast S1600000 (extractStridedSlice S1x1600000 ![1, 0] e slices_S2x1600000_S1x1600000_1_0) shapeCasts_S1x1600000_S1600000) (broadcastInDim S1600000 ![] bcast_S_S1600000 (constantI S_ 32 0#32))) (addi (shapeCast S1600000 (extractStridedSlice S1x1600000 ![1, 0] e slices_S2x1600000_S1x1600000_1_0) shapeCasts_S1x1600000_S1600000) (broadcastInDim S1600000 ![] bcast_S_S1600000 (constantI S_ 32 100000#32))) (shapeCast S1600000 (extractStridedSlice S1x1600000 ![1, 0] e slices_S2x1600000_S1x1600000_1_0) shapeCasts_S1x1600000_S1600000))))))))) (mulf (F := Ideal) h (broadcastInDim S100000x128 ![0, 1] bcast_S100000x1_S100000x128_0_1 (broadcastInDim S100000x1 ![0] bcast_S100000_S100000x1_0 (mulf (F := Ideal) (Host.rsqrt (F := Ideal) (addf (F := Ideal) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast S1600000 (extractStridedSlice S1x1600000 ![1, 0] e slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32)))) (Host.rsqrt (F := Ideal) (addf (F := Ideal) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast S1600000 (extractStridedSlice S1x1600000 ![1, 0] e slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32))))))))) (broadcastInDim S100000x128 ![0, 1] bcast_S1x128_S100000x128_0_1 (broadcastInDim S1x128 ![1] bcast_S128_S1x128_1 b))

/-- The column variance: the mean over rows of the squared deviation from the column mean. -/
def var (x : FVec Ideal S100000x128 .f32) : FVec Ideal S128 .f32 :=
  select (broadcastInDim S128 ![] bcast_S_S128 (cmpf (F := Ideal) .ogt (subf (F := Ideal) (constant (F := Ideal) S_ .f32 0x47C35000#32) (sitofp (F := Ideal) .f32 (constantI S_ 32 0#32))) (constant (F := Ideal) S_ .f32 0x00000000#32))) (Host.divf (F := Ideal) (Host.reduceAdd (F := Ideal) (mulf (F := Ideal) (subf (F := Ideal) x (broadcastInDim S100000x128 ![0, 1] bcast_S1x128_S100000x128_0_1 (Host.divf (F := Ideal) (broadcastInDim S1x128 ![1] bcast_S128_S1x128_1 (Host.reduceAdd (F := Ideal) x (constant (F := Ideal) S_ .f32 0x00000000#32) reducesTo_S100000x128_S128_d0 h_S_)) (broadcastInDim S1x128 ![] bcast_S_S1x128 (constant (F := Ideal) S_ .f32 0x47C35000#32))))) (subf (F := Ideal) x (broadcastInDim S100000x128 ![0, 1] bcast_S1x128_S100000x128_0_1 (Host.divf (F := Ideal) (broadcastInDim S1x128 ![1] bcast_S128_S1x128_1 (Host.reduceAdd (F := Ideal) x (constant (F := Ideal) S_ .f32 0x00000000#32) reducesTo_S100000x128_S128_d0 h_S_)) (broadcastInDim S1x128 ![] bcast_S_S1x128 (constant (F := Ideal) S_ .f32 0x47C35000#32)))))) (constant (F := Ideal) S_ .f32 0x00000000#32) reducesTo_S100000x128_S128_d0 h_S_) (broadcastInDim S128 ![] bcast_S_S128 (subf (F := Ideal) (constant (F := Ideal) S_ .f32 0x47C35000#32) (sitofp (F := Ideal) .f32 (constantI S_ 32 0#32))))) (broadcastInDim S128 ![] bcast_S_S128 (id (constant (F := Ideal) S_ .f32 0x7FC00000#32)))

/-- The batch normalisation: g · (x − column mean) · 1/√(variance + ε) + b. -/
def bn (x : FVec Ideal S100000x128 .f32) (g b : FVec Ideal S128 .f32) : FVec Ideal S100000x128 .f32 :=
  addf (F := Ideal) (mulf (F := Ideal) (mulf (F := Ideal) (broadcastInDim S100000x128 ![0, 1] bcast_S1x128_S100000x128_0_1 (broadcastInDim S1x128 ![1] bcast_S128_S1x128_1 g)) (subf (F := Ideal) x (broadcastInDim S100000x128 ![0, 1] bcast_S1x128_S100000x128_0_1 (broadcastInDim S1x128 ![1] bcast_S128_S1x128_1 (Host.divf (F := Ideal) (Host.reduceAdd (F := Ideal) x (constant (F := Ideal) S_ .f32 0x00000000#32) reducesTo_S100000x128_S128_d0 h_S_) (broadcastInDim S128 ![] bcast_S_S128 (constant (F := Ideal) S_ .f32 0x47C35000#32))))))) (broadcastInDim S100000x128 ![0, 1] bcast_S1x128_S100000x128_0_1 (broadcastInDim S1x128 ![1] bcast_S128_S1x128_1 (Host.rsqrt (F := Ideal) (addf (F := Ideal) (var x) (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 b))

/-- The rectifier: the maximum with zero. -/
def relu (y : FVec Ideal S100000x128 .f32) : FVec Ideal S100000x128 .f32 :=
  maximumf (F := Ideal) y (broadcastInDim S100000x128 ![] bcast_S_S100000x128 (constant (F := Ideal) S_ .f32 0x00000000#32))

/-- The second dense layer: x · w. -/
def lin2 (x : FVec Ideal S100000x128 .f32) (w : FVec Ideal S128x128 .f32) : FVec Ideal S100000x128 .f32 :=
  Host.dotGeneral (F := Ideal) dot_S100000x128_S128x128_S100000x128_1_0_0_1_n_n none x w

/-- The reference's result as a function of its twelve arguments. -/
def out (a0 : FVec Ideal S100000x256 .f32) (a1 : IVec S2x1600000 32) (a2 : FVec Ideal S256x256 .f32)
    (a3 : FVec Ideal S256 .f32) (a4 : FVec Ideal S256x128 .f32) (a5 a6 a7 : FVec Ideal S128 .f32)
    (a8 : FVec Ideal S128x128 .f32) (a9 a10 a11 : FVec Ideal S128 .f32) : FVec Ideal S100000x128 .f32 :=
  bn (conv (lin2 (relu (bn (conv (lin1 (proj a0 a2 a3) a4) a1 a5) a6 a7)) a8) a1 a9) a10 a11

end Cert.RefVal

end
-- ==== Proof.RefStages.lean ====
/-
  The reference's stages over their immediate inputs.

  The neighbour sum reads the edge list through its two rows, each a flat vector (`edgeSrc`, `edgeDst`), and the
  normalisation reads the column mean and the column variance; stated over those (`convT`, `bnT`), each stage is a
  term of the values the stage's own operations read, and the stages of the reference's value are these at the edge
  rows, the mean and the variance.
-/
import proofs.«171444_j1073741824178_1_alg».proof.Proof.RefDefs

noncomputable section

namespace Cert.RefVal

open Idealize.ShloMosaic Idealize.SL.Sem Cert.ReferenceIdeal
open Cert.ReferenceIdeal.Facts₀ Cert.ReferenceIdeal.Facts

/-- The edge list's first row, as a flat vector. -/
def edgeSrc (e : IVec S2x1600000 32) : IVec S1600000 32 :=
  shapeCast S1600000 (extractStridedSlice S1x1600000 ![0, 0] e slices_S2x1600000_S1x1600000_0_0) shapeCasts_S1x1600000_S1600000

/-- The edge list's second row, as a flat vector. -/
def edgeDst (e : IVec S2x1600000 32) : IVec S1600000 32 :=
  shapeCast S1600000 (extractStridedSlice S1x1600000 ![1, 0] e slices_S2x1600000_S1x1600000_1_0) shapeCasts_S1x1600000_S1600000

/-- The neighbour sum over the two edge rows. -/
def convT (h : FVec Ideal S100000x128 .f32) (s d : IVec S1600000 32) (b : FVec Ideal S128 .f32) :
    FVec Ideal S100000x128 .f32 :=
  addf (F := Ideal) (addf (F := Ideal) (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 d) (mulf (F := Ideal) (Host.gather gather_S100000x128_S1600000x1_S1600000x128_1_0_n_n_0_1_1128 h (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s))) (broadcastInDim S1600000x128 ![0, 1] bcast_S1600000x1_S1600000x128_0_1 (broadcastInDim S1600000x1 ![0] bcast_S1600000_S1600000x1_0 (mulf (F := Ideal) (Host.gather gather_S100000_S1600000x1_S1600000_n_0_n_n_0_1_1 (Host.rsqrt (F := Ideal) (addf (F := Ideal) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 d) (broadcastInDim S1600000 ![] bcast_S_S1600000 (constant (F := Ideal) S_ .f32 0x3F800000#32))) (broadcastInDim S100000 ![] bcast_S_S100000 (constant (F := Ideal) S_ .f32 0x3F800000#32)))) (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s))) (Host.gather gather_S100000_S1600000x1_S1600000_n_0_n_n_0_1_1 (Host.rsqrt (F := Ideal) (addf (F := Ideal) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 d) (broadcastInDim S1600000 ![] bcast_S_S1600000 (constant (F := Ideal) S_ .f32 0x3F800000#32))) (broadcastInDim S100000 ![] bcast_S_S100000 (constant (F := Ideal) S_ .f32 0x3F800000#32)))) (broadcastInDim S1600000x1 ![0] bcast_S1600000_S1600000x1_0 (select (cmpi .slt d (broadcastInDim S1600000 ![] bcast_S_S1600000 (constantI S_ 32 0#32))) (addi d (broadcastInDim S1600000 ![] bcast_S_S1600000 (constantI S_ 32 100000#32))) d)))))))) (mulf (F := Ideal) h (broadcastInDim S100000x128 ![0, 1] bcast_S100000x1_S100000x128_0_1 (broadcastInDim S100000x1 ![0] bcast_S100000_S100000x1_0 (mulf (F := Ideal) (Host.rsqrt (F := Ideal) (addf (F := Ideal) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 d) (broadcastInDim S1600000 ![] bcast_S_S1600000 (constant (F := Ideal) S_ .f32 0x3F800000#32))) (broadcastInDim S100000 ![] bcast_S_S100000 (constant (F := Ideal) S_ .f32 0x3F800000#32)))) (Host.rsqrt (F := Ideal) (addf (F := Ideal) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 d) (broadcastInDim S1600000 ![] bcast_S_S1600000 (constant (F := Ideal) S_ .f32 0x3F800000#32))) (broadcastInDim S100000 ![] bcast_S_S100000 (constant (F := Ideal) S_ .f32 0x3F800000#32))))))))) (broadcastInDim S100000x128 ![0, 1] bcast_S1x128_S100000x128_0_1 (broadcastInDim S1x128 ![1] bcast_S128_S1x128_1 b))

/-- The column mean. -/
def meanT (x : FVec Ideal S100000x128 .f32) : FVec Ideal S128 .f32 :=
  Host.divf (F := Ideal) (Host.reduceAdd (F := Ideal) x (constant (F := Ideal) S_ .f32 0x00000000#32) reducesTo_S100000x128_S128_d0 h_S_) (broadcastInDim S128 ![] bcast_S_S128 (constant (F := Ideal) S_ .f32 0x47C35000#32))

/-- The normalisation over a given mean and variance. -/
def bnT (x : FVec Ideal S100000x128 .f32) (mu v g b : FVec Ideal S128 .f32) : FVec Ideal S100000x128 .f32 :=
  addf (F := Ideal) (mulf (F := Ideal) (mulf (F := Ideal) (broadcastInDim S100000x128 ![0, 1] bcast_S1x128_S100000x128_0_1 (broadcastInDim S1x128 ![1] bcast_S128_S1x128_1 g)) (subf (F := Ideal) x (broadcastInDim S100000x128 ![0, 1] bcast_S1x128_S100000x128_0_1 (broadcastInDim S1x128 ![1] bcast_S128_S1x128_1 mu)))) (broadcastInDim S100000x128 ![0, 1] bcast_S1x128_S100000x128_0_1 (broadcastInDim S1x128 ![1] bcast_S128_S1x128_1 (Host.rsqrt (F := Ideal) (addf (F := Ideal) v (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 b))

attribute [local irreducible] Host.gather Host.scatterAdd Host.reduceAdd

theorem conv_eq (h : FVec Ideal S100000x128 .f32) (e : IVec S2x1600000 32) (b : FVec Ideal S128 .f32) :
    conv h e b = convT h (edgeSrc e) (edgeDst e) b := rfl

theorem bn_eq (x : FVec Ideal S100000x128 .f32) (g b : FVec Ideal S128 .f32) :
    bn x g b = bnT x (meanT x) (var x) g b := rfl

end Cert.RefVal

end
-- ==== Proof.RefKeep.lean ====
/-
  Two facts about a straight line of operations: a line run in two parts, and the buffers a line does not write.
-/
import Idealize.ShloMosaic.Lib.StableHlo.Run

namespace Cert.RefVal

open Idealize.ShloMosaic Idealize.ShloMosaic.StableHlo

variable {τ : Topo} {sig : RefSig} {Val : EltTy → Type}

/-- A line run in two parts: the second part run from where the first ends. -/
theorem after_append : ∀ (a b : List (HloOp τ sig Val)) (V : Valuation τ sig Val),
    after (a ++ b) V = after b (after a V)
  | [], _, _ => rfl
  | o :: a, b, V => after_append a b (o.result V)

/-- A single written buffer lies in a list of references that holds it. -/
theorem sing_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

end Cert.RefVal
-- ==== Proof.RefRead0.lean ====
/-
  Stretch 0 of the reference's line, read from ANY contents: what it leaves at the buffers the later stretches
  read, as a term of what it finds at the buffers it reads, and that it leaves every buffer it does not write as it was.
-/
import proofs.«171444_j1073741824178_1_alg».proof.Proof.RefOps
import proofs.«171444_j1073741824178_1_alg».proof.Proof.RefStages
import proofs.«171444_j1073741824178_1_alg».proof.Proof.RefKeep

noncomputable section

namespace Cert.RefVal

open Idealize.ShloMosaic Idealize.ShloMosaic.TcCoe Idealize.SL.Sem Idealize.ShloMosaic.StableHlo Cert.ReferenceIdeal
open Cert.ReferenceIdeal.Facts₀ Cert.ReferenceIdeal.Facts

/-- The buffers stretch 0 writes. -/
def wr0 : List (Ref sig .tc) :=
  [main_v0, main_v1, main_v2, main_v3, main_v4, main_v5, main_v6, main_v7]

theorem writes0 : (ops0 (F := Ideal)).Forall fun op => op.writes ⊆ (wr0.map (Proc.devRef (τ := τ) .tc)).toFinset := by
  unfold ops0
  exact ⟨sing_sub (by decide), sing_sub (by decide), sing_sub (by decide), sing_sub (by decide), sing_sub (by decide),
    sing_sub (by decide), sing_sub (by decide), sing_sub (by decide)⟩

/-- Stretch 0 leaves a buffer it does not write as it was. -/
theorem keep0 (V : Valuation τ sig (Elt Ideal)) {r : Ref sig .tc} (hr : r ∉ wr0) :
    after (ops0 (F := Ideal)) V (no_index (Proc.devRef .tc r)) = V (Proc.devRef .tc r) :=
  after_of_writes_sub _ V writes0 hr

attribute [local irreducible] Host.gather Host.scatterAdd Host.reduceAdd

set_option maxRecDepth 8192 in
set_option maxHeartbeats 1000000 in
theorem read0_v7 (V : Valuation τ sig (Elt Ideal)) :
    after (ops0 (F := Ideal)) V (no_index (Proc.devRef .tc main_v7)) = proj (V (Proc.devRef .tc main_arg0)) (V (Proc.devRef .tc main_arg2)) (V (Proc.devRef .tc main_arg3)) := by
  unfold ops0
  after_results_simp
  rfl

set_option maxRecDepth 8192 in
set_option maxHeartbeats 1000000 in
theorem read0_v1 (V : Valuation τ sig (Elt Ideal)) :
    after (ops0 (F := Ideal)) V (no_index (Proc.devRef .tc main_v1)) = edgeSrc (V (Proc.devRef .tc main_arg1)) := by
  unfold ops0
  after_results_simp
  rfl

set_option maxRecDepth 8192 in
set_option maxHeartbeats 1000000 in
theorem read0_v3 (V : Valuation τ sig (Elt Ideal)) :
    after (ops0 (F := Ideal)) V (no_index (Proc.devRef .tc main_v3)) = edgeDst (V (Proc.devRef .tc main_arg1)) := by
  unfold ops0
  after_results_simp
  rfl

end Cert.RefVal

end
-- ==== Proof.RefRead1.lean ====
/-
  Stretch 1 of the reference's line, read from ANY contents: what it leaves at the buffers the later stretches
  read, as a term of what it finds at the buffers it reads, and that it leaves every buffer it does not write as it was.
-/
import proofs.«171444_j1073741824178_1_alg».proof.Proof.RefOps
import proofs.«171444_j1073741824178_1_alg».proof.Proof.RefStages
import proofs.«171444_j1073741824178_1_alg».proof.Proof.RefKeep

noncomputable section

namespace Cert.RefVal

open Idealize.ShloMosaic Idealize.ShloMosaic.TcCoe Idealize.SL.Sem Idealize.ShloMosaic.StableHlo Cert.ReferenceIdeal
open Cert.ReferenceIdeal.Facts₀ Cert.ReferenceIdeal.Facts

/-- The buffers stretch 1 writes. -/
def wr1 : List (Ref sig .tc) :=
  [main_v8]

theorem writes1 : (ops1 (F := Ideal)).Forall fun op => op.writes ⊆ (wr1.map (Proc.devRef (τ := τ) .tc)).toFinset := by
  unfold ops1
  exact sing_sub (by decide)

/-- Stretch 1 leaves a buffer it does not write as it was. -/
theorem keep1 (V : Valuation τ sig (Elt Ideal)) {r : Ref sig .tc} (hr : r ∉ wr1) :
    after (ops1 (F := Ideal)) V (no_index (Proc.devRef .tc r)) = V (Proc.devRef .tc r) :=
  after_of_writes_sub _ V writes1 hr

attribute [local irreducible] Host.gather Host.scatterAdd Host.reduceAdd

set_option maxRecDepth 8192 in
set_option maxHeartbeats 1000000 in
theorem read1_v8 (V : Valuation τ sig (Elt Ideal)) :
    after (ops1 (F := Ideal)) V (no_index (Proc.devRef .tc main_v8)) = lin1 (V (Proc.devRef .tc main_v7)) (V (Proc.devRef .tc main_arg4)) := by
  unfold ops1
  after_results_simp
  rfl

end Cert.RefVal

end
-- ==== Proof.RefRead2.lean ====
/-
  Stretch 2 of the reference's line, read from ANY contents: what it leaves at the buffers the later stretches
  read, as a term of what it finds at the buffers it reads, and that it leaves every buffer it does not write as it was.
-/
import proofs.«171444_j1073741824178_1_alg».proof.Proof.RefOps
import proofs.«171444_j1073741824178_1_alg».proof.Proof.RefStages
import proofs.«171444_j1073741824178_1_alg».proof.Proof.RefKeep

noncomputable section

namespace Cert.RefVal

open Idealize.ShloMosaic Idealize.ShloMosaic.TcCoe Idealize.SL.Sem Idealize.ShloMosaic.StableHlo Cert.ReferenceIdeal
open Cert.ReferenceIdeal.Facts₀ Cert.ReferenceIdeal.Facts

/-- The buffers stretch 2 writes. -/
def wr2 : List (Ref sig .tc) :=
  [main_cst, main_v9, main_cst_0, main_v10, main_v11, main_v12, main_cst_1, main_v13,
   main_v14, main_v15, main_c, main_v16, main_v17, main_c_2, main_v18, main_v19,
   main_v20, main_v21, main_v22, main_c_3, main_v23, main_v24, main_c_4, main_v25,
   main_v26, main_v27, main_v28, main_v29, main_v30, main_c_5, main_v31, main_v32,
   main_c_6, main_v33, main_v34, main_v35, main_v36, main_v37, main_v38, main_v39,
   main_v40, main_cst_7, main_v41, main_v42, main_v43, main_v44, main_v45, main_v46,
   main_v47, main_v48, main_v49, main_v50, main_v51]

theorem writes2 : (ops2 (F := Ideal)).Forall fun op => op.writes ⊆ (wr2.map (Proc.devRef (τ := τ) .tc)).toFinset := by
  unfold ops2
  exact ⟨sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide)⟩

/-- Stretch 2 leaves a buffer it does not write as it was. -/
theorem keep2 (V : Valuation τ sig (Elt Ideal)) {r : Ref sig .tc} (hr : r ∉ wr2) :
    after (ops2 (F := Ideal)) V (no_index (Proc.devRef .tc r)) = V (Proc.devRef .tc r) :=
  after_of_writes_sub _ V writes2 hr

attribute [local irreducible] Host.gather Host.scatterAdd Host.reduceAdd

set_option maxRecDepth 8192 in
set_option maxHeartbeats 1000000 in
theorem read2_v51 (V : Valuation τ sig (Elt Ideal)) :
    after (ops2 (F := Ideal)) V (no_index (Proc.devRef .tc main_v51)) = convT (V (Proc.devRef .tc main_v8)) (V (Proc.devRef .tc main_v1)) (V (Proc.devRef .tc main_v3)) (V (Proc.devRef .tc main_arg5)) := by
  unfold ops2
  after_results_simp
  rfl

end Cert.RefVal

end
-- ==== Proof.RefRead3.lean ====
/-
  Stretch 3 of the reference's line, read from ANY contents: what it leaves at the buffers the later stretches
  read, as a term of what it finds at the buffers it reads, and that it leaves every buffer it does not write as it was.
-/
import proofs.«171444_j1073741824178_1_alg».proof.Proof.RefOps
import proofs.«171444_j1073741824178_1_alg».proof.Proof.RefStages
import proofs.«171444_j1073741824178_1_alg».proof.Proof.RefKeep

noncomputable section

namespace Cert.RefVal

open Idealize.ShloMosaic Idealize.ShloMosaic.TcCoe Idealize.SL.Sem Idealize.ShloMosaic.StableHlo Cert.ReferenceIdeal
open Cert.ReferenceIdeal.Facts₀ Cert.ReferenceIdeal.Facts

/-- The buffers stretch 3 writes. -/
def wr3 : List (Ref sig .tc) :=
  [main_cst_8, main_v52, main_cst_9, main_v53, main_v54, main_c_10, main_call0_cst, main_call0_v0,
   main_call0_v1, main_call0_cst_0, main_call0_v2, main_call0_v3, main_call0_v4, main_call0_v5, main_call0_v6, main_call0_v7,
   main_call0_cst_1, main_call0_v8, main_call0_cst_2, main_call0_v9, main_call0_v10, main_call0_v11, main_call0_cst_3, main_call0_v12,
   main_call0_cst_4, main_call0_call0_v0, main_call0_call0_v1, main_v55]

theorem writes3 : (ops3 (F := Ideal)).Forall fun op => op.writes ⊆ (wr3.map (Proc.devRef (τ := τ) .tc)).toFinset := by
  unfold ops3
  exact ⟨sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide)⟩

/-- Stretch 3 leaves a buffer it does not write as it was. -/
theorem keep3 (V : Valuation τ sig (Elt Ideal)) {r : Ref sig .tc} (hr : r ∉ wr3) :
    after (ops3 (F := Ideal)) V (no_index (Proc.devRef .tc r)) = V (Proc.devRef .tc r) :=
  after_of_writes_sub _ V writes3 hr

attribute [local irreducible] Host.gather Host.scatterAdd Host.reduceAdd

set_option maxRecDepth 8192 in
set_option maxHeartbeats 1000000 in
theorem read3_v54 (V : Valuation τ sig (Elt Ideal)) :
    after (ops3 (F := Ideal)) V (no_index (Proc.devRef .tc main_v54)) = meanT (V (Proc.devRef .tc main_v51)) := by
  unfold ops3
  after_results_simp
  rfl

set_option maxRecDepth 8192 in
set_option maxHeartbeats 1000000 in
theorem read3_v55 (V : Valuation τ sig (Elt Ideal)) :
    after (ops3 (F := Ideal)) V (no_index (Proc.devRef .tc main_v55)) = var (V (Proc.devRef .tc main_v51)) := by
  unfold ops3
  after_results_simp
  rfl

end Cert.RefVal

end
-- ==== Proof.RefRead4.lean ====
/-
  Stretch 4 of the reference's line, read from ANY contents: what it leaves at the buffers the later stretches
  read, as a term of what it finds at the buffers it reads, and that it leaves every buffer it does not write as it was.
-/
import proofs.«171444_j1073741824178_1_alg».proof.Proof.RefOps
import proofs.«171444_j1073741824178_1_alg».proof.Proof.RefStages
import proofs.«171444_j1073741824178_1_alg».proof.Proof.RefKeep

noncomputable section

namespace Cert.RefVal

open Idealize.ShloMosaic Idealize.ShloMosaic.TcCoe Idealize.SL.Sem Idealize.ShloMosaic.StableHlo Cert.ReferenceIdeal
open Cert.ReferenceIdeal.Facts₀ Cert.ReferenceIdeal.Facts

/-- The buffers stretch 4 writes. -/
def wr4 : List (Ref sig .tc) :=
  [main_v56, main_v57, main_v58, main_v59, main_v60, main_v61, main_cst_11, main_v62,
   main_v63, main_v64, main_v65, main_v66, main_v67, main_v68, main_v69, main_v70]

theorem writes4 : (ops4 (F := Ideal)).Forall fun op => op.writes ⊆ (wr4.map (Proc.devRef (τ := τ) .tc)).toFinset := by
  unfold ops4
  exact ⟨sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide)⟩

/-- Stretch 4 leaves a buffer it does not write as it was. -/
theorem keep4 (V : Valuation τ sig (Elt Ideal)) {r : Ref sig .tc} (hr : r ∉ wr4) :
    after (ops4 (F := Ideal)) V (no_index (Proc.devRef .tc r)) = V (Proc.devRef .tc r) :=
  after_of_writes_sub _ V writes4 hr

attribute [local irreducible] Host.gather Host.scatterAdd Host.reduceAdd

set_option maxRecDepth 8192 in
set_option maxHeartbeats 1000000 in
theorem read4_v70 (V : Valuation τ sig (Elt Ideal)) :
    after (ops4 (F := Ideal)) V (no_index (Proc.devRef .tc main_v70)) = bnT (V (Proc.devRef .tc main_v51)) (V (Proc.devRef .tc main_v54)) (V (Proc.devRef .tc main_v55)) (V (Proc.devRef .tc main_arg6)) (V (Proc.devRef .tc main_arg7)) := by
  unfold ops4
  after_results_simp
  rfl

end Cert.RefVal

end
-- ==== Proof.RefRead5.lean ====
/-
  Stretch 5 of the reference's line, read from ANY contents: what it leaves at the buffers the later stretches
  read, as a term of what it finds at the buffers it reads, and that it leaves every buffer it does not write as it was.
-/
import proofs.«171444_j1073741824178_1_alg».proof.Proof.RefOps
import proofs.«171444_j1073741824178_1_alg».proof.Proof.RefStages
import proofs.«171444_j1073741824178_1_alg».proof.Proof.RefKeep

noncomputable section

namespace Cert.RefVal

open Idealize.ShloMosaic Idealize.ShloMosaic.TcCoe Idealize.SL.Sem Idealize.ShloMosaic.StableHlo Cert.ReferenceIdeal
open Cert.ReferenceIdeal.Facts₀ Cert.ReferenceIdeal.Facts

/-- The buffers stretch 5 writes. -/
def wr5 : List (Ref sig .tc) :=
  [main_call1_cst, main_call1_v0, main_v71]

theorem writes5 : (ops5 (F := Ideal)).Forall fun op => op.writes ⊆ (wr5.map (Proc.devRef (τ := τ) .tc)).toFinset := by
  unfold ops5
  exact ⟨sing_sub (by decide), sing_sub (by decide), sing_sub (by decide)⟩

/-- Stretch 5 leaves a buffer it does not write as it was. -/
theorem keep5 (V : Valuation τ sig (Elt Ideal)) {r : Ref sig .tc} (hr : r ∉ wr5) :
    after (ops5 (F := Ideal)) V (no_index (Proc.devRef .tc r)) = V (Proc.devRef .tc r) :=
  after_of_writes_sub _ V writes5 hr

attribute [local irreducible] Host.gather Host.scatterAdd Host.reduceAdd

set_option maxRecDepth 8192 in
set_option maxHeartbeats 1000000 in
theorem read5_v71 (V : Valuation τ sig (Elt Ideal)) :
    after (ops5 (F := Ideal)) V (no_index (Proc.devRef .tc main_v71)) = relu (V (Proc.devRef .tc main_v70)) := by
  unfold ops5
  after_results_simp
  rfl

end Cert.RefVal

end
-- ==== Proof.RefRead6.lean ====
/-
  Stretch 6 of the reference's line, read from ANY contents: what it leaves at the buffers the later stretches
  read, as a term of what it finds at the buffers it reads, and that it leaves every buffer it does not write as it was.
-/
import proofs.«171444_j1073741824178_1_alg».proof.Proof.RefOps
import proofs.«171444_j1073741824178_1_alg».proof.Proof.RefStages
import proofs.«171444_j1073741824178_1_alg».proof.Proof.RefKeep

noncomputable section

namespace Cert.RefVal

open Idealize.ShloMosaic Idealize.ShloMosaic.TcCoe Idealize.SL.Sem Idealize.ShloMosaic.StableHlo Cert.ReferenceIdeal
open Cert.ReferenceIdeal.Facts₀ Cert.ReferenceIdeal.Facts

/-- The buffers stretch 6 writes. -/
def wr6 : List (Ref sig .tc) :=
  [main_v72]

theorem writes6 : (ops6 (F := Ideal)).Forall fun op => op.writes ⊆ (wr6.map (Proc.devRef (τ := τ) .tc)).toFinset := by
  unfold ops6
  exact sing_sub (by decide)

/-- Stretch 6 leaves a buffer it does not write as it was. -/
theorem keep6 (V : Valuation τ sig (Elt Ideal)) {r : Ref sig .tc} (hr : r ∉ wr6) :
    after (ops6 (F := Ideal)) V (no_index (Proc.devRef .tc r)) = V (Proc.devRef .tc r) :=
  after_of_writes_sub _ V writes6 hr

attribute [local irreducible] Host.gather Host.scatterAdd Host.reduceAdd

set_option maxRecDepth 8192 in
set_option maxHeartbeats 1000000 in
theorem read6_v72 (V : Valuation τ sig (Elt Ideal)) :
    after (ops6 (F := Ideal)) V (no_index (Proc.devRef .tc main_v72)) = lin2 (V (Proc.devRef .tc main_v71)) (V (Proc.devRef .tc main_arg8)) := by
  unfold ops6
  after_results_simp
  rfl

end Cert.RefVal

end
-- ==== Proof.RefRead7.lean ====
/-
  Stretch 7 of the reference's line, read from ANY contents: what it leaves at the buffers the later stretches
  read, as a term of what it finds at the buffers it reads, and that it leaves every buffer it does not write as it was.
-/
import proofs.«171444_j1073741824178_1_alg».proof.Proof.RefOps
import proofs.«171444_j1073741824178_1_alg».proof.Proof.RefStages
import proofs.«171444_j1073741824178_1_alg».proof.Proof.RefKeep

noncomputable section

namespace Cert.RefVal

open Idealize.ShloMosaic Idealize.ShloMosaic.TcCoe Idealize.SL.Sem Idealize.ShloMosaic.StableHlo Cert.ReferenceIdeal
open Cert.ReferenceIdeal.Facts₀ Cert.ReferenceIdeal.Facts

/-- The buffers stretch 7 writes. -/
def wr7 : List (Ref sig .tc) :=
  [main_cst_12, main_v73, main_cst_13, main_v74, main_v75, main_v76, main_cst_14, main_v77,
   main_v78, main_v79, main_c_15, main_v80, main_v81, main_c_16, main_v82, main_v83,
   main_v84, main_v85, main_v86, main_c_17, main_v87, main_v88, main_c_18, main_v89,
   main_v90, main_v91, main_v92, main_v93, main_v94, main_c_19, main_v95, main_v96,
   main_c_20, main_v97, main_v98, main_v99, main_v100, main_v101, main_v102, main_v103,
   main_v104, main_cst_21, main_v105, main_v106, main_v107, main_v108, main_v109, main_v110,
   main_v111, main_v112, main_v113, main_v114, main_v115]

theorem writes7 : (ops7 (F := Ideal)).Forall fun op => op.writes ⊆ (wr7.map (Proc.devRef (τ := τ) .tc)).toFinset := by
  unfold ops7
  exact ⟨sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide)⟩

/-- Stretch 7 leaves a buffer it does not write as it was. -/
theorem keep7 (V : Valuation τ sig (Elt Ideal)) {r : Ref sig .tc} (hr : r ∉ wr7) :
    after (ops7 (F := Ideal)) V (no_index (Proc.devRef .tc r)) = V (Proc.devRef .tc r) :=
  after_of_writes_sub _ V writes7 hr

attribute [local irreducible] Host.gather Host.scatterAdd Host.reduceAdd

set_option maxRecDepth 8192 in
set_option maxHeartbeats 1000000 in
theorem read7_v115 (V : Valuation τ sig (Elt Ideal)) :
    after (ops7 (F := Ideal)) V (no_index (Proc.devRef .tc main_v115)) = convT (V (Proc.devRef .tc main_v72)) (V (Proc.devRef .tc main_v1)) (V (Proc.devRef .tc main_v3)) (V (Proc.devRef .tc main_arg9)) := by
  unfold ops7
  after_results_simp
  rfl

end Cert.RefVal

end
-- ==== Proof.RefRead8.lean ====
/-
  Stretch 8 of the reference's line, read from ANY contents: what it leaves at the buffers the later stretches
  read, as a term of what it finds at the buffers it reads, and that it leaves every buffer it does not write as it was.
-/
import proofs.«171444_j1073741824178_1_alg».proof.Proof.RefOps
import proofs.«171444_j1073741824178_1_alg».proof.Proof.RefStages
import proofs.«171444_j1073741824178_1_alg».proof.Proof.RefKeep

noncomputable section

namespace Cert.RefVal

open Idealize.ShloMosaic Idealize.ShloMosaic.TcCoe Idealize.SL.Sem Idealize.ShloMosaic.StableHlo Cert.ReferenceIdeal
open Cert.ReferenceIdeal.Facts₀ Cert.ReferenceIdeal.Facts

/-- The buffers stretch 8 writes. -/
def wr8 : List (Ref sig .tc) :=
  [main_cst_22, main_v116, main_cst_23, main_v117, main_v118, main_c_24, main_call2_cst, main_call2_v0,
   main_call2_v1, main_call2_cst_0, main_call2_v2, main_call2_v3, main_call2_v4, main_call2_v5, main_call2_v6, main_call2_v7,
   main_call2_cst_1, main_call2_v8, main_call2_cst_2, main_call2_v9, main_call2_v10, main_call2_v11, main_call2_cst_3, main_call2_v12,
   main_call2_cst_4, main_call2_call0_v0, main_call2_call0_v1, main_v119]

theorem writes8 : (ops8 (F := Ideal)).Forall fun op => op.writes ⊆ (wr8.map (Proc.devRef (τ := τ) .tc)).toFinset := by
  unfold ops8
  exact ⟨sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide)⟩

/-- Stretch 8 leaves a buffer it does not write as it was. -/
theorem keep8 (V : Valuation τ sig (Elt Ideal)) {r : Ref sig .tc} (hr : r ∉ wr8) :
    after (ops8 (F := Ideal)) V (no_index (Proc.devRef .tc r)) = V (Proc.devRef .tc r) :=
  after_of_writes_sub _ V writes8 hr

attribute [local irreducible] Host.gather Host.scatterAdd Host.reduceAdd

set_option maxRecDepth 8192 in
set_option maxHeartbeats 1000000 in
theorem read8_v118 (V : Valuation τ sig (Elt Ideal)) :
    after (ops8 (F := Ideal)) V (no_index (Proc.devRef .tc main_v118)) = meanT (V (Proc.devRef .tc main_v115)) := by
  unfold ops8
  after_results_simp
  rfl

set_option maxRecDepth 8192 in
set_option maxHeartbeats 1000000 in
theorem read8_v119 (V : Valuation τ sig (Elt Ideal)) :
    after (ops8 (F := Ideal)) V (no_index (Proc.devRef .tc main_v119)) = var (V (Proc.devRef .tc main_v115)) := by
  unfold ops8
  after_results_simp
  rfl

end Cert.RefVal

end
-- ==== Proof.RefRead9.lean ====
/-
  Stretch 9 of the reference's line, read from ANY contents: what it leaves at the buffers the later stretches
  read, as a term of what it finds at the buffers it reads, and that it leaves every buffer it does not write as it was.
-/
import proofs.«171444_j1073741824178_1_alg».proof.Proof.RefOps
import proofs.«171444_j1073741824178_1_alg».proof.Proof.RefStages
import proofs.«171444_j1073741824178_1_alg».proof.Proof.RefKeep

noncomputable section

namespace Cert.RefVal

open Idealize.ShloMosaic Idealize.ShloMosaic.TcCoe Idealize.SL.Sem Idealize.ShloMosaic.StableHlo Cert.ReferenceIdeal
open Cert.ReferenceIdeal.Facts₀ Cert.ReferenceIdeal.Facts

/-- The buffers stretch 9 writes. -/
def wr9 : List (Ref sig .tc) :=
  [main_v120, main_v121, main_v122, main_v123, main_v124, main_v125, main_cst_25, main_v126,
   main_v127, main_v128, main_v129, main_v130, main_v131, main_v132, main_v133, main_v134]

theorem writes9 : (ops9 (F := Ideal)).Forall fun op => op.writes ⊆ (wr9.map (Proc.devRef (τ := τ) .tc)).toFinset := by
  unfold ops9
  exact ⟨sing_sub (by decide), sing_sub (by decide), sing_sub (by decide), sing_sub (by decide), sing_sub (by decide),
    sing_sub (by decide), sing_sub (by decide), sing_sub (by decide), sing_sub (by decide), sing_sub (by decide),
    sing_sub (by decide), sing_sub (by decide), sing_sub (by decide), sing_sub (by decide), sing_sub (by decide),
    sing_sub (by decide)⟩

/-- Stretch 9 leaves a buffer it does not write as it was. -/
theorem keep9 (V : Valuation τ sig (Elt Ideal)) {r : Ref sig .tc} (hr : r ∉ wr9) :
    after (ops9 (F := Ideal)) V (no_index (Proc.devRef .tc r)) = V (Proc.devRef .tc r) :=
  after_of_writes_sub _ V writes9 hr

attribute [local irreducible] Host.gather Host.scatterAdd Host.reduceAdd

set_option maxRecDepth 8192 in
set_option maxHeartbeats 1000000 in
theorem read9_v134 (V : Valuation τ sig (Elt Ideal)) :
    after (ops9 (F := Ideal)) V (no_index (Proc.devRef .tc main_v134)) = bnT (V (Proc.devRef .tc main_v115)) (V (Proc.devRef .tc main_v118)) (V (Proc.devRef .tc main_v119)) (V (Proc.devRef .tc main_arg10)) (V (Proc.devRef .tc main_arg11)) := by
  unfold ops9
  after_results_simp
  rfl

end Cert.RefVal

end
-- ==== Proof.RefRun.lean ====
/-
  The reference's run: its result is `out` of its arguments, and the arguments end unchanged.

  The line is run stretch by stretch (`after_append`): each stretch leaves its stage's value, as a term of what it
  found, at the buffer the next stretches read, and leaves the buffers it does not write as they were; so the last
  buffer ends at the composition of the stages over the launch contents of the arguments.
-/
import proofs.«171444_j1073741824178_1_alg».proof.Proof.RefRead0
import proofs.«171444_j1073741824178_1_alg».proof.Proof.RefRead1
import proofs.«171444_j1073741824178_1_alg».proof.Proof.RefRead2
import proofs.«171444_j1073741824178_1_alg».proof.Proof.RefRead3
import proofs.«171444_j1073741824178_1_alg».proof.Proof.RefRead4
import proofs.«171444_j1073741824178_1_alg».proof.Proof.RefRead5
import proofs.«171444_j1073741824178_1_alg».proof.Proof.RefRead6
import proofs.«171444_j1073741824178_1_alg».proof.Proof.RefRead7
import proofs.«171444_j1073741824178_1_alg».proof.Proof.RefRead8
import proofs.«171444_j1073741824178_1_alg».proof.Proof.RefRead9

noncomputable section

namespace Cert.RefVal

open Idealize.ShloMosaic Idealize.ShloMosaic.TcCoe Idealize.SL.Sem Idealize.ShloMosaic.StableHlo Cert.ReferenceIdeal
open Cert.ReferenceIdeal.Facts₀ Cert.ReferenceIdeal.Facts

/-- A buffer no stretch writes is left as it was by the whole line. -/
theorem keep_all (V : Valuation τ sig (Elt Ideal)) {r : Ref sig .tc}
    (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) :
    after (ops (F := Ideal)) V (Proc.devRef .tc r) = V (Proc.devRef .tc r) := by
  rw [ops_split]
  simp only [after_append]
  rw [keep9 _ h9, keep8 _ h8, keep7 _ h7, keep6 _ h6, keep5 _ h5, keep4 _ h4, keep3 _ h3, keep2 _ h2, keep1 _ h1, keep0 _ h0]

set_option maxRecDepth 8192 in
set_option maxHeartbeats 2000000 in
/-- The result buffer after the whole line: the stages composed over the arguments' contents. -/
theorem out_eq (V : Valuation τ sig (Elt Ideal)) :
    after (ops (F := Ideal)) V (Proc.devRef .tc main_v134)
      = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_split]
  simp only [after_append]
  simp (disch := decide) only [read0_v7, read0_v1, read0_v3, read1_v8, read2_v51, read3_v54, read3_v55, read4_v70, read5_v71, read6_v72, read7_v115, read8_v118, read8_v119, read9_v134,
    keep0, keep1, keep2, keep3, keep4, keep5, keep6, keep7, keep8, keep9]
  simp only [out, bn_eq, conv_eq]

/-- From any memory with zero counters, every weakly fair execution of the reference terminates with its result at
    `out` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v134) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v134).trans (out_eq (launchContents m c)),
      (h c main_arg0).trans (keep_all (launchContents m c) (by decide) (by decide) (by decide) (by decide) (by decide) (by decide) (by decide) (by decide) (by decide) (by decide)),
      (h c main_arg1).trans (keep_all (launchContents m c) (by decide) (by decide) (by decide) (by decide) (by decide) (by decide) (by decide) (by decide) (by decide) (by decide)),
      (h c main_arg2).trans (keep_all (launchContents m c) (by decide) (by decide) (by decide) (by decide) (by decide) (by decide) (by decide) (by decide) (by decide) (by decide)),
      (h c main_arg3).trans (keep_all (launchContents m c) (by decide) (by decide) (by decide) (by decide) (by decide) (by decide) (by decide) (by decide) (by decide) (by decide)),
      (h c main_arg4).trans (keep_all (launchContents m c) (by decide) (by decide) (by decide) (by decide) (by decide) (by decide) (by decide) (by decide) (by decide) (by decide)),
      (h c main_arg5).trans (keep_all (launchContents m c) (by decide) (by decide) (by decide) (by decide) (by decide) (by decide) (by decide) (by decide) (by decide) (by decide)),
      (h c main_arg6).trans (keep_all (launchContents m c) (by decide) (by decide) (by decide) (by decide) (by decide) (by decide) (by decide) (by decide) (by decide) (by decide)),
      (h c main_arg7).trans (keep_all (launchContents m c) (by decide) (by decide) (by decide) (by decide) (by decide) (by decide) (by decide) (by decide) (by decide) (by decide)),
      (h c main_arg8).trans (keep_all (launchContents m c) (by decide) (by decide) (by decide) (by decide) (by decide) (by decide) (by decide) (by decide) (by decide) (by decide)),
      (h c main_arg9).trans (keep_all (launchContents m c) (by decide) (by decide) (by decide) (by decide) (by decide) (by decide) (by decide) (by decide) (by decide) (by decide)),
      (h c main_arg10).trans (keep_all (launchContents m c) (by decide) (by decide) (by decide) (by decide) (by decide) (by decide) (by decide) (by decide) (by decide) (by decide)),
      (h c main_arg11).trans (keep_all (launchContents m c) (by decide) (by decide) (by decide) (by decide) (by decide) (by decide) (by decide) (by decide) (by decide) (by decide))⟩)
    (run_main m ρ)

end Cert.RefVal

end
-- ==== Proof.LibReals.lean ====
/-
  Arrays of extended reals every entry of which is a real number.  Finite sums, sums, differences, products and the
  positive part of real numbers are real, so the matrix product, the added row, the column sums, the column-wise scale
  and shift and the positive part of real arrays are real arrays; an array read at computed positions (a gather, a
  broadcast, a change of shape) is real when its operand is, and an array into which real updates are accumulated is
  real when it was.  Nonnegative reals are kept by accumulation, and the reciprocal square root of a positive real is
  a positive real.
-/
import proofs.«171444_j1073741824178_1_alg».proof.Proof.LibMatOps
import Idealize.ShloMosaic.PureOps.Ideal
import Idealize.ShloMosaic.PureOps.Ideal.Laws
import Idealize.ShloMosaic.Lib.ValueIdx
import Mathlib.Tactic

noncomputable section

open scoped BigOperators

namespace Cert.Spec

open Idealize.ShloMosaic Idealize.ShloMosaic.ValueIdx

/-- Every entry is a real number. -/
def IsReal {ι : Type*} (f : ι → EReal) : Prop := ∀ i, ∃ r : ℝ, f i = (r : EReal)

/-- Every entry is a nonnegative real number. -/
def IsNonneg {ι : Type*} (f : ι → EReal) : Prop := ∀ i, ∃ r : ℝ, 0 ≤ r ∧ f i = (r : EReal)

theorem IsNonneg.isReal {ι : Type*} {f : ι → EReal} (h : IsNonneg f) : IsReal f :=
  fun i => let ⟨r, _, hr⟩ := h i; ⟨r, hr⟩

/-! ## Single values -/

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

/-- A finite sum of nonnegative reals is a nonnegative real. -/
theorem nonneg_sum {ι : Type*} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by simp⟩
  | insert a s ha ih =>
    obtain ⟨r, hr0, hr⟩ := h a (Finset.mem_insert_self a s)
    obtain ⟨q, hq0, hq⟩ := ih fun i hi => h i (Finset.mem_insert_of_mem hi)
    exact ⟨r + q, add_nonneg hr0 hq0, by rw [Finset.sum_insert ha, hr, hq, EReal.coe_add]⟩

theorem real_add {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add r q).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨q, rfl⟩ := hb; exact ⟨r - q, (EReal.coe_sub r q).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩

theorem real_max_zero {a : EReal} (ha : ∃ r : ℝ, a = (r : EReal)) : ∃ r : ℝ, max a 0 = (r : EReal) := by
  obtain ⟨r, rfl⟩ := ha
  rcases le_total r 0 with h | h
  · exact ⟨0, by rw [max_eq_right (EReal.coe_nonpos.mpr h), EReal.coe_zero]⟩
  · exact ⟨r, max_eq_left (EReal.coe_nonneg.mpr h)⟩

/-- Division of a real by a nonzero real is real. -/
theorem real_div {a : EReal} (ha : ∃ r : ℝ, a = (r : EReal)) {y : ℝ} (hy : y ≠ 0) :
    ∃ r : ℝ, Ideal.div a (y : EReal) = (r : EReal) := by
  obtain ⟨r, rfl⟩ := ha
  exact ⟨r * (1 / y), by rw [Ideal.div_coe hy, EReal.coe_mul]⟩

/-- Division of a real by a nonzero real is the real quotient. -/
theorem div_coe_real (x : ℝ) {y : ℝ} (h : y ≠ 0) : Ideal.div (x : EReal) (y : EReal) = ((x / y : ℝ) : EReal) := by
  rw [Ideal.div_coe h, ← EReal.coe_mul]; congr 1; field_simp

/-- The reciprocal square root of a positive real is a positive real. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem pos_rsqrt {a : EReal} (ha : ∃ r : ℝ, 0 < r ∧ a = (r : EReal)) :
    ∃ q : ℝ, 0 < q ∧ Ideal.rsqrt a = (q : EReal) := by
  obtain ⟨r, hr, rfl⟩ := ha
  exact ⟨(Real.sqrt r)⁻¹, inv_pos.mpr (Real.sqrt_pos.mpr hr), rsqrt_pos hr⟩

/-! ## The float words the programs spell, as the reals their bit patterns denote -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

/-- 100000.0, the number of rows. -/
theorem ofBits_count : Ideal.ofBits .f32 0x47C35000#32 = ((100000 : ℝ) : EReal) := by
  simp [Ideal.ofBits, Ideal.ieee, -EReal.coe_mul]; norm_num

/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-! ## Arrays, entry by entry -/

section Pointwise
variable {ι : Type*} {f g : ι → EReal}

theorem IsReal.const {ι : Type*} (r : ℝ) : IsReal (fun _ : ι => (r : EReal)) := fun _ => ⟨r, rfl⟩

theorem IsReal.add (hf : IsReal f) (hg : IsReal g) : IsReal (fun i => f i + g i) := fun i => real_add (hf i) (hg i)

theorem IsReal.sub (hf : IsReal f) (hg : IsReal g) : IsReal (fun i => f i - g i) := fun i => real_sub (hf i) (hg i)

theorem IsReal.mul (hf : IsReal f) (hg : IsReal g) : IsReal (fun i => f i * g i) := fun i => real_mul (hf i) (hg i)

theorem IsReal.max_zero (hf : IsReal f) : IsReal (fun i => max (f i) 0) := fun i => real_max_zero (hf i)

theorem IsReal.div_real (hf : IsReal f) {y : ℝ} (hy : y ≠ 0) : IsReal (fun i => Ideal.div (f i) (y : EReal)) :=
  fun i => real_div (hf i) hy

/-- An array read at computed positions is real when the array is. -/
theorem IsReal.comp {κ : Type*} (hf : IsReal f) (e : κ → ι) : IsReal (fun j => f (e j)) := fun j => hf (e j)

end Pointwise

/-! ## The vocabulary's operations -/

section SpecOps
variable {n k d : ℕ}

theorem IsReal.mm {X : Mat n k} {W : Mat k d} (hX : IsReal X) (hW : IsReal W) : IsReal (mm X W) :=
  fun _ => real_sum _ _ fun _ _ => real_mul (hX _) (hW _)

theorem IsReal.addRow {Y : Mat n d} {B : Mat 1 d} (hY : IsReal Y) (hB : IsReal B) : IsReal (addRow Y B) :=
  fun _ => real_add (hY _) (hB _)

theorem IsReal.colSum {X : Mat n d} (hX : IsReal X) : IsReal (colSum X) :=
  fun _ => real_sum _ _ fun _ _ => hX _

theorem IsReal.colSumSq {X : Mat n d} (hX : IsReal X) : IsReal (colSumSq X) :=
  fun _ => real_sum _ _ fun _ _ => real_mul (hX _) (hX _)

theorem IsReal.affine {X : Mat n d} {S T : Mat 1 d} (hX : IsReal X) (hS : IsReal S) (hT : IsReal T) :
    IsReal (affine X S T) :=
  fun _ => real_add (real_mul (hX _) (hS _)) (hT _)

theorem IsReal.relu {Y : Mat n d} (hY : IsReal Y) : IsReal (relu Y) := fun _ => real_max_zero (hY _)

end SpecOps

/-! ## The host's operations -/

section HostOps
variable {s si t u : Shape} {w : ℕ} {φ : FTy}

/-- A gather reads its operand at a computed index. -/
theorem IsReal.gather (D : GatherDims s si t) {x : s.Idx → EReal} (hx : IsReal x) (idx : IVec si w) :
    IsReal (Host.gather D x idx) := fun _ => hx _

/-- Accumulating real updates into a real array leaves it real. -/
theorem IsReal.scatterAdd (D : ScatterDims s si u) {x : FVec Ideal s φ} {upd : FVec Ideal u φ} (hx : IsReal x)
    (hupd : IsReal upd) (idx : IVec si w) : IsReal (Host.scatterAdd D x idx upd) := by
  intro i
  show ∃ r : ℝ, x i + ∑ j ∈ Finset.univ.filter (fun j => D.resultIdx? j idx = some i), upd j = (r : EReal)
  exact real_add (hx i) (real_sum _ _ fun j _ => hupd j)

/-- Accumulating nonnegative real updates into a nonnegative real array leaves it a nonnegative real array. -/
theorem IsNonneg.scatterAdd (D : ScatterDims s si u) {x : FVec Ideal s φ} {upd : FVec Ideal u φ} (hx : IsNonneg x)
    (hupd : IsNonneg upd) (idx : IVec si w) : IsNonneg (Host.scatterAdd D x idx upd) := by
  intro i
  show ∃ r : ℝ, 0 ≤ r ∧
    x i + ∑ j ∈ Finset.univ.filter (fun j => D.resultIdx? j idx = some i), upd j = (r : EReal)
  obtain ⟨r, hr0, hr⟩ := hx i
  obtain ⟨q, hq0, hq⟩ := nonneg_sum (Finset.univ.filter (fun j => D.resultIdx? j idx = some i)) upd fun j _ => hupd j
  exact ⟨r + q, add_nonneg hr0 hq0, by rw [hr, hq, EReal.coe_add]⟩

/-- One more than a nonnegative real has a positive real reciprocal square root: the degree scale. -/
theorem IsNonneg.rsqrt_add_one {ι : Type*} {f : ι → EReal} (hf : IsNonneg f) :
    ∀ i, ∃ q : ℝ, 0 < q ∧ Ideal.rsqrt (f i + ((1 : ℝ) : EReal)) = (q : EReal) := by
  intro i
  obtain ⟨r, hr0, hr⟩ := hf i
  exact pos_rsqrt ⟨r + 1, by linarith, by rw [hr, EReal.coe_add]⟩

theorem IsReal.broadcastInDim (t : Shape) (dims : Fin s.rank → Fin t.rank) (h : s.BroadcastsInDim t dims)
    {x : s.Idx → EReal} (hx : IsReal x) : IsReal (broadcastInDim t dims h x) := fun _ => hx _

theorem IsReal.broadcastTo (t : Shape) {x : s.Idx → EReal} (hx : IsReal x) (h : s.Broadcasts t) :
    IsReal (broadcastTo t x h) := fun _ => hx _

theorem IsReal.shapeCast (t : Shape) {x : s.Idx → EReal} (hx : IsReal x) (h : s.ShapeCasts t) :
    IsReal (shapeCast t x h) := fun _ => hx _

theorem IsReal.extractStridedSlice (t : Shape) (off : Fin s.rank → ℕ) {x : s.Idx → EReal} (hx : IsReal x)
    (h : s.Slices off t) : IsReal (extractStridedSlice t off x h) := fun _ => hx _

end HostOps

end Cert.Spec

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.BridgeDense.lean ====
/-
  The dense layers, in the two programs' spellings.

  One program writes a dense layer as a matrix product entry by entry with one row added to every row; the other as
  a contraction of the second axis of the input against the first axis of the weights, plus the bias array made a row
  and repeated down the rows.  Entry (p, j) of either is the sum over q of x (p, q) · w (q, j), plus the bias at j.
  Where the first spelling adds a row of zeros and the second adds nothing, the two agree because x + 0 = x for every
  extended real.  Real inputs give real outputs.
-/
import proofs.«171444_j1073741824178_1_alg».proof.Proof.KDefs
import proofs.«171444_j1073741824178_1_alg».proof.Proof.RefDefs
import proofs.«171444_j1073741824178_1_alg».proof.Proof.LibPlainDot
import proofs.«171444_j1073741824178_1_alg».proof.Proof.LibLayout
import proofs.«171444_j1073741824178_1_alg».proof.Proof.LibReals
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Cert.KernelIdeal Idealize.ShloMosaic Idealize.ShloMosaic.ValueIdx

/-- The row of zeros is 0 at every entry. -/
theorem zrow_apply (u : Fin 1) (j : Fin 128) : Cert.KerVal.zrow (ix2 u j) = 0 := by
  unfold Cert.KerVal.zrow Cert.KerVal.row
  rw [shapeCast_a_1a_apply]
  refine (broadcastInDim_apply _ _ _ (ix1 j) (fun a => a.elim0) (fun a => a.elim0)).trans ?_
  exact Ideal.ofBits_zero_f32

/-- A length-256 array made a row is the array, entry by entry. -/
theorem row256_apply (a3 : FVec Ideal S256 .f32) (u : Fin 1) (j : Fin 256) : Cert.KerVal.row256 a3 (ix2 u j) = a3 (ix1 j) := by
  unfold Cert.KerVal.row256
  rw [shapeCast_a_1a_apply]

/-- The input projection: both spellings are, at (p, j), the sum over q of a0 (p, q) · a2 (q, j), plus a3 at j. -/
theorem proj_eq (a0 : FVec Ideal S100000x256 .f32) (a2 : FVec Ideal S256x256 .f32) (a3 : FVec Ideal S256 .f32) :
    Cert.KerVal.proj a0 a2 a3 = Cert.RefVal.proj a0 a2 a3 := by
  funext i
  obtain ⟨p, j, rfl⟩ : ∃ (p : Fin 100000) (j : Fin 256), i = ix2 p j := ⟨i 0, i 1, eq_ix2 i⟩
  unfold Cert.KerVal.proj Cert.RefVal.proj
  rw [Cert.Spec.addRow_apply, Cert.Spec.mm_apply, row256_apply, addf_apply]
  unfold Host.dotGeneral
  rw [Cert.LibPlainDot.dotGeneral_apply Cert.ReferenceIdeal.dot_S100000x256_S256x256_S100000x256_1_0_0_1_n_n rfl,
    Cert.LibLayout.broadcastInDim_1b_ab_apply, Cert.LibLayout.broadcastInDim_a_1a_apply]

/-- The first dense layer: the added row of zeros changes nothing. -/
theorem lin1_eq (x : FVec Ideal S100000x256 .f32) (w : FVec Ideal S256x128 .f32) : Cert.KerVal.lin1 x w = Cert.RefVal.lin1 x w := by
  funext i
  obtain ⟨p, j, rfl⟩ : ∃ (p : Fin 100000) (j : Fin 128), i = ix2 p j := ⟨i 0, i 1, eq_ix2 i⟩
  unfold Cert.KerVal.lin1 Cert.RefVal.lin1
  rw [Cert.Spec.addRow_apply, Cert.Spec.mm_apply, zrow_apply, add_zero]
  unfold Host.dotGeneral
  rw [Cert.LibPlainDot.dotGeneral_apply Cert.ReferenceIdeal.dot_S100000x256_S256x128_S100000x128_1_0_0_1_n_n rfl]

/-- The second dense layer: the added row of zeros changes nothing. -/
theorem lin2_eq (x : FVec Ideal S100000x128 .f32) (w : FVec Ideal S128x128 .f32) : Cert.KerVal.lin2 x w = Cert.RefVal.lin2 x w := by
  funext i
  obtain ⟨p, j, rfl⟩ : ∃ (p : Fin 100000) (j : Fin 128), i = ix2 p j := ⟨i 0, i 1, eq_ix2 i⟩
  unfold Cert.KerVal.lin2 Cert.RefVal.lin2
  rw [Cert.Spec.addRow_apply, Cert.Spec.mm_apply, zrow_apply, add_zero]
  unfold Host.dotGeneral
  rw [Cert.LibPlainDot.dotGeneral_apply Cert.ReferenceIdeal.dot_S100000x128_S128x128_S100000x128_1_0_0_1_n_n rfl]

/-- The row of zeros is a row of reals. -/
theorem zrow_isReal : Cert.Spec.IsReal Cert.KerVal.zrow := fun i => by
  obtain ⟨u, j, rfl⟩ : ∃ (u : Fin 1) (j : Fin 128), i = ix2 u j := ⟨i 0, i 1, eq_ix2 i⟩
  exact ⟨0, by rw [zrow_apply, EReal.coe_zero]⟩

section Real
variable {a0 x : FVec Ideal S100000x256 .f32} {a2 : FVec Ideal S256x256 .f32} {a3 : FVec Ideal S256 .f32}
  {w : FVec Ideal S256x128 .f32} {x' : FVec Ideal S100000x128 .f32} {w' : FVec Ideal S128x128 .f32}

theorem proj_isReal (ha0 : Cert.Spec.IsReal a0) (ha2 : Cert.Spec.IsReal a2) (ha3 : Cert.Spec.IsReal a3) :
    Cert.Spec.IsReal (Cert.KerVal.proj a0 a2 a3) :=
  Cert.Spec.IsReal.addRow (Cert.Spec.IsReal.mm ha0 ha2) (fun _ => ha3 _)

theorem lin1_isReal (hx : Cert.Spec.IsReal x) (hw : Cert.Spec.IsReal w) : Cert.Spec.IsReal (Cert.KerVal.lin1 x w) :=
  Cert.Spec.IsReal.addRow (Cert.Spec.IsReal.mm hx hw) zrow_isReal

theorem lin2_isReal (hx : Cert.Spec.IsReal x') (hw : Cert.Spec.IsReal w') : Cert.Spec.IsReal (Cert.KerVal.lin2 x' w') :=
  Cert.Spec.IsReal.addRow (Cert.Spec.IsReal.mm hx hw) zrow_isReal

end Real

end Cert.Bridge

end
-- ==== Proof.BridgeConv.lean ====
/-
  The graph convolution, read two ways.

  One program spells the convolution through named pieces (the edges' source and destination words, a node's inverse
  square root of its degree, an edge's weight, a node's own weight), the other as one composed term; the two are the
  same tree of the same operations on the same operands, except that the bias enters once as a length-128 array
  recast as a row and once as the array broadcast along a new leading axis — the same row, entry by entry.
  Over real features and a real bias the convolution is real: a degree is one plus a count of edges, so its inverse
  square root is a positive real; the weights are products of these; and sums and products of reals are real.
-/
import proofs.«171444_j1073741824178_1_alg».proof.Proof.KDefs
import proofs.«171444_j1073741824178_1_alg».proof.Proof.RefDefs
import proofs.«171444_j1073741824178_1_alg».proof.Proof.LibReals
import Idealize.ShloMosaic.Lib.Pipeline.Value
import Idealize.ShloMosaic.Lib.ValueLayout
import Idealize.ShloMosaic.Lib.ValueIdx

noncomputable section

open Idealize.ShloMosaic Idealize.ShloMosaic.ValueIdx
open scoped BigOperators

namespace Cert.Bridge

open Cert.Spec

/-- A length-128 array as one row, read either as a change of shape or as a broadcast along a new leading axis:
    both read entry j of the array at (0, j). -/
theorem row_eq (b : FVec Ideal Cert.KernelIdeal.S128 .f32) :
    Cert.KerVal.row b
      = broadcastInDim Cert.ReferenceIdeal.S1x128 ![1] Cert.ReferenceIdeal.Facts₀.bcast_S128_S1x128_1 b := by
  funext i
  obtain ⟨u, j, rfl⟩ : ∃ (u : Fin 1) (j : Fin 128), i = ix2 u j := ⟨i 0, i 1, eq_ix2 i⟩
  unfold Cert.KerVal.row
  refine (shapeCast_a_1a_apply b _ u j).trans ?_
  refine (broadcastInDim_apply _ _ b (ix2 u j) (ix1 j) fun a => ?_).symm
  match a with
  | ⟨0, _⟩ => rfl

set_option maxHeartbeats 200000 in
/-- The two programs' graph convolutions are one tree of the same operations on the same operands, but for the
    way the bias is laid out as a row. -/
theorem conv_eq (h : FVec Ideal Cert.KernelIdeal.S100000x128 .f32) (e : IVec Cert.KernelIdeal.S2x1600000 32)
    (b : FVec Ideal Cert.KernelIdeal.S128 .f32) : Cert.KerVal.conv h e b = Cert.RefVal.conv h e b := by
  unfold Cert.KerVal.conv Cert.KerVal.convW Cert.RefVal.conv
  rw [row_eq]
  unfold Cert.KerVal.norm Cert.KerVal.selfn Cert.KerVal.dinv Cert.KerVal.wrapCol Cert.KerVal.col Cert.KerVal.src Cert.KerVal.dst
  rfl

/-- Sums and products of real arrays, entry by entry, are real arrays. -/
theorem isReal_addf {s : Shape} {φ : FTy} {x y : FVec Ideal s φ} (hx : IsReal x) (hy : IsReal y) : IsReal (addf x y) :=
  fun i => real_add (hx i) (hy i)
theorem isReal_mulf {s : Shape} {φ : FTy} {x y : FVec Ideal s φ} (hx : IsReal x) (hy : IsReal y) : IsReal (mulf x y) :=
  fun i => real_mul (hx i) (hy i)

/-- The array of zeros is real. -/
theorem isReal_zeros {s : Shape} (hs : Cert.KernelIdeal.S_.BroadcastsInDim s ![]) :
    IsReal (broadcastInDim s ![] hs (constant (F := Ideal) Cert.KernelIdeal.S_ .f32 0x00000000#32)) :=
  fun _ => ⟨0, ofBits_zero.trans EReal.coe_zero.symm⟩

/-- The inverse square root of a sum, at an entry. -/
theorem rsqrt_add_apply {s : Shape} (x y : FVec Ideal s .f32) (i : s.Idx) :
    Host.rsqrt (F := Ideal) (addf x y) i = Ideal.rsqrt (x i + y i) := rfl

/-- An array every entry of which is one word reads that word's value at every entry. -/
theorem splat_apply {s : Shape} (hs : Cert.KernelIdeal.S_.BroadcastsInDim s ![]) (w : BitVec 32) (i : s.Idx) :
    broadcastInDim s ![] hs (constant (F := Ideal) Cert.KernelIdeal.S_ .f32 w) i = Ideal.ofBits .f32 w := rfl

set_option maxHeartbeats 100000 in
/-- A node's degree is one plus a count of edges, a real number at least one, so its inverse square root is a
    positive real. -/
theorem dinv_pos (e : IVec Cert.KernelIdeal.S2x1600000 32) (i : Cert.KernelIdeal.S100000.Idx) :
    ∃ q : ℝ, 0 < q ∧ Cert.KerVal.dinv e i = (q : EReal) := by
  have hz : IsNonneg (broadcastInDim Cert.KernelIdeal.S100000 ![] Cert.KernelIdeal.Facts₀.bcast_S_S100000
      (constant (F := Ideal) Cert.KernelIdeal.S_ .f32 0x00000000#32)) :=
    fun _ => ⟨0, le_refl 0, ofBits_zero.trans EReal.coe_zero.symm⟩
  have ho : IsNonneg (broadcastInDim Cert.KernelIdeal.S1600000 ![] Cert.KernelIdeal.Facts₀.bcast_S_S1600000
      (constant (F := Ideal) Cert.KernelIdeal.S_ .f32 0x3F800000#32)) :=
    fun _ => ⟨1, zero_le_one, ofBits_one⟩
  have key := IsNonneg.rsqrt_add_one
    (IsNonneg.scatterAdd (φ := .f32) Cert.KernelIdeal.scatter_S100000_S1600000x1_S1600000_n_0_0_1 hz ho
      (Cert.KerVal.col (Cert.KerVal.dst e))) i
  unfold Cert.KerVal.dinv
  rw [rsqrt_add_apply, splat_apply, ofBits_one]
  exact key

theorem dinv_isReal (e : IVec Cert.KernelIdeal.S2x1600000 32) : IsReal (Cert.KerVal.dinv e) :=
  fun i => let ⟨q, _, hq⟩ := dinv_pos e i; ⟨q, hq⟩

set_option maxHeartbeats 200000 in
/-- The graph convolution of a real array with a real bias is a real array: the weights are products of real
    inverse square roots, the edge sum accumulates real products into zeros, and the own term and the bias are real. -/
theorem conv_isReal (h : FVec Ideal Cert.KernelIdeal.S100000x128 .f32) (hh : IsReal h)
    (e : IVec Cert.KernelIdeal.S2x1600000 32) (b : FVec Ideal Cert.KernelIdeal.S128 .f32) (hb : IsReal b) :
    IsReal (Cert.KerVal.conv h e b) := by
  have hd := dinv_isReal e
  have hn : IsReal (Cert.KerVal.norm e) := by
    unfold Cert.KerVal.norm
    exact isReal_mulf (φ := .f32) (IsReal.gather _ hd _) (IsReal.gather _ hd _)
  have hs : IsReal (Cert.KerVal.selfn e) := by
    unfold Cert.KerVal.selfn
    exact isReal_mulf (φ := .f32) hd hd
  have hr : IsReal (Cert.KerVal.row b) := fun i => hb _
  unfold Cert.KerVal.conv Cert.KerVal.convW
  refine isReal_addf (isReal_addf ?_ ?_) ?_
  · refine IsReal.scatterAdd (φ := .f32) _ (isReal_zeros _) ?_ _
    exact isReal_mulf (IsReal.gather _ hh _) (IsReal.broadcastInDim _ _ _ (IsReal.broadcastInDim _ _ _ hn))
  · exact isReal_mulf hh (IsReal.broadcastInDim _ _ _ (IsReal.broadcastInDim _ _ _ hs))
  · exact IsReal.broadcastInDim _ _ _ hr

end Cert.Bridge

end
-- ==== Proof.LibBatchNorm.lean ====
/-
  The normalisation of a column, two ways.  With μ the mean of the column, the mean of the squared deviations from μ
  is the mean of the squares less μ², so it is nonnegative, and adding a positive ε makes it positive; hence the
  column scaled by s = γ · r and shifted by β − μ · s, where r is the reciprocal square root of (mean of squares −
  μ² + ε), is γ · (x − μ) · r' + β with r' the reciprocal square root of (mean squared deviation + ε).  First over the
  reals, then over the extended reals for a column all of whose entries are real, in the operations' own spelling.
-/
import proofs.«171444_j1073741824178_1_alg».proof.Proof.LibReals

noncomputable section

open scoped BigOperators

namespace Cert.Spec

open Idealize.ShloMosaic Idealize.ShloMosaic.ValueIdx

/-! ## Over the reals -/

section OverReals
variable {n : ℕ}

/-- The mean squared deviation from the mean is the mean of the squares less the square of the mean. -/
theorem real_var_eq (hn : 0 < n) (x : Fin n → ℝ) {μ : ℝ} (hμ : μ = (∑ q, x q) / (n : ℝ)) :
    (∑ p, (x p - μ) * (x p - μ)) / (n : ℝ) = (∑ p, x p * x p) / (n : ℝ) - μ * μ := by
  have hN : (n : ℝ) ≠ 0 := Nat.cast_ne_zero.mpr hn.ne'
  have hsum : ∑ q, x q = (n : ℝ) * μ := by rw [hμ]; field_simp
  have h1 : ∀ p, (x p - μ) * (x p - μ) = x p * x p - 2 * μ * x p + μ * μ := fun p => by ring
  simp only [h1]
  rw [Finset.sum_add_distrib, Finset.sum_sub_distrib, ← Finset.mul_sum, Finset.sum_const, Finset.card_univ,
    Fintype.card_fin, nsmul_eq_mul, hsum]
  field_simp
  ring

/-- A mean of squares is nonnegative. -/
theorem real_var_nonneg (x : Fin n → ℝ) (m : ℝ) : 0 ≤ (∑ p, (x p - m) * (x p - m)) / (n : ℝ) :=
  div_nonneg (Finset.sum_nonneg fun p _ => mul_self_nonneg _) (Nat.cast_nonneg n)

/-- Scale by γ · r and shift by β − μ · (γ · r): the same as γ · (x − μ) · r + β. -/
theorem real_affine_eq (x μ γ β r : ℝ) : x * (γ * r) + (β - μ * (γ * r)) = γ * (x - μ) * r + β := by ring

end OverReals

/-! ## Over the extended reals, one column -/

/-- One column x of n > 0 real entries, a real scale γ and shift β, N the real n and E a positive real: the column
    scaled by s and shifted by t — s and t computed from the sums of the entries and of their squares — is, entry by
    entry, γ · (x − m) · rsqrt (v + E) + β with m the mean and v the mean squared deviation; and it is real. -/
theorem batchNorm_col {n : ℕ} (hn : 0 < n) {x : Fin n → EReal} (hx : IsReal x) {g b : EReal}
    (hg : ∃ r : ℝ, g = (r : EReal)) (hb : ∃ r : ℝ, b = (r : EReal)) {N E : EReal} {ε : ℝ}
    (hN : N = ((n : ℝ) : EReal)) (hε : 0 < ε) (hE : E = (ε : EReal)) {s t m v : EReal}
    (hs : s = g * Ideal.rsqrt (Ideal.div (∑ p, x p * x p) N - Ideal.div (∑ p, x p) N * Ideal.div (∑ p, x p) N + E))
    (ht : t = b - Ideal.div (∑ p, x p) N * s)
    (hm : m = Ideal.div (∑ p, x p) N)
    (hv : v = Ideal.div (∑ p, (x p - m) * (x p - m)) N) (p : Fin n) :
    x p * s + t = g * (x p - m) * Ideal.rsqrt (v + E) + b ∧ ∃ r : ℝ, x p * s + t = (r : EReal) := by
  classical
  choose y hy using hx
  obtain ⟨γ, rfl⟩ := hg
  obtain ⟨β, rfl⟩ := hb
  have hn0 : (n : ℝ) ≠ 0 := Nat.cast_ne_zero.mpr hn.ne'
  have hS1 : ∑ p, x p = ((∑ p, y p : ℝ) : EReal) := by
    rw [coe_sum]; exact Finset.sum_congr rfl fun p _ => hy p
  have hS2 : ∑ p, x p * x p = ((∑ p, y p * y p : ℝ) : EReal) := by
    rw [coe_sum]; exact Finset.sum_congr rfl fun p _ => by rw [hy p, EReal.coe_mul]
  obtain ⟨μ, hμ⟩ : ∃ μ : ℝ, μ = (∑ p, y p) / (n : ℝ) := ⟨_, rfl⟩
  have hD1 : Ideal.div (∑ p, x p) N = (μ : EReal) := by rw [hS1, hN, div_coe_real _ hn0, ← hμ]
  have hm' : m = (μ : EReal) := hm.trans hD1
  have hS3 : ∑ p, (x p - m) * (x p - m) = ((∑ p, (y p - μ) * (y p - μ) : ℝ) : EReal) := by
    rw [coe_sum]
    exact Finset.sum_congr rfl fun p _ => by rw [hy p, hm', ← EReal.coe_sub, ← EReal.coe_mul]
  obtain ⟨var, hvar⟩ : ∃ var : ℝ, var = (∑ p, (y p - μ) * (y p - μ)) / (n : ℝ) := ⟨_, rfl⟩
  have hv' : v = (var : EReal) := by rw [hv, hS3, hN, div_coe_real _ hn0, ← hvar]
  have hvar2 : var = (∑ p, y p * y p) / (n : ℝ) - μ * μ := hvar.trans (real_var_eq hn y hμ)
  have hpos : 0 < var + ε := add_pos_of_nonneg_of_pos (hvar ▸ real_var_nonneg y μ) hε
  obtain ⟨r, hr⟩ : ∃ r : ℝ, r = (Real.sqrt (var + ε))⁻¹ := ⟨_, rfl⟩
  have hR1 : Ideal.rsqrt (v + E) = (r : EReal) := by rw [hv', hE, ← EReal.coe_add, rsqrt_pos hpos, ← hr]
  have hR2 : Ideal.rsqrt (Ideal.div (∑ p, x p * x p) N - Ideal.div (∑ p, x p) N * Ideal.div (∑ p, x p) N + E)
      = (r : EReal) := by
    rw [hD1, hS2, hN, div_coe_real _ hn0, hE, ← EReal.coe_mul, ← EReal.coe_sub, ← EReal.coe_add, ← hvar2,
      rsqrt_pos hpos, ← hr]
  have hs' : s = ((γ * r : ℝ) : EReal) := by rw [hs, hR2, ← EReal.coe_mul]
  have ht' : t = ((β - μ * (γ * r) : ℝ) : EReal) := by rw [ht, hD1, hs', ← EReal.coe_mul, ← EReal.coe_sub]
  have hval : x p * s + t = ((γ * (y p - μ) * r + β : ℝ) : EReal) := by
    rw [hy p, hs', ht', ← EReal.coe_mul, ← EReal.coe_add, real_affine_eq]
  refine ⟨?_, _, hval⟩
  rw [hval, hy p, hm', hR1, ← EReal.coe_sub, ← EReal.coe_mul, ← EReal.coe_mul, ← EReal.coe_add]

/-! ## In the vocabulary: an n × d array, column j -/

section InVocabulary
variable {n d : ℕ}

/-- The array X scaled and shifted column by column by the rows S and T, at (p, j), when S and T at column j are the
    scale and shift computed from the column sums of X and of its squares: γ · (X (p, j) − m) · rsqrt (v + E) + β
    with m the column's mean and v its mean squared deviation. -/
theorem affine_batchNorm (hn : 0 < n) {X : Mat n d} (hX : IsReal X) {S T : Mat 1 d} (j : Fin d) {g b : EReal}
    (hg : ∃ r : ℝ, g = (r : EReal)) (hb : ∃ r : ℝ, b = (r : EReal)) {N E : EReal} {ε : ℝ}
    (hN : N = ((n : ℝ) : EReal)) (hε : 0 < ε) (hE : E = (ε : EReal)) {m v : EReal}
    (hS : S (ix2 (0 : Fin 1) j) = g * Ideal.rsqrt (Ideal.div (colSumSq X (ix2 (0 : Fin 1) j)) N
      - Ideal.div (colSum X (ix2 (0 : Fin 1) j)) N * Ideal.div (colSum X (ix2 (0 : Fin 1) j)) N + E))
    (hT : T (ix2 (0 : Fin 1) j) = b - Ideal.div (colSum X (ix2 (0 : Fin 1) j)) N * S (ix2 (0 : Fin 1) j))
    (hM : m = Ideal.div (∑ p : Fin n, X (ix2 p j)) N)
    (hV : v = Ideal.div (∑ p : Fin n, (X (ix2 p j) - m) * (X (ix2 p j) - m)) N) (p : Fin n) :
    affine X S T (ix2 p j) = g * (X (ix2 p j) - m) * Ideal.rsqrt (v + E) + b :=
  (batchNorm_col hn (x := fun p => X (ix2 p j)) (fun p => hX _) hg hb hN hε hE hS hT hM hV p).1

/-- And that entry is real. -/
theorem affine_batchNorm_real (hn : 0 < n) {X : Mat n d} (hX : IsReal X) {S T : Mat 1 d} (j : Fin d) {g b : EReal}
    (hg : ∃ r : ℝ, g = (r : EReal)) (hb : ∃ r : ℝ, b = (r : EReal)) {N E : EReal} {ε : ℝ}
    (hN : N = ((n : ℝ) : EReal)) (hε : 0 < ε) (hE : E = (ε : EReal))
    (hS : S (ix2 (0 : Fin 1) j) = g * Ideal.rsqrt (Ideal.div (colSumSq X (ix2 (0 : Fin 1) j)) N
      - Ideal.div (colSum X (ix2 (0 : Fin 1) j)) N * Ideal.div (colSum X (ix2 (0 : Fin 1) j)) N + E))
    (hT : T (ix2 (0 : Fin 1) j) = b - Ideal.div (colSum X (ix2 (0 : Fin 1) j)) N * S (ix2 (0 : Fin 1) j))
    (p : Fin n) : ∃ r : ℝ, affine X S T (ix2 p j) = (r : EReal) :=
  (batchNorm_col hn (x := fun p => X (ix2 p j)) (fun p => hX _) hg hb hN hε hE hS hT rfl rfl p).2

/-- The scaled and shifted array is real when the rows S and T are the computed scale and shift in every column. -/
theorem affine_batchNorm_isReal (hn : 0 < n) {X : Mat n d} (hX : IsReal X) {S T G B : Mat 1 d} (hG : IsReal G)
    (hB : IsReal B) {N E : EReal} {ε : ℝ} (hN : N = ((n : ℝ) : EReal)) (hε : 0 < ε) (hE : E = (ε : EReal))
    (hS : ∀ j : Fin d, S (ix2 (0 : Fin 1) j) = G (ix2 (0 : Fin 1) j) * Ideal.rsqrt
      (Ideal.div (colSumSq X (ix2 (0 : Fin 1) j)) N
        - Ideal.div (colSum X (ix2 (0 : Fin 1) j)) N * Ideal.div (colSum X (ix2 (0 : Fin 1) j)) N + E))
    (hT : ∀ j : Fin d, T (ix2 (0 : Fin 1) j)
      = B (ix2 (0 : Fin 1) j) - Ideal.div (colSum X (ix2 (0 : Fin 1) j)) N * S (ix2 (0 : Fin 1) j)) :
    IsReal (affine X S T) := by
  intro i
  rw [eq_ix2 i]
  exact affine_batchNorm_real hn hX (i 1) (hG _) (hB _) hN hε hE (hS _) (hT _) (i 0)

/-- The positive part of the scaled and shifted array, at (p, j). -/
theorem relu_affine_batchNorm (hn : 0 < n) {X : Mat n d} (hX : IsReal X) {S T : Mat 1 d} (j : Fin d) {g b : EReal}
    (hg : ∃ r : ℝ, g = (r : EReal)) (hb : ∃ r : ℝ, b = (r : EReal)) {N E : EReal} {ε : ℝ}
    (hN : N = ((n : ℝ) : EReal)) (hε : 0 < ε) (hE : E = (ε : EReal)) {m v : EReal}
    (hS : S (ix2 (0 : Fin 1) j) = g * Ideal.rsqrt (Ideal.div (colSumSq X (ix2 (0 : Fin 1) j)) N
      - Ideal.div (colSum X (ix2 (0 : Fin 1) j)) N * Ideal.div (colSum X (ix2 (0 : Fin 1) j)) N + E))
    (hT : T (ix2 (0 : Fin 1) j) = b - Ideal.div (colSum X (ix2 (0 : Fin 1) j)) N * S (ix2 (0 : Fin 1) j))
    (hM : m = Ideal.div (∑ p : Fin n, X (ix2 p j)) N)
    (hV : v = Ideal.div (∑ p : Fin n, (X (ix2 p j) - m) * (X (ix2 p j) - m)) N) (p : Fin n) :
    relu (affine X S T) (ix2 p j) = max (g * (X (ix2 p j) - m) * Ideal.rsqrt (v + E) + b) 0 := by
  rw [relu_apply, affine_batchNorm hn hX j hg hb hN hε hE hS hT hM hV p]

end InVocabulary

end Cert.Spec

end
-- ==== Proof.BridgeBN.lean ====
/-
  The two programs normalise the columns of a 100000 × 128 array the same way when every entry is real.

  One program scales column j by s = γ · rsqrt (mean of squares − mean² + ε) and shifts it by β − mean · s, the
  means taken from the column sums of the entries and of their squares; the other subtracts the column mean, takes
  the mean of the squared deviations as the variance (dividing by the row count less a zero, a divisor it checks to
  be positive), and forms γ · (x − mean) · rsqrt (variance + ε) + β.  Each spelling is read at an index one
  operation at a time: a scalar broadcast holds its scalar, a length-128 array made a row and repeated down the rows
  holds its entry j at (p, j), a host sum down axis 0 from the zero word is the plain sum down the column.  The
  column identity of the normalisation then equates the two, and their positive parts.
-/
import proofs.«171444_j1073741824178_1_alg».proof.Proof.KDefs
import proofs.«171444_j1073741824178_1_alg».proof.Proof.RefDefs
import proofs.«171444_j1073741824178_1_alg».proof.Proof.LibBatchNorm
import Idealize.ShloMosaic.Lib.Pipeline.Value
import Idealize.ShloMosaic.Lib.ValueLayout

noncomputable section

open scoped BigOperators

namespace Cert.Bridge

open Idealize.ShloMosaic Idealize.ShloMosaic.ValueIdx Cert.Spec

/-! ## Layout operations and the column sum, read at an index, for any sizes -/

section Generic
variable {α : Type} {a b : ℕ}

/-- A scalar broadcast to any shape holds the scalar everywhere. -/
theorem bcast_scalar_apply {t : Shape} (h : (⟨0, ![]⟩ : Shape).BroadcastsInDim t (![] : Fin 0 → Fin t.rank))
    (c : (⟨0, ![]⟩ : Shape).Idx → α) (j : t.Idx) : broadcastInDim t (![] : Fin 0 → Fin t.rank) h c j = c ix0 :=
  congrArg c (funext fun ax => ax.elim0)

/-- An [b] array broadcast along axis 1 into the row [1, b] reads, at (u, i), the operand at i. -/
theorem bcast_a_1a_apply (x : (⟨1, ![b]⟩ : Shape).Idx → α)
    (h : (⟨1, ![b]⟩ : Shape).BroadcastsInDim ⟨2, ![1, b]⟩ (![1] : Fin 1 → Fin 2))
    (u : Fin 1) (i : Fin b) : broadcastInDim ⟨2, ![1, b]⟩ (![1] : Fin 1 → Fin 2) h x (ix2 u i) = x (ix1 i) := by
  refine broadcastInDim_apply _ h x (ix2 u i) (ix1 i) fun ax => ?_
  match ax with
  | ⟨0, _⟩ =>
    show i.val = if b = 1 then 0 else i.val
    split
    · have := i.isLt; omega
    · rfl

/-- A row [1, b] broadcast (in dimensions 0, 1) to [a, b] reads, at (p, c), the row's entry c. -/
theorem bcast_1b_ab_apply (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The index of column c with the first coordinate k put back is (k, c). -/
theorem lift_col (h : (⟨2, ![a, b]⟩ : Shape).Reduces [0] ⟨1, ![b]⟩) (c : Fin b)
    (k : Fin ((⟨2, ![a, b]⟩ : Shape).size 0)) : h.lift (ix1 c) k = ix2 (⟨k.val, k.isLt⟩ : Fin a) c := by
  funext ax
  refine Fin.ext ?_
  match ax with
  | ⟨0, _⟩ => rfl
  | ⟨1, _⟩ => rfl

/-- The host's sum of an [a, b] array along axis 0, at column c: the initial value plus the sum over k of the
    entries (k, c). -/
theorem hostColSum_apply {u : Shape} (x : FVec Ideal ⟨2, ![a, b]⟩ .f32) (init : u.Idx → Ideal .f32)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduceAdd (F := Ideal) x init h' hu (ix1 c) = init (Shape.Idx.first hu) + ∑ k : Fin a, x (ix2 k c) := by
  unfold Host.reduceAdd
  rw [Ideal.hostReduceAdd_def, Ideal.hostReduceAdd_single h' h]
  refine congrArg (_ + ·) (Finset.sum_congr rfl fun k _ => congrArg x ?_)
  exact lift_col h c k

end Generic

/-! ## Pointwise host operations read at an index -/

section Pointwise
variable {s : Shape} {φ : FTy}

theorem hostDivf_apply (x y : FVec Ideal s φ) (i : s.Idx) : Host.divf (F := Ideal) x y i = Ideal.div (x i) (y i) := rfl

theorem hostRsqrt_apply (x : FVec Ideal s φ) (i : s.Idx) : Host.rsqrt (F := Ideal) x i = Ideal.rsqrt (x i) := rfl

end Pointwise

/-! ## The row count and the comparison that guards the variance's divisor -/

local notation "N₀" => Ideal.ofBits FTy.f32 0x47C35000#32
local notation "E₀" => Ideal.ofBits FTy.f32 0x3727C5AC#32

/-- The row count less the integer zero converted is the row count. -/
theorem count_sub_zero : N₀ - FloatOps.sitofp (F := Ideal) .f32 (0#32 : BitVec 32) = N₀ := by
  show N₀ - ((((0#32 : BitVec 32).toInt : ℝ)) : EReal) = N₀
  rw [show (0#32 : BitVec 32).toInt = 0 from by decide, Int.cast_zero, EReal.coe_zero, sub_zero]

/-- The row count is greater than zero, as the comparison's bit. -/
theorem count_gt_zero : FloatOps.cmpf (F := Ideal) .ogt N₀ (Ideal.ofBits .f32 0x00000000#32) = 1#1 := by
  show BitVec.ofBool (decide (Ideal.ofBits .f32 0x00000000#32 < N₀)) = 1#1
  rw [ofBits_zero, ofBits_count, decide_eq_true (EReal.coe_pos.mpr (by norm_num))]
  rfl

/-! ## The kernel program's spelling, one row at column j -/

section Kernel
open Cert.KernelIdeal

theorem mean_apply (s : FVec Ideal S1x128 .f32) (j : Fin 128) :
    KerVal.mean s (ix2 (0 : Fin 1) j) = Ideal.div (s (ix2 (0 : Fin 1) j)) N₀ := rfl

theorem row_apply (g : FVec Ideal S128 .f32) (j : Fin 128) : KerVal.row g (ix2 (0 : Fin 1) j) = g (ix1 j) :=
  shapeCast_a_1a_apply g _ 0 j

theorem scale_apply (s sq : FVec Ideal S1x128 .f32) (g : FVec Ideal S128 .f32) (j : Fin 128) :
    KerVal.scale s sq g (ix2 (0 : Fin 1) j)
      = g (ix1 j) * Ideal.rsqrt (Ideal.div (sq (ix2 (0 : Fin 1) j)) N₀
          - Ideal.div (s (ix2 (0 : Fin 1) j)) N₀ * Ideal.div (s (ix2 (0 : Fin 1) j)) N₀ + E₀) := by
  show KerVal.row g (ix2 (0 : Fin 1) j) * Ideal.rsqrt (KerVal.mean sq (ix2 (0 : Fin 1) j)
    - KerVal.mean s (ix2 (0 : Fin 1) j) * KerVal.mean s (ix2 (0 : Fin 1) j) + E₀) = _
  rw [row_apply, mean_apply, mean_apply]

theorem shift_apply (s sq : FVec Ideal S1x128 .f32) (g b : FVec Ideal S128 .f32) (j : Fin 128) :
    KerVal.shift s sq g b (ix2 (0 : Fin 1) j)
      = b (ix1 j) - Ideal.div (s (ix2 (0 : Fin 1) j)) N₀ * KerVal.scale s sq g (ix2 (0 : Fin 1) j) := by
  show KerVal.row b (ix2 (0 : Fin 1) j) - KerVal.mean s (ix2 (0 : Fin 1) j) * KerVal.scale s sq g (ix2 (0 : Fin 1) j) = _
  rw [row_apply, mean_apply]

end Kernel

/-! ## The reference program's spelling, at column j -/

section Reference
open Cert.ReferenceIdeal

/-- The reference's column sum from the zero word: the plain sum down the column. -/
theorem ref_colSum (y : FVec Ideal S100000x128 .f32) (h' : S100000x128.ReducesTo [0] S128) (hu : 0 < S_.numel) (j : Fin 128) :
    Host.reduceAdd (F := Ideal) y (constant (F := Ideal) S_ .f32 0x00000000#32) h' hu (ix1 j)
      = ∑ p : Fin 100000, y (ix2 p j) := by
  rw [hostColSum_apply y _ h' (by decide) hu j, constant_apply, ofBits_zero, zero_add]

/-- A length-128 array made a row and repeated down 100000 rows reads, at (p, j), its entry j. -/
theorem ref_bcast2 (v : FVec Ideal S128 .f32) (h1 : S1x128.BroadcastsInDim S100000x128 (![0, 1] : Fin 2 → Fin 2))
    (h2 : S128.BroadcastsInDim S1x128 (![1] : Fin 1 → Fin 2)) (p : Fin 100000) (j : Fin 128) :
    broadcastInDim S100000x128 (![0, 1] : Fin 2 → Fin 2) h1 (broadcastInDim S1x128 (![1] : Fin 1 → Fin 2) h2 v) (ix2 p j)
      = v (ix1 j) := by
  rw [bcast_1b_ab_apply, bcast_a_1a_apply]

end Reference

section Reference2
open Cert.ReferenceIdeal

/-- The reference's column mean, as the row it subtracts inside its variance: at column j, the column sum over the
    row count. -/
theorem ref_meanRow_apply (x : FVec Ideal S100000x128 .f32) (h2 : S128.BroadcastsInDim S1x128 (![1] : Fin 1 → Fin 2))
    (h3 : S_.BroadcastsInDim S1x128 (![] : Fin 0 → Fin 2)) (h' : S100000x128.ReducesTo [0] S128) (hu : 0 < S_.numel)
    (j : Fin 128) :
    Host.divf (F := Ideal)
        (broadcastInDim S1x128 (![1] : Fin 1 → Fin 2) h2
          (Host.reduceAdd (F := Ideal) x (constant (F := Ideal) S_ .f32 0x00000000#32) h' hu))
        (broadcastInDim S1x128 (![] : Fin 0 → Fin 2) h3 (constant (F := Ideal) S_ .f32 0x47C35000#32)) (ix2 (0 : Fin 1) j)
      = Ideal.div (∑ q : Fin 100000, x (ix2 q j)) N₀ := by
  rw [hostDivf_apply, bcast_a_1a_apply, bcast_scalar_apply, constant_apply, ref_colSum]

/-- The reference's variance at column j: the sum of the squared deviations from the column mean, over the row
    count. -/
theorem var_apply (x : FVec Ideal S100000x128 .f32) (j : Fin 128) :
    RefVal.var x (ix1 j)
      = Ideal.div (∑ p : Fin 100000, (x (ix2 p j) - Ideal.div (∑ q : Fin 100000, x (ix2 q j)) N₀)
          * (x (ix2 p j) - Ideal.div (∑ q : Fin 100000, x (ix2 q j)) N₀)) N₀ := by
  unfold RefVal.var
  rw [select_apply, bcast_scalar_apply, cmpf_apply, subf_apply, constant_apply, constant_apply, sitofp_apply,
    constantI_apply, count_sub_zero, count_gt_zero, select_one, hostDivf_apply, bcast_scalar_apply, subf_apply,
    constant_apply, sitofp_apply, constantI_apply, count_sub_zero, ref_colSum]
  refine congrArg (Ideal.div · N₀) (Finset.sum_congr rfl fun p _ => ?_)
  rw [mulf_apply, subf_apply, bcast_1b_ab_apply, ref_meanRow_apply]

/-- The reference's normalisation at (p, j). -/
theorem bn_apply (x : FVec Ideal S100000x128 .f32) (g b : FVec Ideal S128 .f32) (p : Fin 100000) (j : Fin 128) :
    RefVal.bn x g b (ix2 p j)
      = g (ix1 j) * (x (ix2 p j) - Ideal.div (∑ q : Fin 100000, x (ix2 q j)) N₀)
          * Ideal.rsqrt (RefVal.var x (ix1 j) + E₀) + b (ix1 j) := by
  unfold RefVal.bn
  rw [addf_apply, mulf_apply, mulf_apply, subf_apply, ref_bcast2, ref_bcast2, ref_bcast2, ref_bcast2, hostDivf_apply,
    bcast_scalar_apply, constant_apply, ref_colSum, hostRsqrt_apply, addf_apply, bcast_scalar_apply, constant_apply]

/-- The reference's positive part at an index. -/
theorem ref_relu_apply (y : FVec Ideal S100000x128 .f32) (i : S100000x128.Idx) : RefVal.relu y i = max (y i) 0 := by
  unfold RefVal.relu
  rw [maximumf_apply, bcast_scalar_apply, constant_apply, ofBits_zero]

end Reference2

/-! ## The two normalisations agree on real data -/

section Agree
open Cert.KernelIdeal

theorem norml_eq_bn (x : FVec Ideal S100000x128 .f32) (hx : IsReal x) (g b : FVec Ideal S128 .f32) (hg : IsReal g)
    (hb : IsReal b) : KerVal.norml x g b = RefVal.bn x g b := by
  funext i
  obtain ⟨p, j, rfl⟩ : ∃ (p : Fin 100000) (j : Fin 128), i = ix2 p j := ⟨i 0, i 1, eq_ix2 i⟩
  obtain ⟨ε, hε, hE⟩ := ofBits_eps
  rw [bn_apply, var_apply]
  exact affine_batchNorm (n := 100000) (d := 128) (by norm_num) hx j (hg _) (hb _)
    (by rw [ofBits_count, Nat.cast_ofNat]) hε hE (scale_apply _ _ g j) (shift_apply _ _ g b j) rfl rfl p

theorem norml_isReal (x : FVec Ideal S100000x128 .f32) (hx : IsReal x) (g b : FVec Ideal S128 .f32) (hg : IsReal g)
    (hb : IsReal b) : IsReal (KerVal.norml x g b) := by
  intro i
  obtain ⟨p, j, rfl⟩ : ∃ (p : Fin 100000) (j : Fin 128), i = ix2 p j := ⟨i 0, i 1, eq_ix2 i⟩
  obtain ⟨ε, hε, hE⟩ := ofBits_eps
  exact affine_batchNorm_real (n := 100000) (d := 128) (by norm_num) hx j (hg _) (hb _)
    (by rw [ofBits_count, Nat.cast_ofNat]) hε hE (scale_apply _ _ g j) (shift_apply _ _ g b j) p

theorem relu_norml_eq_relu_bn (x : FVec Ideal S100000x128 .f32) (hx : IsReal x) (g b : FVec Ideal S128 .f32)
    (hg : IsReal g) (hb : IsReal b) : Cert.Spec.relu (KerVal.norml x g b) = RefVal.relu (RefVal.bn x g b) := by
  funext i
  rw [ref_relu_apply, ← norml_eq_bn x hx g b hg hb]
  rfl

end Agree

end Cert.Bridge

end
-- ==== Proof.Bridge.lean ====
/-
  The two programs compute one function of finite arguments.

  Stage by stage the kernel's program and the reference apply the same mathematics: the projection and the two dense
  layers are the same sums of products; the graph convolution is the same chain of array operations on equal
  features; the normalisation differs in form — a scale and a shift from the sums and the sums of squares against
  the centred form with the variance of the deviations — and the two forms agree on columns of real numbers.  So the
  equality is carried forward one stage at a time, together with the fact that every stage's output is real, from
  arguments that are real.
-/
import proofs.«171444_j1073741824178_1_alg».proof.Proof.KDefs
import proofs.«171444_j1073741824178_1_alg».proof.Proof.RefDefs
import proofs.«171444_j1073741824178_1_alg».proof.Proof.LibReals
import proofs.«171444_j1073741824178_1_alg».proof.Proof.BridgeDense
import proofs.«171444_j1073741824178_1_alg».proof.Proof.BridgeConv
import proofs.«171444_j1073741824178_1_alg».proof.Proof.BridgeBN

noncomputable section

namespace Cert.Bridge

open Idealize.ShloMosaic Cert.Spec

/-- On real arguments the kernel's value is the reference's. -/
theorem out_eq (a0 : FVec Ideal Cert.KernelIdeal.S100000x256 .f32) (a1 : IVec Cert.KernelIdeal.S2x1600000 32)
    (a2 : FVec Ideal Cert.KernelIdeal.S256x256 .f32) (a3 : FVec Ideal Cert.KernelIdeal.S256 .f32)
    (a4 : FVec Ideal Cert.KernelIdeal.S256x128 .f32) (a5 a6 a7 : FVec Ideal Cert.KernelIdeal.S128 .f32)
    (a8 : FVec Ideal Cert.KernelIdeal.S128x128 .f32) (a9 a10 a11 : FVec Ideal Cert.KernelIdeal.S128 .f32)
    (h0 : IsReal a0) (h2 : IsReal a2) (h3 : IsReal a3) (h4 : IsReal a4) (h5 : IsReal a5) (h6 : IsReal a6) (h7 : IsReal a7)
    (h8 : IsReal a8) (h9 : IsReal a9) (h10 : IsReal a10) (h11 : IsReal a11) :
    Cert.KerVal.out a0 a1 a2 a3 a4 a5 a6 a7 a8 a9 a10 a11 = Cert.RefVal.out a0 a1 a2 a3 a4 a5 a6 a7 a8 a9 a10 a11 := by
  -- the projection
  have e1 : Cert.KerVal.proj a0 a2 a3 = Cert.RefVal.proj a0 a2 a3 := proj_eq a0 a2 a3
  have r1 : IsReal (Cert.KerVal.proj a0 a2 a3) := proj_isReal h0 h2 h3
  -- the first dense layer
  have e2 : Cert.KerVal.lin1 (Cert.KerVal.proj a0 a2 a3) a4 = Cert.RefVal.lin1 (Cert.RefVal.proj a0 a2 a3) a4 :=
    (lin1_eq _ a4).trans (congrArg (fun x => Cert.RefVal.lin1 x a4) e1)
  have r2 : IsReal (Cert.KerVal.lin1 (Cert.KerVal.proj a0 a2 a3) a4) := lin1_isReal r1 h4
  -- the first convolution
  have e3 : Cert.KerVal.conv (Cert.KerVal.lin1 (Cert.KerVal.proj a0 a2 a3) a4) a1 a5
      = Cert.RefVal.conv (Cert.RefVal.lin1 (Cert.RefVal.proj a0 a2 a3) a4) a1 a5 :=
    (conv_eq _ a1 a5).trans (congrArg (fun x => Cert.RefVal.conv x a1 a5) e2)
  have r3 : IsReal (Cert.KerVal.conv (Cert.KerVal.lin1 (Cert.KerVal.proj a0 a2 a3) a4) a1 a5) := conv_isReal _ r2 a1 a5 h5
  -- the first normalisation and the positive part
  have e4 : Cert.KerVal.layer1 a0 a1 a2 a3 a4 a5 a6 a7
      = Cert.RefVal.relu (Cert.RefVal.bn (Cert.RefVal.conv (Cert.RefVal.lin1 (Cert.RefVal.proj a0 a2 a3) a4) a1 a5) a6 a7) :=
    (relu_norml_eq_relu_bn _ r3 a6 a7 h6 h7).trans (congrArg (fun x => Cert.RefVal.relu (Cert.RefVal.bn x a6 a7)) e3)
  have r4 : IsReal (Cert.KerVal.layer1 a0 a1 a2 a3 a4 a5 a6 a7) := (norml_isReal _ r3 a6 a7 h6 h7).relu
  -- the second dense layer
  have e5 : Cert.KerVal.lin2 (Cert.KerVal.layer1 a0 a1 a2 a3 a4 a5 a6 a7) a8 = Cert.RefVal.lin2 _ a8 :=
    (lin2_eq _ a8).trans (congrArg (fun x => Cert.RefVal.lin2 x a8) e4)
  have r5 : IsReal (Cert.KerVal.lin2 (Cert.KerVal.layer1 a0 a1 a2 a3 a4 a5 a6 a7) a8) := lin2_isReal r4 h8
  -- the second convolution
  have e6 : Cert.KerVal.conv (Cert.KerVal.lin2 (Cert.KerVal.layer1 a0 a1 a2 a3 a4 a5 a6 a7) a8) a1 a9 = Cert.RefVal.conv _ a1 a9 :=
    (conv_eq _ a1 a9).trans (congrArg (fun x => Cert.RefVal.conv x a1 a9) e5)
  have r6 : IsReal (Cert.KerVal.conv (Cert.KerVal.lin2 (Cert.KerVal.layer1 a0 a1 a2 a3 a4 a5 a6 a7) a8) a1 a9) :=
    conv_isReal _ r5 a1 a9 h9
  -- the second normalisation
  exact (norml_eq_bn _ r6 a10 a11 h10 h11).trans (congrArg (fun x => Cert.RefVal.bn x a10 a11) e6)

end Cert.Bridge

end
-- ==== Proof.LibFiniteAll.lean ====
/-
  "Every entry is finite", decoded.

  A precondition of the form `jnp.all(jnp.abs(x) < inf)` prints as an all-reduction by `and`, into a scalar, of the bits
  of the comparison `|x i| < (the f32 word of +inf)`.  On the extended reals `|x|` is `max x (-x)`, and it is below `⊤`
  exactly when `x` is neither infinity, that is, when `x` is a real number.  So:

  * `real_of_abs_lt_inf`: an extended real whose absolute value compares below the word `0x7F800000` is a real number;
  * `all_real`: when the all-reduction (over any axes, into the scalar shape, from any initial word) of those bits for
    an array `x` of any shape is 1, every entry of `x` is a real number.

  The scalar shape here is `S0 = ⟨0, ![]⟩`, the shape a printed program calls `S_`; its one index is `ValueIdx.ix0`.
-/
import Idealize.ShloMosaic.PureOps.Ideal
import Idealize.ShloMosaic.Lib.ReduceAll
import Idealize.ShloMosaic.Lib.Pipeline.Value
import Idealize.ShloMosaic.Lib.ValueIdx

noncomputable section

namespace Cert.LibFiniteAll

open Idealize.ShloMosaic Idealize.ShloMosaic.ValueIdx

/-- The scalar shape. -/
abbrev S0 : Shape := ⟨0, ![]⟩

instance : Subsingleton S0.Idx := ⟨fun _ _ => funext fun d => d.elim0⟩

/-- An extended real whose absolute value is below the f32 word of +inf is a real number. -/
theorem real_of_abs_lt_inf (x : EReal)
    (h : FloatOps.cmpf (F := Ideal) .olt (FloatOps.hostAbsf x) (Ideal.ofBits .f32 0x7F800000#32) = 1#1) :
    ∃ r : ℝ, x = r := by
  have htop : Ideal.ofBits .f32 0x7F800000#32 = ⊤ := by simp [Ideal.ofBits, Ideal.ieee]
  rw [htop] at h
  change BitVec.ofBool (decide (max x (-x) < ⊤)) = 1#1 at h
  have hlt : max x (-x) < ⊤ := by
    by_contra hn
    rw [decide_eq_false hn] at h
    exact absurd h (by decide)
  induction x using EReal.rec with
  | bot => exact absurd hlt (by simp)
  | coe r => exact ⟨r, rfl⟩
  | top => exact absurd hlt (by simp)

/-- `jnp.all(|x| < inf)`: when the all-reduction of the comparison's bits is 1, every entry of `x` is a real. -/
theorem all_real {s : Shape} {axes : List (Fin s.rank)} (x : FVec Ideal s .f32) (dims : Fin S0.rank → Fin s.rank)
    (hb : S0.BroadcastsInDim s dims) (h : s.ReducesTo axes S0) (hu : 0 < S0.numel)
    (e : Host.reduce IntOp.andi (cmpf .olt (Host.absf x) (broadcastInDim s dims hb (constant (F := Ideal) S0 .f32 0x7F800000#32)))
      (constantI S0 1 1#1) h hu ix0 = 1#1) (i : s.Idx) : ∃ r : ℝ, x i = r := by
  have hi := Host.reduce_andi_all _ _ h hu ix0 e i
  have hbc : broadcastInDim s dims hb (constant (F := Ideal) S0 .f32 0x7F800000#32) i = Ideal.ofBits .f32 0x7F800000#32 :=
    broadcastInDim_apply dims hb _ i (fun a => a.elim0) (fun a => a.elim0)
  refine real_of_abs_lt_inf (x i) ?_
  rw [← hbc]
  exact hi

end Cert.LibFiniteAll

end
-- ==== Proof.PreReal.lean ====
/-
  The precondition, decoded: every float argument is an array of real numbers.

  The precondition is the conjunction, over the eleven float arguments, of "every entry's absolute value is below
  +∞".  An extended real whose absolute value is below +∞ is neither infinity, so it is a real number; a conjunction
  of bits that is 1 has every bit 1; and an all-reduction by "and" that is 1 had a 1 at every entry.
-/
import proofs.«171444_j1073741824178_1_alg».proof.Defs
import proofs.«171444_j1073741824178_1_alg».proof.Proof.LibFiniteAll
import Idealize.ShloMosaic.Lib.ReduceAll
import Idealize.ShloMosaic.Lib.Affine
import Idealize.ShloMosaic.Lib.ValueIdx

noncomputable section

namespace Cert.PreReal

open Idealize.ShloMosaic Idealize.ShloMosaic.ValueIdx Cert.Pre_finite_inputs Cert.Pre_finite_inputs.Facts

variable [Cert.Pre_finite_inputs.Facts]

/-- When the printed predicate is 1, each of the eleven float arrays it tests is an array of reals. -/
theorem fn_one (a0 : FVec Ideal S100000x256 .f32) (a1 : IVec S2x1600000 32) (a2 : FVec Ideal S256x256 .f32) (a3 : FVec Ideal S256 .f32)
    (a4 : FVec Ideal S256x128 .f32) (a5 a6 a7 : FVec Ideal S128 .f32) (a8 : FVec Ideal S128x128 .f32) (a9 a10 a11 : FVec Ideal S128 .f32)
    (h : fn (F := Ideal) a0 a1 a2 a3 a4 a5 a6 a7 a8 a9 a10 a11 ix0 = 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal))
    ∧ (∀ i, ∃ r : ℝ, a10 i = (r : EReal)) ∧ (∀ i, ∃ r : ℝ, a11 i = (r : EReal)) := by
  unfold fn fn_part1 fn_part2 fn_part3 at h
  dsimp only at h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h2⟩ := IntOp.andi_eq_one.1 h
  exact ⟨Cert.LibFiniteAll.all_real a0 _ _ _ _ h0, Cert.LibFiniteAll.all_real a2 _ _ _ _ h2, Cert.LibFiniteAll.all_real a3 _ _ _ _ h3,
    Cert.LibFiniteAll.all_real a4 _ _ _ _ h4, Cert.LibFiniteAll.all_real a5 _ _ _ _ h5, Cert.LibFiniteAll.all_real a6 _ _ _ _ h6,
    Cert.LibFiniteAll.all_real a7 _ _ _ _ h7, Cert.LibFiniteAll.all_real a8 _ _ _ _ h8, Cert.LibFiniteAll.all_real a9 _ _ _ _ h9,
    Cert.LibFiniteAll.all_real a10 _ _ _ _ h10, Cert.LibFiniteAll.all_real a11 _ _ _ _ h11⟩

/-- Under the precondition every float argument of the program is, on every device, an array of real numbers. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal)) :=
  fn_one _ _ _ _ _ _ _ _ _ _ _ _ (congrFun (h c) ix0)

end Cert.PreReal

end
-- ==== Proof.lean ====
/-
  A graph encoder — a projection, then twice: a dense layer, a degree-normalised sum over incoming edges with self
  loops and a bias, and a batch normalisation (with a positive part after the first) — computed by seven kernels
  with plain array operations between them, against the same encoder written as plain array operations.

  The frames of the two kernel programs are their launch certificates; the reference's frame is its run with the
  result dropped.  No rewrite was applied when the kernel program was read at the exact instance, so nothing is
  owed for that reading.  At the exact instance both programs end with their result at one function of the
  arguments: the kernel's program at `Cert.KerVal.out` (its run, with the result buffer read back through the run's
  boundaries and every kernel region in closed form), the reference at `Cert.RefVal.out` (its run as a straight
  line of operations), and the two functions agree on arguments whose float arrays hold real numbers
  (`Cert.Bridge.out_eq`) — which the precondition says of every float argument.
-/
import proofs.«171444_j1073741824178_1_alg».proof.Defs
import proofs.«171444_j1073741824178_1_alg».proof.Proof.Gen.Kernel
import proofs.«171444_j1073741824178_1_alg».proof.Proof.Gen.Kernel.Frame
import proofs.«171444_j1073741824178_1_alg».proof.Proof.Gen.KernelIdeal
import proofs.«171444_j1073741824178_1_alg».proof.Proof.Gen.KernelIdeal.Frame
import proofs.«171444_j1073741824178_1_alg».proof.Proof.Gen.ReferenceIdeal
import proofs.«171444_j1073741824178_1_alg».proof.Proof.Gen.Pre_finite_inputs
import proofs.«171444_j1073741824178_1_alg».proof.Proof.KRun
import proofs.«171444_j1073741824178_1_alg».proof.Proof.KStages
import proofs.«171444_j1073741824178_1_alg».proof.Proof.RefRun
import proofs.«171444_j1073741824178_1_alg».proof.Proof.Bridge
import proofs.«171444_j1073741824178_1_alg».proof.Proof.PreReal

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.RefVal.run m ρ)

/-- The kernel program read at the exact instance is its own text: no rewrite was applied. -/
theorem preserves : Cert.preserves_Kernel_KernelIdeal := trivial

/-- Both programs end at one function of the arguments. -/
theorem algebraic : Cert.algebraic_KernelIdeal_ReferenceIdeal := by
  intro m ρ m' ρ' hpre hagree
  refine ⟨fun c => Cert.KerVal.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KerVal.W14_v106 m ρ c), (h c).2⟩) (Cert.KerVal.run m ρ)
  · refine (θ_run Cert.ReferenceIdeal.defs _ _).mono (fun r h c => ⟨(h c).1.trans ?_, (h c).2⟩)
      (Cert.RefVal.run m' ρ')
    obtain ⟨e0, e1, e2, e3, e4, e5, e6, e7, e8, e9, e10, e11⟩ := hagree c
    rw [e0, e1, e2, e3, e4, e5, e6, e7, e8, e9, e10, e11]
    obtain ⟨r0, r2, r3, r4, r5, r6, r7, r8, r9, r10, r11⟩ := Cert.PreReal.args_real m hpre c
    exact (Cert.Bridge.out_eq _ _ _ _ _ _ _ _ _ _ _ _ r0 r2 r3 r4 r5 r6 r7 r8 r9 r10 r11).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
